-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x64x128x64 : Shape := ⟨5, ![8, 4, 64, 128, 64]⟩
abbrev S8x1 : Shape := ⟨2, ![8, 1]⟩
abbrev S8x1x64x128x64 : Shape := ⟨5, ![8, 1, 64, 128, 64]⟩
abbrev S_ : Shape := ⟨0, ![]⟩

class Facts : Prop where
  bcast_S_S8x4x64x128x64 : S_.BroadcastsInDim S8x4x64x128x64 (![] : Fin 0 → Fin S8x4x64x128x64.rank)
  reducesTo_S8x4x64x128x64_S_d0_1_2_3_4 : S8x4x64x128x64.ReducesTo [0, 1, 2, 3, 4] S_
  h_S_ : 0 < S_.numel
  bcast_S_S8x1 : S_.BroadcastsInDim S8x1 (![] : Fin 0 → Fin S8x1.rank)
  reducesTo_S8x1_S_d0_1 : S8x1.ReducesTo [0, 1] S_
  bcast_S_S8x1x64x128x64 : S_.BroadcastsInDim S8x1x64x128x64 (![] : Fin 0 → Fin S8x1x64x128x64.rank)
  reducesTo_S8x1x64x128x64_S_d0_1_2_3_4 : S8x1x64x128x64.ReducesTo [0, 1, 2, 3, 4] S_

variable [Facts]

def fn_part1 {F : FTy → Type} [FloatOps F] (main_arg4 : FVec F S8x1x64x128x64 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S8x1x64x128x64 .f32 := Host.absf main_arg4
  let main_cst_6 : FVec F S_ .f32 := constant S_ .f32 0x7F800000#32
  let main_v20 : FVec F S8x1x64x128x64 .f32 := broadcastInDim S8x1x64x128x64 ![] bcast_S_S8x1x64x128x64 main_cst_6
  let main_v21 : IVec S8x1x64x128x64 1 := cmpf .olt main_v19 main_v20
  let main_c_7 : IVec S_ 1 := constantI S_ 1 1#1
  let main_v22 : IVec S_ 1 := (fun x v => Host.reduce IntOp.andi x v reducesTo_S8x1x64x128x64_S_d0_1_2_3_4 h_S_) main_v21 main_c_7
  let main_v23 : IVec S_ 1 := andi main_v18 main_v22
  main_v23

def fn {F : FTy → Type} [FloatOps F] (main_arg0 : FVec F S8x4x64x128x64 .f32) (main_arg1 : FVec F S8x1 .f32) (main_arg2 : FVec F S8x4x64x128x64 .f32) (main_arg3 : FVec F S8x1 .f32) (main_arg4 : FVec F S8x1x64x128x64 .f32) : IVec S_ 1 :=
  let main_v0 : FVec F S8x4x64x128x64 .f32 := Host.absf main_arg0
  let main_cst : FVec F S_ .f32 := constant S_ .f32 0x7F800000#32
  let main_v1 : FVec F S8x4x64x128x64 .f32 := broadcastInDim S8x4x64x128x64 ![] bcast_S_S8x4x64x128x64 main_cst
  let main_v2 : IVec S8x4x64x128x64 1 := cmpf .olt main_v0 main_v1
  let main_c : IVec S_ 1 := constantI S_ 1 1#1
  let main_v3 : IVec S_ 1 := (fun x v => Host.reduce IntOp.andi x v reducesTo_S8x4x64x128x64_S_d0_1_2_3_4 h_S_) main_v2 main_c
  let main_v4 : FVec F S8x1 .f32 := Host.absf main_arg1
  let main_cst_0 : FVec F S_ .f32 := constant S_ .f32 0x7F800000#32
  let main_v5 : FVec F S8x1 .f32 := broadcastInDim S8x1 ![] bcast_S_S8x1 main_cst_0
  let main_v6 : IVec S8x1 1 := cmpf .olt main_v4 main_v5
  let main_c_1 : IVec S_ 1 := constantI S_ 1 1#1
  let main_v7 : IVec S_ 1 := (fun x v => Host.reduce IntOp.andi x v reducesTo_S8x1_S_d0_1 h_S_) main_v6 main_c_1
  let main_v8 : IVec S_ 1 := andi main_v3 main_v7
  let main_v9 : FVec F S8x4x64x128x64 .f32 := Host.absf main_arg2
  let main_cst_2 : FVec F S_ .f32 := constant S_ .f32 0x7F800000#32
  let main_v10 : FVec F S8x4x64x128x64 .f32 := broadcastInDim S8x4x64x128x64 ![] bcast_S_S8x4x64x128x64 main_cst_2
  let main_v11 : IVec S8x4x64x128x64 1 := cmpf .olt main_v9 main_v10
  let main_c_3 : IVec S_ 1 := constantI S_ 1 1#1
  let main_v12 : IVec S_ 1 := (fun x v => Host.reduce IntOp.andi x v reducesTo_S8x4x64x128x64_S_d0_1_2_3_4 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg4 main_v13 main_v16
-- ==== Kernel.lean ====
abbrev S8x4x64x128x64 : Shape := ⟨5, ![8, 4, 64, 128, 64]⟩
abbrev S8x1 : Shape := ⟨2, ![8, 1]⟩
abbrev S8x1x64x128x64 : Shape := ⟨5, ![8, 1, 64, 128, 64]⟩
abbrev S2048x128x64 : Shape := ⟨3, ![2048, 128, 64]⟩
abbrev S16x1x128 : Shape := ⟨3, ![16, 1, 128]⟩
abbrev S128x128x64 : Shape := ⟨3, ![128, 128, 64]⟩
abbrev S1x1x128 : Shape := ⟨3, ![1, 1, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S16x1x1 : Shape := ⟨3, ![16, 1, 1]⟩
abbrev S16 : Shape := ⟨1, ![16]⟩
abbrev S_ : Shape := ⟨0, ![]⟩
abbrev S8x1x128 : Shape := ⟨3, ![8, 1, 128]⟩
abbrev S1x4x64x128x64 : Shape := ⟨5, ![1, 4, 64, 128, 64]⟩
abbrev S1x1x64x128x64 : Shape := ⟨5, ![1, 1, 64, 128, 64]⟩
abbrev S64x128x64 : Shape := ⟨3, ![64, 128, 64]⟩
abbrev S64x128x62 : Shape := ⟨3, ![64, 128, 62]⟩
abbrev S62x126x62 : Shape := ⟨3, ![62, 126, 62]⟩
abbrev S64x126x64 : Shape := ⟨3, ![64, 126, 64]⟩
abbrev S62x128x64 : Shape := ⟨3, ![62, 128, 64]⟩
abbrev S62x126 : Shape := ⟨2, ![62, 126]⟩
abbrev S62 : Shape := ⟨1, ![62]⟩
abbrev S1x62 : Shape := ⟨2, ![1, 62]⟩
abbrev S8x1x1 : Shape := ⟨3, ![8, 1, 1]⟩
abbrev S8 : Shape := ⟨1, ![8]⟩
abbrev S64x128 : Shape := ⟨2, ![64, 128]⟩
abbrev S64 : Shape := ⟨1, ![64]⟩
abbrev S1x64 : Shape := ⟨2, ![1, 64]⟩
abbrev S8x1x64x128x1 : Shape := ⟨5, ![8, 1, 64, 128, 1]⟩
abbrev S8x1x64x128 : Shape := ⟨4, ![8, 1, 64, 128]⟩

abbrev nBuf : Space → Nat
  | .hbm => 122
  | .vmem => 24
  | .smem => 0
  | _ => 0

abbrev bufTy : (tb : Table) → Fin (tcTables nBuf tb) → BufTy
  | .hbm, ⟨0, _⟩ => ⟨S8x4x64x128x64, .f32⟩
  | .hbm, ⟨1, _⟩ => ⟨S8x1, .f32⟩
  | .hbm, ⟨2, _⟩ => ⟨S8x4x64x128x64, .f32⟩
  | .hbm, ⟨3, _⟩ => ⟨S8x1, .f32⟩
  | .hbm, ⟨4, _⟩ => ⟨S8x1x64x128x64, .f32⟩
  | .hbm, ⟨5, _⟩ => ⟨S2048x128x64, .f32⟩
  | .hbm, ⟨6, _⟩ => ⟨S2048x128x64, .f32⟩
  | .hbm, ⟨7, _⟩ => ⟨S16x1x128, .f32⟩
  | .hbm, ⟨8, _⟩ => ⟨S16x1x1, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x1x128, .f32⟩
  | .hbm, ⟨15, _⟩ => ⟨S8x1x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S8x1x128, .f32⟩
  | .hbm, ⟨20, _⟩ => ⟨S8x1x1, .f32⟩
  | .hbm, ⟨21, _⟩ => ⟨S8, .f32⟩
  | .hbm, ⟨22, _⟩ => ⟨S_, .f32⟩
  | .hbm, ⟨23, _⟩ => ⟨S_, .f32⟩
  | .hbm, ⟨24, _⟩ => ⟨S8x1x128, .f32⟩
  | .hbm, ⟨25, _⟩ => ⟨S8x1x1, .f32⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x1, .f32⟩
  | .hbm, ⟨36, _⟩ => ⟨S8x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x1x64x128x64, .f32⟩
  | .hbm, ⟨42, _⟩ => ⟨S8x1x64x128x64, .f32⟩
  | .hbm, ⟨43, _⟩ => ⟨S8x1x64x128x64, .f32⟩
  | .hbm, ⟨44, _⟩ => ⟨S8x1x64x128x1, .f32⟩
  | .hbm, ⟨45, _⟩ => ⟨S8x1x64x128, .f32⟩
  | .hbm, ⟨46, _⟩ => ⟨S_, .f32⟩
  | .hbm, ⟨47, _⟩ => ⟨S8x1x64x128, .f32⟩
  | .hbm, ⟨48, _⟩ => ⟨S8x1x64x128, .f32⟩
  | .hbm, ⟨49, _⟩ => ⟨S8x1x64x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x1x64x128x1, .f32⟩
  | .hbm, ⟨55, _⟩ => ⟨S8x1x64x128, .f32⟩
  | .hbm, ⟨56, _⟩ => ⟨S8x1x64x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8x1x64x128x1, .f32⟩
  | .hbm, ⟨63, _⟩ => ⟨S8x1x64x128, .f32⟩
  | .hbm, ⟨64, _⟩ => ⟨S8x1x64x128, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8x1x64x128x1, .f32⟩
  | .hbm, ⟨71, _⟩ => ⟨S8x1x64x128, .f32⟩
  | .hbm, ⟨72, _⟩ => ⟨S8x1x64x128x1, .f32⟩
  | .hbm, ⟨73, _⟩ => ⟨S8x1x64x128, .f32⟩
  | .hbm, ⟨74, _⟩ => ⟨S8x1x64x128, .f32⟩
  | .hbm, ⟨75, _⟩ => ⟨S8x1x64x128, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8x1x64x128x1, .f32⟩
  | .hbm, ⟨81, _⟩ => ⟨S8x1x64x128, .f32⟩
  | .hbm, ⟨82, _⟩ => ⟨S8x1x64x128x1, .f32⟩
  | .hbm, ⟨83, _⟩ => ⟨S8x1x64x128, .f32⟩
  | .hbm, ⟨84, _⟩ => ⟨S8x1x64x128, .f32⟩
  | .hbm, ⟨85, _⟩ => ⟨S8x1x64x128, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S8x1x64x128x1, .f32⟩
  | .hbm, ⟨92, _⟩ => ⟨S8x1x64x128, .f32⟩
  | .hbm, ⟨93, _⟩ => ⟨S8x1x64x128x1, .f32⟩
  | .hbm, ⟨94, _⟩ => ⟨S8x1x64x128, .f32⟩
  | .hbm, ⟨95, _⟩ => ⟨S8x1x64x128, .f32⟩
  | .hbm, ⟨96, _⟩ => ⟨S8x1x64x128, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .local _ .vmem, ⟨0, _⟩ => ⟨S128x128x64, .f32⟩
  | .local _ .vmem, ⟨1, _⟩ => ⟨S128x128x64, .f32⟩
  | .local _ .vmem, ⟨2, _⟩ => ⟨S128x128x64, .f32⟩
  | .local _ .vmem, ⟨3, _⟩ => ⟨S128x128x64, .f32⟩
  | .local _ .vmem, ⟨4, _⟩ => ⟨S1x1x128, .f32⟩
  | .local _ .vmem, ⟨5, _⟩ => ⟨S1x1x128, .f32⟩
  | .local _ .vmem, ⟨6, _⟩ => ⟨S1x4x64x128x64, .f32⟩
  | .local _ .vmem, ⟨7, _⟩ => ⟨S1x4x64x128x64, .f32⟩
  | .local _ .vmem, ⟨8, _⟩ => ⟨S1x1x64x128x64, .f32⟩
  | .local _ .vmem, ⟨9, _⟩ => ⟨S1x1x64x128x64, .f32⟩
  | .local _ .vmem, ⟨10, _⟩ => ⟨S1x1x128, .f32⟩
  | .local _ .vmem, ⟨11, _⟩ => ⟨S1x1x128, .f32⟩
  | .local _ .vmem, ⟨12, _⟩ => ⟨S1x4x64x128x64, .f32⟩
  | .local _ .vmem, ⟨13, _⟩ => ⟨S1x4x64x128x64, .f32⟩
  | .local _ .vmem, ⟨14, _⟩ => ⟨S1x1x64x128x64, .f32⟩
  | .local _ .vmem, ⟨15, _⟩ => ⟨S1x1x64x128x64, .f32⟩
  | .local _ .vmem, ⟨16, _⟩ => ⟨S1x1x128, .f32⟩
  | .local _ .vmem, ⟨17, _⟩ => ⟨S1x1x128, .f32⟩
  | .local _ .vmem, ⟨18, _⟩ => ⟨S1x4x64x128x64, .f32⟩
  | .local _ .vmem, ⟨19, _⟩ => ⟨S1x4x64x128x64, .f32⟩
  | .local _ .vmem, ⟨20, _⟩ => ⟨S1x1x64x128x64, .f32⟩
  | .local _ .vmem, ⟨21, _⟩ => ⟨S1x1x64x128x64, .f32⟩
  | .local _ .vmem, ⟨22, _⟩ => ⟨S1x1x128, .f32⟩
  | .local _ .vmem, ⟨23, _⟩ => ⟨S1x1x128, .f32⟩
  | _, _ => ⟨S8x4x64x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_20 : Ref sig .tc := ⟨.hbm, 97, rfl⟩
abbrev main_v71 : Ref sig .tc := ⟨.hbm, 98, rfl⟩
abbrev main_cst_21 : Ref sig .tc := ⟨.hbm, 99, rfl⟩
abbrev main_v72 : Ref sig .tc := ⟨.hbm, 100, rfl⟩
abbrev main_v73 : Ref sig .tc := ⟨.hbm, 101, rfl⟩
abbrev main_cst_22 : Ref sig .tc := ⟨.hbm, 102, rfl⟩
abbrev main_v74 : Ref sig .tc := ⟨.hbm, 103, rfl⟩
abbrev main_cst_23 : Ref sig .tc := ⟨.hbm, 104, rfl⟩
abbrev main_v75 : Ref sig .tc := ⟨.hbm, 105, rfl⟩
abbrev main_v76 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_cst_25 : Ref sig .tc := ⟨.hbm, 110, rfl⟩
abbrev main_v79 : Ref sig .tc := ⟨.hbm, 111, rfl⟩
abbrev main_v80 : Ref sig .tc := ⟨.hbm, 112, rfl⟩
abbrev main_cst_26 : Ref sig .tc := ⟨.hbm, 113, rfl⟩
abbrev main_v81 : Ref sig .tc := ⟨.hbm, 114, rfl⟩
abbrev main_v82 : Ref sig .tc := ⟨.hbm, 115, rfl⟩
abbrev main_cst_27 : Ref sig .tc := ⟨.hbm, 116, rfl⟩
abbrev main_v83 : Ref sig .tc := ⟨.hbm, 117, rfl⟩
abbrev main_v84 : Ref sig .tc := ⟨.hbm, 118, rfl⟩
abbrev main_cst_28 : Ref sig .tc := ⟨.hbm, 119, rfl⟩
abbrev main_v85 : Ref sig .tc := ⟨.hbm, 120, rfl⟩
abbrev main_v86 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x64x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_1 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4x64x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_1 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x4x64x128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x64x128x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S8x4x64x128x64_S2048x128x64 : S8x4x64x128x64.ShapeCasts S2048x128x64
  inb_S128x128x64_S128x128x64_0_0_0 : ∀ a, (![0, 0, 0] : Fin 3 → Nat) a + S128x128x64.size a ≤ S128x128x64.size a
  h_S128x128x64 : 0 < S128x128x64.numel
  shapeCasts_S128x128x64_S128x128x64 : S128x128x64.ShapeCasts S128x128x64
  reduces_S128x128x64_S128x128 : S128x128x64.Reduces [2] S128x128
  reduces_S128x128_S128 : S128x128.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  inb_S1x4x64x128x64_S1x1x64x128x64_0_0_0_0_0 : ∀ a, (![0, 0, 0, 0, 0] : Fin 5 → Nat) a + S1x1x64x128x64.size a ≤ S1x4x64x128x64.size a
  h_S1x1x64x128x64 : 0 < S1x1x64x128x64.numel
  shapeCasts_S1x1x64x128x64_S64x128x64 : S1x1x64x128x64.ShapeCasts S64x128x64
  inb_S1x4x64x128x64_S1x1x64x128x64_0_1_0_0_0 : ∀ a, (![0, 1, 0, 0, 0] : Fin 5 → Nat) a + S1x1x64x128x64.size a ≤ S1x4x64x128x64.size a
  inb_S1x4x64x128x64_S1x1x64x128x64_0_2_0_0_0 : ∀ a, (![0, 2, 0, 0, 0] : Fin 5 → Nat) a + S1x1x64x128x64.size a ≤ S1x4x64x128x64.size a
  inb_S1x1x64x128x64_S1x1x64x128x64_0_0_0_0_0 : ∀ a, (![0, 0, 0, 0, 0] : Fin 5 → Nat) a + S1x1x64x128x64.size a ≤ S1x1x64x128x64.size a
  slices_S64x128x64_o0_0_2_S64x128x62 : S64x128x64.Slices ![0, 0, 2] S64x128x62
  slices_S64x128x64_o0_0_0_S64x128x62 : S64x128x64.Slices ![0, 0, 0] S64x128x62
  slices_S64x128x62_o1_1_0_S62x126x62 : S64x128x62.Slices ![1, 1, 0] S62x126x62
  slices_S64x128x64_o0_2_0_S64x126x64 : S64x128x64.Slices ![0, 2, 0] S64x126x64
  slices_S64x128x64_o0_0_0_S64x126x64 : S64x128x64.Slices ![0, 0, 0] S64x126x64
  slices_S64x126x64_o1_0_1_S62x126x62 : S64x126x64.Slices ![1, 0, 1] S62x126x62
  slices_S64x128x64_o2_0_0_S62x128x64 : S64x128x64.Slices ![2, 0, 0] S62x128x64
  slices_S64x128x64_o0_0_0_S62x128x64 : S64x128x64.Slices ![0, 0, 0] S62x128x64
  slices_S62x128x64_o0_1_1_S62x126x62 : S62x128x64.Slices ![0, 1, 1] S62x126x62
  slices_S64x128x64_o1_1_1_S62x126x62 : S64x128x64.Slices ![1, 1, 1] S62x126x62
  natLt_1_32 : 1 < 32
  reduces_S62x126x62_S62x126 : S62x126x62.Reduces [2] S62x126
  reduces_S62x126_S62 : S62x126.Reduces [1] S62
  shapeCasts_S62_S1x62 : S62.ShapeCasts S1x62
  reduces_S1x62_S1 : S1x62.Reduces [1] S1
  slices_S8x1x128_S8x1x1_0_0_0 : S8x1x128.Slices ![0, 0, 0] S8x1x1
  shapeCasts_S8x1x1_S8 : S8x1x1.ShapeCasts S8
  reducesTo_S8_S_d0 : S8.ReducesTo [0] S_
  inb_S1x4x64x128x64_S1x1x64x128x64_0_3_0_0_0 : ∀ a, (![0, 3, 0, 0, 0] : Fin 5 → Nat) a + S1x1x64x128x64.size a ≤ S1x4x64x128x64.size a
  slices_S64x128x64_o0_0_1_S64x128x62 : S64x128x64.Slices ![0, 0, 1] S64x128x62
  slices_S64x128x64_o0_1_0_S64x126x64 : S64x128x64.Slices ![0, 1, 0] S64x126x64
  slices_S64x128x64_o1_0_0_S62x128x64 : S64x128x64.Slices ![1, 0, 0] S62x128x64
  reduces_S64x128x64_S64x128 : S64x128x64.Reduces [2] S64x128
  reduces_S64x128_S64 : S64x128.Reduces [1] S64
  shapeCasts_S64_S1x64 : S64.ShapeCasts S1x64
  reduces_S1x64_S1 : S1x64.Reduces [1] S1
  reducesTo_S8x1_S_d0_1 : S8x1.ReducesTo [0, 1] S_
  slices_S8x4x64x128x64_S8x1x64x128x64_0_0_0_0_0 : S8x4x64x128x64.Slices ![0, 0, 0, 0, 0] S8x1x64x128x64
  slices_S8x4x64x128x64_S8x1x64x128x64_0_1_0_0_0 : S8x4x64x128x64.Slices ![0, 1, 0, 0, 0] S8x1x64x128x64
  slices_S8x4x64x128x64_S8x1x64x128x64_0_2_0_0_0 : S8x4x64x128x64.Slices ![0, 2, 0, 0, 0] S8x1x64x128x64
  slices_S8x1x64x128x64_S8x1x64x128x1_0_0_0_0_0 : S8x1x64x128x64.Slices ![0, 0, 0, 0, 0] S8x1x64x128x1
  shapeCasts_S8x1x64x128x1_S8x1x64x128 : S8x1x64x128x1.ShapeCasts S8x1x64x128
  bcast_S_S8x1x64x128 : S_.BroadcastsInDim S8x1x64x128 (![] : Fin 0 → Fin S8x1x64x128.rank)
  reducesTo_S8x1x64x128_S_d0_1_2_3 : S8x1x64x128.ReducesTo [0, 1, 2, 3] S_
  slices_S8x1x64x128x64_S8x1x64x128x1_0_0_0_0_63 : S8x1x64x128x64.Slices ![0, 0, 0, 0, 63] S8x1x64x128x1
  slices_S8x1x64x128x64_S8x1x64x128x1_0_0_0_0_62 : S8x1x64x128x64.Slices ![0, 0, 0, 0, 62] S8x1x64x128x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x64.size a ≤ S2048x128x64.size a
  hwx0_0 : ∀ i : grid0.Coords, EltTy.bits .f32 = 32 ∨ (Rect.block (s := S2048x128x64) S128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x64.size a ≤ S2048x128x64.size a
  hwx0_1 : ∀ i : grid0.Coords, EltTy.bits .f32 = 32 ∨ (Rect.block (s := S2048x128x64) S128x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x64x128x64.size a ≤ S8x4x64x128x64.size a
  hwx1_0 : ∀ i : grid1.Coords, EltTy.bits .f32 = 32 ∨ (Rect.block (s := S8x4x64x128x64) S1x4x64x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x128x64.size a ≤ S8x1x64x128x64.size a
  hwx1_1 : ∀ i : grid1.Coords, EltTy.bits .f32 = 32 ∨ (Rect.block (s := S8x1x64x128x64) S1x1x64x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S8x1x128.size a
  hwx1_2 : ∀ i : grid1.Coords, EltTy.bits .f32 = 32 ∨ (Rect.block (s := S8x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4x64x128x64.size a ≤ S8x4x64x128x64.size a
  hwx2_0 : ∀ i : grid2.Coords, EltTy.bits .f32 = 32 ∨ (Rect.block (s := S8x4x64x128x64) S1x4x64x128x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x64x128x64.size a ≤ S8x1x64x128x64.size a
  hwx2_1 : ∀ i : grid2.Coords, EltTy.bits .f32 = 32 ∨ (Rect.block (s := S8x1x64x128x64) S1x1x64x128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S8x1x128.size a
  hwx2_2 : ∀ i : grid2.Coords, EltTy.bits .f32 = 32 ∨ (Rect.block (s := S8x1x128) S1x1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4x64x128x64.size a ≤ S8x4x64x128x64.size a
  hwx3_0 : ∀ i : grid3.Coords, EltTy.bits .f32 = 32 ∨ (Rect.block (s := S8x4x64x128x64) S1x4x64x128x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x64x128x64.size a ≤ S8x1x64x128x64.size a
  hwx3_1 : ∀ i : grid3.Coords, EltTy.bits .f32 = 32 ∨ (Rect.block (s := S8x1x64x128x64) S1x1x64x128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S8x1x128.size a
  hwx3_2 : ∀ i : grid3.Coords, EltTy.bits .f32 = 32 ∨ (Rect.block (s := S8x1x128) S1x1x128.size (cc3_transform_2 i) (hinb3_2 i)).WholeWords (EltTy.packing .f32)

variable [Facts₀]

abbrev win0_0 : Pipeline.Window sig grid0 :=
  Pipeline.Window.ofSpec (Memref.whole main_v0) S128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x4x64x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x1x64x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1x4x64x128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1x1x64x128x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S1x4x64x128x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1x1x64x128x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x1x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8x4x64x128x64 : Shape := ⟨5, ![8, 4, 64, 128, 64]⟩
abbrev S8x1 : Shape := ⟨2, ![8, 1]⟩
abbrev S8x1x64x128x64 : Shape := ⟨5, ![8, 1, 64, 128, 64]⟩
abbrev S_ : Shape := ⟨0, ![]⟩
abbrev S8x1x64x128x62 : Shape := ⟨5, ![8, 1, 64, 128, 62]⟩
abbrev S8x1x62x126x62 : Shape := ⟨5, ![8, 1, 62, 126, 62]⟩
abbrev S8x1x64x126x64 : Shape := ⟨5, ![8, 1, 64, 126, 64]⟩
abbrev S8x1x62x128x64 : Shape := ⟨5, ![8, 1, 62, 128, 64]⟩
abbrev S8x1x64x128x1 : Shape := ⟨5, ![8, 1, 64, 128, 1]⟩
abbrev S8x1x64x128 : Shape := ⟨4, ![8, 1, 64, 128]⟩

abbrev nBuf : Space → Nat
  | .hbm => 369
  | .vmem => 0
  | .smem => 0
  | _ => 0

abbrev hbmTy0_0 (i : Nat) : BufTy := match i % 128 with
  | 0 => ⟨S8x4x64x128x64, .f32⟩
  | 1 => ⟨S8x1, .f32⟩
  | 2 => ⟨S8x4x64x128x64, .f32⟩
  | 3 => ⟨S8x1, .f32⟩
  | 4 => ⟨S8x1x64x128x64, .f32⟩
  | 5 => ⟨S8x4x64x128x64, .f32⟩
  | 6 => ⟨S8x4x64x128x64, .f32⟩
  | 7 => ⟨S_, .f32⟩
  | 8 => ⟨S_, .f32⟩
  | 9 => ⟨S_, .f32⟩
  | 10 => ⟨S_, .f32⟩
  | 11 => ⟨S8x1, .f32⟩
  | 12 => ⟨S8x1, .f32⟩
  | 13 => ⟨S_, .f32⟩
  | 14 => ⟨S_, .f32⟩
  | 15 => ⟨S_, .f32⟩
  | 16 => ⟨S_, .f32⟩
  | 17 => ⟨S8x1x64x128x64, .f32⟩
  | 18 => ⟨S8x1x64x128x64, .f32⟩
  | 19 => ⟨S8x1x64x128x64, .f32⟩
  | 20 => ⟨S8x1x64x128x64, .f32⟩
  | 21 => ⟨S8x1x64x128x62, .f32⟩
  | 22 => ⟨S8x1x64x128x62, .f32⟩
  | 23 => ⟨S8x1x64x128x62, .f32⟩
  | 24 => ⟨S_, .f32⟩
  | 25 => ⟨S8x1x64x128x62, .f32⟩
  | 26 => ⟨S8x1x64x128x62, .f32⟩
  | 27 => ⟨S8x1x62x126x62, .f32⟩
  | 28 => ⟨S8x1x64x126x64, .f32⟩
  | 29 => ⟨S8x1x64x126x64, .f32⟩
  | 30 => ⟨S8x1x64x126x64, .f32⟩
  | 31 => ⟨S_, .f32⟩
  | 32 => ⟨S8x1x64x126x64, .f32⟩
  | 33 => ⟨S8x1x64x126x64, .f32⟩
  | 34 => ⟨S8x1x62x126x62, .f32⟩
  | 35 => ⟨S8x1x62x128x64, .f32⟩
  | 36 => ⟨S8x1x62x128x64, .f32⟩
  | 37 => ⟨S8x1x62x128x64, .f32⟩
  | 38 => ⟨S_, .f32⟩
  | 39 => ⟨S8x1x62x128x64, .f32⟩
  | 40 => ⟨S8x1x62x128x64, .f32⟩
  | 41 => ⟨S8x1x62x126x62, .f32⟩
  | 42 => ⟨S8x1x62x126x62, .f32⟩
  | 43 => ⟨S8x1x62x126x62, .f32⟩
  | 44 => ⟨S8x1x62x126x62, .f32⟩
  | 45 => ⟨S_, .f32⟩
  | 46 => ⟨S8x1x62x126x62, .f32⟩
  | 47 => ⟨S8x1x62x126x62, .i1⟩
  | 48 => ⟨S8x1x62x126x62, .f32⟩
  | 49 => ⟨S8x1x62x126x62, .f32⟩
  | 50 => ⟨S8x1x62x126x62, .f32⟩
  | 51 => ⟨S_, .f32⟩
  | 52 => ⟨S_, .f32⟩
  | 53 => ⟨S_, .f32⟩
  | 54 => ⟨S_, .f32⟩
  | 55 => ⟨S8x1x62x126x62, .f32⟩
  | 56 => ⟨S8x1x62x126x62, .f32⟩
  | 57 => ⟨S8x1x62x126x62, .f32⟩
  | 58 => ⟨S8x1x64x126x64, .f32⟩
  | 59 => ⟨S8x1x64x126x64, .f32⟩
  | 60 => ⟨S8x1x64x126x64, .f32⟩
  | 61 => ⟨S_, .f32⟩
  | 62 => ⟨S8x1x64x126x64, .f32⟩
  | 63 => ⟨S8x1x64x126x64, .f32⟩
  | 64 => ⟨S8x1x62x126x62, .f32⟩
  | 65 => ⟨S8x1x62x128x64, .f32⟩
  | 66 => ⟨S8x1x62x128x64, .f32⟩
  | 67 => ⟨S8x1x62x128x64, .f32⟩
  | 68 => ⟨S_, .f32⟩
  | 69 => ⟨S8x1x62x128x64, .f32⟩
  | 70 => ⟨S8x1x62x128x64, .f32⟩
  | 71 => ⟨S8x1x62x126x62, .f32⟩
  | 72 => ⟨S8x1x64x128x62, .f32⟩
  | 73 => ⟨S8x1x64x128x62, .f32⟩
  | 74 => ⟨S8x1x64x128x62, .f32⟩
  | 75 => ⟨S_, .f32⟩
  | 76 => ⟨S8x1x64x128x62, .f32⟩
  | 77 => ⟨S8x1x64x128x62, .f32⟩
  | 78 => ⟨S8x1x62x126x62, .f32⟩
  | 79 => ⟨S8x1x62x128x64, .f32⟩
  | 80 => ⟨S8x1x62x128x64, .f32⟩
  | 81 => ⟨S8x1x62x128x64, .f32⟩
  | 82 => ⟨S_, .f32⟩
  | 83 => ⟨S8x1x62x128x64, .f32⟩
  | 84 => ⟨S8x1x62x128x64, .f32⟩
  | 85 => ⟨S8x1x62x126x62, .f32⟩
  | 86 => ⟨S8x1x64x128x62, .f32⟩
  | 87 => ⟨S8x1x64x128x62, .f32⟩
  | 88 => ⟨S8x1x64x128x62, .f32⟩
  | 89 => ⟨S_, .f32⟩
  | 90 => ⟨S8x1x64x128x62, .f32⟩
  | 91 => ⟨S8x1x64x128x62, .f32⟩
  | 92 => ⟨S8x1x62x126x62, .f32⟩
  | 93 => ⟨S8x1x64x126x64, .f32⟩
  | 94 => ⟨S8x1x64x126x64, .f32⟩
  | 95 => ⟨S8x1x64x126x64, .f32⟩
  | 96 => ⟨S_, .f32⟩
  | 97 => ⟨S8x1x64x126x64, .f32⟩
  | 98 => ⟨S8x1x64x126x64, .f32⟩
  | 99 => ⟨S8x1x62x126x62, .f32⟩
  | 100 => ⟨S8x1x64x128x62, .f32⟩
  | 101 => ⟨S8x1x64x128x62, .f32⟩
  | 102 => ⟨S8x1x64x128x62, .f32⟩
  | 103 => ⟨S_, .f32⟩
  | 104 => ⟨S8x1x64x128x62, .f32⟩
  | 105 => ⟨S8x1x64x128x62, .f32⟩
  | 106 => ⟨S8x1x62x126x62, .f32⟩
  | 107 => ⟨S8x1x64x126x64, .f32⟩
  | 108 => ⟨S8x1x64x126x64, .f32⟩
  | 109 => ⟨S8x1x64x126x64, .f32⟩
  | 110 => ⟨S_, .f32⟩
  | 111 => ⟨S8x1x64x126x64, .f32⟩
  | 112 => ⟨S8x1x64x126x64, .f32⟩
  | 113 => ⟨S8x1x62x126x62, .f32⟩
  | 114 => ⟨S8x1x62x128x64, .f32⟩
  | 115 => ⟨S8x1x62x128x64, .f32⟩
  | 116 => ⟨S8x1x62x128x64, .f32⟩
  | 117 => ⟨S_, .f32⟩
  | 118 => ⟨S8x1x62x128x64, .f32⟩
  | 119 => ⟨S8x1x62x128x64, .f32⟩
  | 120 => ⟨S8x1x62x126x62, .f32⟩
  | 121 => ⟨S8x1x64x128x62, .f32⟩
  | 122 => ⟨S8x1x64x128x62, .f32⟩
  | 123 => ⟨S_, .f32⟩
  | 124 => ⟨S8x1x64x128x62, .f32⟩
  | 125 => ⟨S8x1x64x128x62, .f32⟩
  | 126 => ⟨S8x1x64x128x62, .f32⟩
  | 127 => ⟨S8x1x64x128x62, .f32⟩
  | _ => ⟨S8x4x64x128x64, .f32⟩

abbrev hbmTy0_1 (i : Nat) : BufTy := match i % 128 with
  | 0 => ⟨S8x1x64x128x62, .f32⟩
  | 1 => ⟨S_, .f32⟩
  | 2 => ⟨S8x1x64x128x62, .f32⟩
  | 3 => ⟨S8x1x64x128x62, .f32⟩
  | 4 => ⟨S8x1x62x126x62, .f32⟩
  | 5 => ⟨S8x1x64x126x64, .f32⟩
  | 6 => ⟨S8x1x64x126x64, .f32⟩
  | 7 => ⟨S_, .f32⟩
  | 8 => ⟨S8x1x64x126x64, .f32⟩
  | 9 => ⟨S8x1x64x126x64, .f32⟩
  | 10 => ⟨S8x1x64x126x64, .f32⟩
  | 11 => ⟨S8x1x64x126x64, .f32⟩
  | 12 => ⟨S8x1x64x126x64, .f32⟩
  | 13 => ⟨S_, .f32⟩
  | 14 => ⟨S8x1x64x126x64, .f32⟩
  | 15 => ⟨S8x1x64x126x64, .f32⟩
  | 16 => ⟨S8x1x62x126x62, .f32⟩
  | 17 => ⟨S8x1x62x126x62, .f32⟩
  | 18 => ⟨S8x1x62x128x64, .f32⟩
  | 19 => ⟨S8x1x62x128x64, .f32⟩
  | 20 => ⟨S_, .f32⟩
  | 21 => ⟨S8x1x62x128x64, .f32⟩
  | 22 => ⟨S8x1x62x128x64, .f32⟩
  | 23 => ⟨S8x1x62x128x64, .f32⟩
  | 24 => ⟨S8x1x62x128x64, .f32⟩
  | 25 => ⟨S8x1x62x128x64, .f32⟩
  | 26 => ⟨S_, .f32⟩
  | 27 => ⟨S8x1x62x128x64, .f32⟩
  | 28 => ⟨S8x1x62x128x64, .f32⟩
  | 29 => ⟨S8x1x62x126x62, .f32⟩
  | 30 => ⟨S8x1x62x126x62, .f32⟩
  | 31 => ⟨S8x1x64x128x62, .f32⟩
  | 32 => ⟨S8x1x64x128x62, .f32⟩
  | 33 => ⟨S_, .f32⟩
  | 34 => ⟨S8x1x64x128x62, .f32⟩
  | 35 => ⟨S8x1x64x128x62, .f32⟩
  | 36 => ⟨S8x1x64x128x62, .f32⟩
  | 37 => ⟨S8x1x64x128x62, .f32⟩
  | 38 => ⟨S8x1x64x128x62, .f32⟩
  | 39 => ⟨S_, .f32⟩
  | 40 => ⟨S8x1x64x128x62, .f32⟩
  | 41 => ⟨S8x1x64x128x62, .f32⟩
  | 42 => ⟨S8x1x62x126x62, .f32⟩
  | 43 => ⟨S8x1x64x126x64, .f32⟩
  | 44 => ⟨S8x1x64x126x64, .f32⟩
  | 45 => ⟨S_, .f32⟩
  | 46 => ⟨S8x1x64x126x64, .f32⟩
  | 47 => ⟨S8x1x64x126x64, .f32⟩
  | 48 => ⟨S8x1x64x126x64, .f32⟩
  | 49 => ⟨S8x1x64x126x64, .f32⟩
  | 50 => ⟨S8x1x64x126x64, .f32⟩
  | 51 => ⟨S_, .f32⟩
  | 52 => ⟨S8x1x64x126x64, .f32⟩
  | 53 => ⟨S8x1x64x126x64, .f32⟩
  | 54 => ⟨S8x1x62x126x62, .f32⟩
  | 55 => ⟨S8x1x62x126x62, .f32⟩
  | 56 => ⟨S8x1x62x128x64, .f32⟩
  | 57 => ⟨S8x1x62x128x64, .f32⟩
  | 58 => ⟨S_, .f32⟩
  | 59 => ⟨S8x1x62x128x64, .f32⟩
  | 60 => ⟨S8x1x62x128x64, .f32⟩
  | 61 => ⟨S8x1x62x128x64, .f32⟩
  | 62 => ⟨S8x1x62x128x64, .f32⟩
  | 63 => ⟨S8x1x62x128x64, .f32⟩
  | 64 => ⟨S_, .f32⟩
  | 65 => ⟨S8x1x62x128x64, .f32⟩
  | 66 => ⟨S8x1x62x128x64, .f32⟩
  | 67 => ⟨S8x1x62x126x62, .f32⟩
  | 68 => ⟨S8x1x62x126x62, .f32⟩
  | 69 => ⟨S8x1x64x128x62, .f32⟩
  | 70 => ⟨S8x1x64x128x62, .f32⟩
  | 71 => ⟨S_, .f32⟩
  | 72 => ⟨S8x1x64x128x62, .f32⟩
  | 73 => ⟨S8x1x64x128x62, .f32⟩
  | 74 => ⟨S8x1x64x128x62, .f32⟩
  | 75 => ⟨S8x1x64x128x62, .f32⟩
  | 76 => ⟨S8x1x64x128x62, .f32⟩
  | 77 => ⟨S_, .f32⟩
  | 78 => ⟨S8x1x64x128x62, .f32⟩
  | 79 => ⟨S8x1x64x128x62, .f32⟩
  | 80 => ⟨S8x1x62x126x62, .f32⟩
  | 81 => ⟨S8x1x64x126x64, .f32⟩
  | 82 => ⟨S8x1x64x126x64, .f32⟩
  | 83 => ⟨S_, .f32⟩
  | 84 => ⟨S8x1x64x126x64, .f32⟩
  | 85 => ⟨S8x1x64x126x64, .f32⟩
  | 86 => ⟨S8x1x64x126x64, .f32⟩
  | 87 => ⟨S8x1x64x126x64, .f32⟩
  | 88 => ⟨S8x1x64x126x64, .f32⟩
  | 89 => ⟨S_, .f32⟩
  | 90 => ⟨S8x1x64x126x64, .f32⟩
  | 91 => ⟨S8x1x64x126x64, .f32⟩
  | 92 => ⟨S8x1x62x126x62, .f32⟩
  | 93 => ⟨S8x1x62x126x62, .f32⟩
  | 94 => ⟨S8x1x62x128x64, .f32⟩
  | 95 => ⟨S8x1x62x128x64, .f32⟩
  | 96 => ⟨S_, .f32⟩
  | 97 => ⟨S8x1x62x128x64, .f32⟩
  | 98 => ⟨S8x1x62x128x64, .f32⟩
  | 99 => ⟨S8x1x62x128x64, .f32⟩
  | 100 => ⟨S8x1x62x128x64, .f32⟩
  | 101 => ⟨S8x1x62x128x64, .f32⟩
  | 102 => ⟨S_, .f32⟩
  | 103 => ⟨S8x1x62x128x64, .f32⟩
  | 104 => ⟨S8x1x62x128x64, .f32⟩
  | 105 => ⟨S8x1x62x126x62, .f32⟩
  | 106 => ⟨S8x1x62x126x62, .f32⟩
  | 107 => ⟨S8x1x62x126x62, .f32⟩
  | 108 => ⟨S8x1x62x126x62, .f32⟩
  | 109 => ⟨S8x1x62x126x62, .f32⟩
  | 110 => ⟨S8x1x62x126x62, .f32⟩
  | 111 => ⟨S8x1x62x126x62, .f32⟩
  | 112 => ⟨S8x1x62x126x62, .f32⟩
  | 113 => ⟨S_, .f32⟩
  | 114 => ⟨S8x1x62x126x62, .f32⟩
  | 115 => ⟨S8x1x62x126x62, .f32⟩
  | 116 => ⟨S8x1x62x126x62, .f32⟩
  | 117 => ⟨S8x1x62x126x62, .f32⟩
  | 118 => ⟨S8x1x62x126x62, .f32⟩
  | 119 => ⟨S8x1x62x126x62, .f32⟩
  | 120 => ⟨S8x1x62x126x62, .f32⟩
  | 121 => ⟨S8x1x62x126x62, .f32⟩
  | 122 => ⟨S8x1x62x126x62, .f32⟩
  | 123 => ⟨S_, .f32⟩
  | 124 => ⟨S8x1x62x126x62, .f32⟩
  | 125 => ⟨S8x1x62x126x62, .f32⟩
  | 126 => ⟨S8x1x62x126x62, .f32⟩
  | 127 => ⟨S8x1x62x126x62, .f32⟩
  | _ => ⟨S8x4x64x128x64, .f32⟩

abbrev hbmTy0_2 (i : Nat) : BufTy := match i % 128 with
  | 0 => ⟨S8x1x62x126x62, .f32⟩
  | 1 => ⟨S8x1x62x126x62, .f32⟩
  | 2 => ⟨S8x1x62x126x62, .f32⟩
  | 3 => ⟨S8x1x62x126x62, .f32⟩
  | 4 => ⟨S8x1x62x126x62, .f32⟩
  | 5 => ⟨S_, .f32⟩
  | 6 => ⟨S8x1x62x126x62, .f32⟩
  | 7 => ⟨S8x1x62x126x62, .f32⟩
  | 8 => ⟨S8x1x62x126x62, .f32⟩
  | 9 => ⟨S8x1x62x126x62, .f32⟩
  | 10 => ⟨S8x1x62x126x62, .f32⟩
  | 11 => ⟨S8x1x62x126x62, .f32⟩
  | 12 => ⟨S8x1x62x126x62, .f32⟩
  | 13 => ⟨S8x1x62x126x62, .f32⟩
  | 14 => ⟨S8x1x62x126x62, .f32⟩
  | 15 => ⟨S8x1x62x126x62, .f32⟩
  | 16 => ⟨S8x1x62x126x62, .f32⟩
  | 17 => ⟨S_, .f32⟩
  | 18 => ⟨S_, .f32⟩
  | 19 => ⟨S_, .f32⟩
  | 20 => ⟨S_, .f32⟩
  | 21 => ⟨S_, .f32⟩
  | 22 => ⟨S8x1x64x128x64, .f32⟩
  | 23 => ⟨S8x1x64x128x64, .i1⟩
  | 24 => ⟨S8x1x64x128x64, .f32⟩
  | 25 => ⟨S8x1x64x128x64, .f32⟩
  | 26 => ⟨S8x1x64x128x64, .f32⟩
  | 27 => ⟨S8x1x64x128x64, .f32⟩
  | 28 => ⟨S8x1x64x128x64, .f32⟩
  | 29 => ⟨S8x1x64x128x64, .f32⟩
  | 30 => ⟨S8x1x64x128x64, .f32⟩
  | 31 => ⟨S_, .f32⟩
  | 32 => ⟨S_, .f32⟩
  | 33 => ⟨S_, .f32⟩
  | 34 => ⟨S_, .f32⟩
  | 35 => ⟨S8x1x64x128x1, .f32⟩
  | 36 => ⟨S8x1x64x128, .f32⟩
  | 37 => ⟨S_, .f32⟩
  | 38 => ⟨S8x1x64x128, .f32⟩
  | 39 => ⟨S8x1x64x128, .f32⟩
  | 40 => ⟨S8x1x64x128, .f32⟩
  | 41 => ⟨S_, .f32⟩
  | 42 => ⟨S_, .f32⟩
  | 43 => ⟨S_, .f32⟩
  | 44 => ⟨S_, .f32⟩
  | 45 => ⟨S8x1x64x128x1, .f32⟩
  | 46 => ⟨S8x1x64x128, .f32⟩
  | 47 => ⟨S8x1x64x128, .f32⟩
  | 48 => ⟨S_, .f32⟩
  | 49 => ⟨S_, .f32⟩
  | 50 => ⟨S_, .f32⟩
  | 51 => ⟨S_, .f32⟩
  | 52 => ⟨S_, .f32⟩
  | 53 => ⟨S8x1x64x128x1, .f32⟩
  | 54 => ⟨S8x1x64x128, .f32⟩
  | 55 => ⟨S8x1x64x128, .f32⟩
  | 56 => ⟨S_, .f32⟩
  | 57 => ⟨S_, .f32⟩
  | 58 => ⟨S_, .f32⟩
  | 59 => ⟨S_, .f32⟩
  | 60 => ⟨S_, .f32⟩
  | 61 => ⟨S8x1x64x128x1, .f32⟩
  | 62 => ⟨S8x1x64x128, .f32⟩
  | 63 => ⟨S8x1x64x128x1, .f32⟩
  | 64 => ⟨S8x1x64x128, .f32⟩
  | 65 => ⟨S8x1x64x128, .f32⟩
  | 66 => ⟨S8x1x64x128, .f32⟩
  | 67 => ⟨S_, .f32⟩
  | 68 => ⟨S_, .f32⟩
  | 69 => ⟨S_, .f32⟩
  | 70 => ⟨S_, .f32⟩
  | 71 => ⟨S8x1x64x128x1, .f32⟩
  | 72 => ⟨S8x1x64x128, .f32⟩
  | 73 => ⟨S8x1x64x128x1, .f32⟩
  | 74 => ⟨S8x1x64x128, .f32⟩
  | 75 => ⟨S8x1x64x128, .f32⟩
  | 76 => ⟨S8x1x64x128, .f32⟩
  | 77 => ⟨S_, .f32⟩
  | 78 => ⟨S_, .f32⟩
  | 79 => ⟨S_, .f32⟩
  | 80 => ⟨S_, .f32⟩
  | 81 => ⟨S_, .f32⟩
  | 82 => ⟨S8x1x64x128x1, .f32⟩
  | 83 => ⟨S8x1x64x128, .f32⟩
  | 84 => ⟨S8x1x64x128x1, .f32⟩
  | 85 => ⟨S8x1x64x128, .f32⟩
  | 86 => ⟨S8x1x64x128, .f32⟩
  | 87 => ⟨S8x1x64x128, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | _ => ⟨S8x4x64x128x64, .f32⟩

abbrev hbmTy (i : Nat) : BufTy := match i / 128 with
  | 0 => hbmTy0_0 i
  | 1 => hbmTy0_1 i
  | 2 => hbmTy0_2 i
  | _ => ⟨S8x4x64x128x64, .f32⟩

abbrev bufTy : (tb : Table) → Fin (tcTables nBuf tb) → BufTy
  | .hbm, ⟨i, _⟩ => hbmTy i
  | _, _ => ⟨S8x4x64x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_15 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_16 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_17 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_18 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_19 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_20 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_21 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_22 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_23 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_24 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_25 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_26 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_27 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_28 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_29 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_30 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_31 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_32 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_33 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_34 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_cst_35 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_cst_36 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_cst_37 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_cst_38 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_cst_39 : Ref sig .tc := ⟨.hbm, 273, rfl⟩
abbrev main_v228 : Ref sig .tc := ⟨.hbm, 274, rfl⟩
abbrev main_cst_40 : Ref sig .tc := ⟨.hbm, 275, rfl⟩
abbrev main_v229 : Ref sig .tc := ⟨.hbm, 276, rfl⟩
abbrev main_cst_41 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_cst_42 : Ref sig .tc := ⟨.hbm, 287, rfl⟩
abbrev main_v239 : Ref sig .tc := ⟨.hbm, 288, rfl⟩
abbrev main_cst_43 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_cst_44 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_cst_45 : Ref sig .tc := ⟨.hbm, 297, rfl⟩
abbrev main_v246 : Ref sig .tc := ⟨.hbm, 298, rfl⟩
abbrev main_cst_46 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_cst_47 : Ref sig .tc := ⟨.hbm, 304, rfl⟩
abbrev main_v251 : Ref sig .tc := ⟨.hbm, 305, rfl⟩
abbrev main_cst_48 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_cst_49 : Ref sig .tc := ⟨.hbm, 312, rfl⟩
abbrev main_v257 : Ref sig .tc := ⟨.hbm, 313, rfl⟩
abbrev main_cst_50 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_cst_51 : Ref sig .tc := ⟨.hbm, 323, rfl⟩
abbrev main_v266 : Ref sig .tc := ⟨.hbm, 324, rfl⟩
abbrev main_cst_52 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_cst_53 : Ref sig .tc := ⟨.hbm, 333, rfl⟩
abbrev main_v274 : Ref sig .tc := ⟨.hbm, 334, rfl⟩
abbrev main_cst_54 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_cst_55 : Ref sig .tc := ⟨.hbm, 344, rfl⟩
abbrev main_v283 : Ref sig .tc := ⟨.hbm, 345, rfl⟩
abbrev main_cst_56 : Ref sig .tc := ⟨.hbm, 346, rfl⟩
abbrev main_v284 : Ref sig .tc := ⟨.hbm, 347, rfl⟩
abbrev main_v285 : Ref sig .tc := ⟨.hbm, 348, rfl⟩
abbrev main_cst_57 : Ref sig .tc := ⟨.hbm, 349, rfl⟩
abbrev main_v286 : Ref sig .tc := ⟨.hbm, 350, rfl⟩
abbrev main_cst_58 : Ref sig .tc := ⟨.hbm, 351, rfl⟩
abbrev main_v287 : Ref sig .tc := ⟨.hbm, 352, rfl⟩
abbrev main_v288 : Ref sig .tc := ⟨.hbm, 353, rfl⟩
abbrev main_cst_59 : Ref sig .tc := ⟨.hbm, 354, rfl⟩
abbrev main_v289 : Ref sig .tc := ⟨.hbm, 355, rfl⟩
abbrev main_v290 : Ref sig .tc := ⟨.hbm, 356, rfl⟩
abbrev main_cst_60 : Ref sig .tc := ⟨.hbm, 357, rfl⟩
abbrev main_v291 : Ref sig .tc := ⟨.hbm, 358, rfl⟩
abbrev main_v292 : Ref sig .tc := ⟨.hbm, 359, rfl⟩
abbrev main_cst_61 : Ref sig .tc := ⟨.hbm, 360, rfl⟩
abbrev main_v293 : Ref sig .tc := ⟨.hbm, 361, rfl⟩
abbrev main_v294 : Ref sig .tc := ⟨.hbm, 362, rfl⟩
abbrev main_cst_62 : Ref sig .tc := ⟨.hbm, 363, rfl⟩
abbrev main_v295 : Ref sig .tc := ⟨.hbm, 364, rfl⟩
abbrev main_v296 : Ref sig .tc := ⟨.hbm, 365, rfl⟩
abbrev main_cst_63 : Ref sig .tc := ⟨.hbm, 366, rfl⟩
abbrev main_v297 : Ref sig .tc := ⟨.hbm, 367, rfl⟩
abbrev main_v298 : Ref sig .tc := ⟨.hbm, 368, rfl⟩

abbrev nD : Nat := 1
abbrev τ : Topo := Topo.v7x

variable {F : FTy → Type} [FloatOps F]

class Facts₀ : Prop where
  reducesTo_S8x4x64x128x64_S_d0_1_2_3_4 : S8x4x64x128x64.ReducesTo [0, 1, 2, 3, 4] S_
  h_S_ : 0 < S_.numel
  reducesTo_S8x1_S_d0_1 : S8x1.ReducesTo [0, 1] S_
  slices_S8x4x64x128x64_S8x1x64x128x64_0_0_0_0_0 : S8x4x64x128x64.Slices ![0, 0, 0, 0, 0] S8x1x64x128x64
  slices_S8x4x64x128x64_S8x1x64x128x64_0_1_0_0_0 : S8x4x64x128x64.Slices ![0, 1, 0, 0, 0] S8x1x64x128x64
  slices_S8x4x64x128x64_S8x1x64x128x64_0_2_0_0_0 : S8x4x64x128x64.Slices ![0, 2, 0, 0, 0] S8x1x64x128x64
  slices_S8x4x64x128x64_S8x1x64x128x64_0_3_0_0_0 : S8x4x64x128x64.Slices ![0, 3, 0, 0, 0] S8x1x64x128x64
  slices_S8x1x64x128x64_S8x1x64x128x62_0_0_0_0_2 : S8x1x64x128x64.Slices ![0, 0, 0, 0, 2] S8x1x64x128x62
  slices_S8x1x64x128x64_S8x1x64x128x62_0_0_0_0_0 : S8x1x64x128x64.Slices ![0, 0, 0, 0, 0] S8x1x64x128x62
  bcast_S_S8x1x64x128x62 : S_.BroadcastsInDim S8x1x64x128x62 (![] : Fin 0 → Fin S8x1x64x128x62.rank)
  slices_S8x1x64x128x62_S8x1x62x126x62_0_0_1_1_0 : S8x1x64x128x62.Slices ![0, 0, 1, 1, 0] S8x1x62x126x62
  slices_S8x1x64x128x64_S8x1x64x126x64_0_0_0_2_0 : S8x1x64x128x64.Slices ![0, 0, 0, 2, 0] S8x1x64x126x64
  slices_S8x1x64x128x64_S8x1x64x126x64_0_0_0_0_0 : S8x1x64x128x64.Slices ![0, 0, 0, 0, 0] S8x1x64x126x64
  bcast_S_S8x1x64x126x64 : S_.BroadcastsInDim S8x1x64x126x64 (![] : Fin 0 → Fin S8x1x64x126x64.rank)
  slices_S8x1x64x126x64_S8x1x62x126x62_0_0_1_0_1 : S8x1x64x126x64.Slices ![0, 0, 1, 0, 1] S8x1x62x126x62
  slices_S8x1x64x128x64_S8x1x62x128x64_0_0_2_0_0 : S8x1x64x128x64.Slices ![0, 0, 2, 0, 0] S8x1x62x128x64
  slices_S8x1x64x128x64_S8x1x62x128x64_0_0_0_0_0 : S8x1x64x128x64.Slices ![0, 0, 0, 0, 0] S8x1x62x128x64
  bcast_S_S8x1x62x128x64 : S_.BroadcastsInDim S8x1x62x128x64 (![] : Fin 0 → Fin S8x1x62x128x64.rank)
  slices_S8x1x62x128x64_S8x1x62x126x62_0_0_0_1_1 : S8x1x62x128x64.Slices ![0, 0, 0, 1, 1] S8x1x62x126x62
  slices_S8x1x64x128x64_S8x1x62x126x62_0_0_1_1_1 : S8x1x64x128x64.Slices ![0, 0, 1, 1, 1] S8x1x62x126x62
  bcast_S_S8x1x62x126x62 : S_.BroadcastsInDim S8x1x62x126x62 (![] : Fin 0 → Fin S8x1x62x126x62.rank)
  reducesTo_S8x1x62x126x62_S_d0_1_2_3_4 : S8x1x62x126x62.ReducesTo [0, 1, 2, 3, 4] S_
  slices_S8x1x64x128x64_S8x1x64x128x62_0_0_0_0_1 : S8x1x64x128x64.Slices ![0, 0, 0, 0, 1] S8x1x64x128x62
  slices_S8x1x64x128x64_S8x1x64x126x64_0_0_0_1_0 : S8x1x64x128x64.Slices ![0, 0, 0, 1, 0] S8x1x64x126x64
  slices_S8x1x64x128x64_S8x1x62x128x64_0_0_1_0_0 : S8x1x64x128x64.Slices ![0, 0, 1, 0, 0] S8x1x62x128x64
  bcast_S_S8x1x64x128x64 : S_.BroadcastsInDim S8x1x64x128x64 (![] : Fin 0 → Fin S8x1x64x128x64.rank)
  reducesTo_S8x1x64x128x64_S_d0_1_2_3_4 : S8x1x64x128x64.ReducesTo [0, 1, 2, 3, 4] S_
  slices_S8x1x64x128x64_S8x1x64x128x1_0_0_0_0_0 : S8x1x64x128x64.Slices ![0, 0, 0, 0, 0] S8x1x64x128x1
  shapeCasts_S8x1x64x128x1_S8x1x64x128 : S8x1x64x128x1.ShapeCasts S8x1x64x128
  bcast_S_S8x1x64x128 : S_.BroadcastsInDim S8x1x64x128 (![] : Fin 0 → Fin S8x1x64x128.rank)
  reducesTo_S8x1x64x128_S_d0_1_2_3 : S8x1x64x128.ReducesTo [0, 1, 2, 3] S_
  slices_S8x1x64x128x64_S8x1x64x128x1_0_0_0_0_63 : S8x1x64x128x64.Slices ![0, 0, 0, 0, 63] S8x1x64x128x1
  slices_S8x1x64x128x64_S8x1x64x128x1_0_0_0_0_62 : S8x1x64x128x64.Slices ![0, 0, 0, 0, 62] S8x1x64x128x1

variable [Facts₀]

class Facts : Prop extends Facts₀ where

variable [Facts]
-- ==== Proof.Closing.lean ====
/-
  The arithmetic that both programs apply, with the same operations in the same order, AFTER the four volume means
  are known: the mean squared thrust-coefficient error over the batch, the inlet penalty (the mean of (u − 1)², v², w²
  over the first W-plane), the outlet penalty (the mean squared difference of the last two W-planes of u, v, w), and
  the weighted total  1·field + 10·thrust + 1·continuity + 1·momentum + 10·no-slip + 5·inlet + 1·outlet.
  Stated once, over the argument arrays and the four means as parameters, so that the two programs' results are
  compared by comparing the four means only.
-/
import Idealize.ShloMosaic.PureOps
import Idealize.ShloMosaic.PureOps.Ideal

noncomputable section

namespace Cert.Closing

open Idealize.ShloMosaic

abbrev S_ : Shape := ⟨0, ![]⟩
abbrev S8x1 : Shape := ⟨2, ![8, 1]⟩
abbrev S8x4x64x128x64 : Shape := ⟨5, ![8, 4, 64, 128, 64]⟩
abbrev S8x1x64x128x64 : Shape := ⟨5, ![8, 1, 64, 128, 64]⟩
abbrev S8x1x64x128x1 : Shape := ⟨5, ![8, 1, 64, 128, 1]⟩
abbrev S8x1x64x128 : Shape := ⟨4, ![8, 1, 64, 128]⟩

variable {F : FTy → Type} [FloatOps F]

/-- The weighted total of the seven loss terms, as a function of the field array `a0`, the predicted and the true
    thrust coefficients `a1`, `a3`, and the four volume means `lf` (field), `cont`, `mom`, `noslip`. -/
def closing (a0 : FVec F S8x4x64x128x64 .f32) (a1 a3 : FVec F S8x1 .f32) (lf cont mom noslip : FVec F S_ .f32) : FVec F S_ .f32 :=
  addf (addf (addf (addf (addf (addf (mulf (constant S_ .f32 0x3F800000#32) lf) (mulf (constant S_ .f32 0x41200000#32) (Host.divf (Host.reduceAdd (mulf (subf a1 a3) (subf a1 a3)) (constant S_ .f32 0x00000000#32) (by decide : S8x1.ReducesTo [0, 1] S_) (by decide)) (constant S_ .f32 0x41000000#32)))) (mulf (constant S_ .f32 0x3F800000#32) cont)) (mulf (constant S_ .f32 0x3F800000#32) mom)) (mulf (constant S_ .f32 0x41200000#32) noslip)) (mulf (constant S_ .f32 0x40A00000#32) (addf (addf (Host.divf (Host.reduceAdd (mulf (subf (shapeCast S8x1x64x128 (extractStridedSlice S8x1x64x128x1 ![0, 0, 0, 0, 0] (extractStridedSlice S8x1x64x128x64 ![0, 0, 0, 0, 0] a0 (by decide)) (by decide)) (by decide)) (broadcastInDim S8x1x64x128 ![] (by decide) (constant S_ .f32 0x3F800000#32))) (subf (shapeCast S8x1x64x128 (extractStridedSlice S8x1x64x128x1 ![0, 0, 0, 0, 0] (extractStridedSlice S8x1x64x128x64 ![0, 0, 0, 0, 0] a0 (by decide)) (by decide)) (by decide)) (broadcastInDim S8x1x64x128 ![] (by decide) (constant S_ .f32 0x3F800000#32)))) (constant S_ .f32 0x00000000#32) (by decide : S8x1x64x128.ReducesTo [0, 1, 2, 3] S_) (by decide)) (constant S_ .f32 0x47800000#32)) (Host.divf (Host.reduceAdd (mulf (shapeCast S8x1x64x128 (extractStridedSlice S8x1x64x128x1 ![0, 0, 0, 0, 0] (extractStridedSlice S8x1x64x128x64 ![0, 1, 0, 0, 0] a0 (by decide)) (by decide)) (by decide)) (shapeCast S8x1x64x128 (extractStridedSlice S8x1x64x128x1 ![0, 0, 0, 0, 0] (extractStridedSlice S8x1x64x128x64 ![0, 1, 0, 0, 0] a0 (by decide)) (by decide)) (by decide))) (constant S_ .f32 0x00000000#32) (by decide : S8x1x64x128.ReducesTo [0, 1, 2, 3] S_) (by decide)) (constant S_ .f32 0x47800000#32))) (Host.divf (Host.reduceAdd (mulf (shapeCast S8x1x64x128 (extractStridedSlice S8x1x64x128x1 ![0, 0, 0, 0, 0] (extractStridedSlice S8x1x64x128x64 ![0, 2, 0, 0, 0] a0 (by decide)) (by decide)) (by decide)) (shapeCast S8x1x64x128 (extractStridedSlice S8x1x64x128x1 ![0, 0, 0, 0, 0] (extractStridedSlice S8x1x64x128x64 ![0, 2, 0, 0, 0] a0 (by decide)) (by decide)) (by decide))) (constant S_ .f32 0x00000000#32) (by decide : S8x1x64x128.ReducesTo [0, 1, 2, 3] S_) (by decide)) (constant S_ .f32 0x47800000#32))))) (mulf (constant S_ .f32 0x3F800000#32) (addf (addf (Host.divf (Host.reduceAdd (mulf (subf (shapeCast S8x1x64x128 (extractStridedSlice S8x1x64x128x1 ![0, 0, 0, 0, 63] (extractStridedSlice S8x1x64x128x64 ![0, 0, 0, 0, 0] a0 (by decide)) (by decide)) (by decide)) (shapeCast S8x1x64x128 (extractStridedSlice S8x1x64x128x1 ![0, 0, 0, 0, 62] (extractStridedSlice S8x1x64x128x64 ![0, 0, 0, 0, 0] a0 (by decide)) (by decide)) (by decide))) (subf (shapeCast S8x1x64x128 (extractStridedSlice S8x1x64x128x1 ![0, 0, 0, 0, 63] (extractStridedSlice S8x1x64x128x64 ![0, 0, 0, 0, 0] a0 (by decide)) (by decide)) (by decide)) (shapeCast S8x1x64x128 (extractStridedSlice S8x1x64x128x1 ![0, 0, 0, 0, 62] (extractStridedSlice S8x1x64x128x64 ![0, 0, 0, 0, 0] a0 (by decide)) (by decide)) (by decide)))) (constant S_ .f32 0x00000000#32) (by decide : S8x1x64x128.ReducesTo [0, 1, 2, 3] S_) (by decide)) (constant S_ .f32 0x47800000#32)) (Host.divf (Host.reduceAdd (mulf (subf (shapeCast S8x1x64x128 (extractStridedSlice S8x1x64x128x1 ![0, 0, 0, 0, 63] (extractStridedSlice S8x1x64x128x64 ![0, 1, 0, 0, 0] a0 (by decide)) (by decide)) (by decide)) (shapeCast S8x1x64x128 (extractStridedSlice S8x1x64x128x1 ![0, 0, 0, 0, 62] (extractStridedSlice S8x1x64x128x64 ![0, 1, 0, 0, 0] a0 (by decide)) (by decide)) (by decide))) (subf (shapeCast S8x1x64x128 (extractStridedSlice S8x1x64x128x1 ![0, 0, 0, 0, 63] (extractStridedSlice S8x1x64x128x64 ![0, 1, 0, 0, 0] a0 (by decide)) (by decide)) (by decide)) (shapeCast S8x1x64x128 (extractStridedSlice S8x1x64x128x1 ![0, 0, 0, 0, 62] (extractStridedSlice S8x1x64x128x64 ![0, 1, 0, 0, 0] a0 (by decide)) (by decide)) (by decide)))) (constant S_ .f32 0x00000000#32) (by decide : S8x1x64x128.ReducesTo [0, 1, 2, 3] S_) (by decide)) (constant S_ .f32 0x47800000#32))) (Host.divf (Host.reduceAdd (mulf (subf (shapeCast S8x1x64x128 (extractStridedSlice S8x1x64x128x1 ![0, 0, 0, 0, 63] (extractStridedSlice S8x1x64x128x64 ![0, 2, 0, 0, 0] a0 (by decide)) (by decide)) (by decide)) (shapeCast S8x1x64x128 (extractStridedSlice S8x1x64x128x1 ![0, 0, 0, 0, 62] (extractStridedSlice S8x1x64x128x64 ![0, 2, 0, 0, 0] a0 (by decide)) (by decide)) (by decide))) (subf (shapeCast S8x1x64x128 (extractStridedSlice S8x1x64x128x1 ![0, 0, 0, 0, 63] (extractStridedSlice S8x1x64x128x64 ![0, 2, 0, 0, 0] a0 (by decide)) (by decide)) (by decide)) (shapeCast S8x1x64x128 (extractStridedSlice S8x1x64x128x1 ![0, 0, 0, 0, 62] (extractStridedSlice S8x1x64x128x64 ![0, 2, 0, 0, 0] a0 (by decide)) (by decide)) (by decide)))) (constant S_ .f32 0x00000000#32) (by decide : S8x1x64x128.ReducesTo [0, 1, 2, 3] S_) (by decide)) (constant S_ .f32 0x47800000#32))))

end Cert.Closing

end
-- ==== Proof.KernelRun.lean ====
/- The run of the idealized program with its result buffer named, the contents of every region's input arrays at the
   region's entry, and the result buffer read back through the fold of host stretches and regions. -/
import proofs.«165125_j53283364274443_1_alg».proof.Proof.Gen.KernelIdeal.Frame
import Idealize.ShloMosaic.Lib.StableHlo.Run
import proofs.«165125_j53283364274443_1_alg».proof.Proof.Closing

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run, with the result buffer named -/

set_option backward.isDefEq.respectTransparency.types false in
/-- The frame claim with one more conjunct: in every final state the result buffer holds what the fold of the
    program's segments leaves there (the generated frame's proof term, the last thread state read at one more buffer). -/
theorem run_named : θ_run defs (onTc (τ := τ) (main (F := F))) ⟨m, fun _ => 0, ρ⟩ (fun r => ∀ c : Dev nD,
      r.2.mem ((c.tc : Thread nD τ).loc main_v86) = W9 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v86 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

/-- A stretch of host operations leaves a buffer that none of them writes as it found it: the stretch's list unfolded,
    each operation's written buffer told apart from the given one by comparing the two references. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! # The argument arrays through the fold: no stretch and no region changes one -/
theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = W2 m ρ c (Proc.devRef .tc main_arg0)
  host_keeps hostOps1
theorem W4_arg0 (c : Dev nD) : W4 m ρ c (Proc.devRef .tc main_arg0) = m ((c : Thread nD τ).loc main_arg0) :=
  ((W4_arr m ρ c 0).trans (((dat1 (V3 m ρ) c).arrAt_in 0 rfl _).trans (A_eq1 (V3 m ρ) c 0))).trans (W3_arg0 m ρ c)
theorem W5_arg0 (c : Dev nD) : W5 m ρ c (Proc.devRef .tc main_arg0) = m ((c : Thread nD τ).loc main_arg0) := by
  refine Eq.trans ?_ (W4_arg0 m ρ c)
  show StableHlo.after hostOps2 (W4 m ρ c) (Proc.devRef .tc main_arg0) = W4 m ρ c (Proc.devRef .tc main_arg0)
  host_keeps hostOps2
theorem W6_arg0 (c : Dev nD) : W6 m ρ c (Proc.devRef .tc main_arg0) = m ((c : Thread nD τ).loc main_arg0) :=
  ((W6_arr m ρ c 0).trans (((dat2 (V5 m ρ) c).arrAt_in 0 rfl _).trans (A_eq2 (V5 m ρ) c 0))).trans (W5_arg0 m ρ c)
theorem W7_arg0 (c : Dev nD) : W7 m ρ c (Proc.devRef .tc main_arg0) = m ((c : Thread nD τ).loc main_arg0) := by
  refine Eq.trans ?_ (W6_arg0 m ρ c)
  show StableHlo.after hostOps3 (W6 m ρ c) (Proc.devRef .tc main_arg0) = W6 m ρ c (Proc.devRef .tc main_arg0)
  host_keeps hostOps3
theorem W8_arg0 (c : Dev nD) : W8 m ρ c (Proc.devRef .tc main_arg0) = m ((c : Thread nD τ).loc main_arg0) :=
  ((W8_arr m ρ c 0).trans (((dat3 (V7 m ρ) c).arrAt_in 0 rfl _).trans (A_eq3 (V7 m ρ) c 0))).trans (W7_arg0 m ρ c)
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = W2 m ρ c (Proc.devRef .tc main_arg4)
  host_keeps hostOps1
theorem W4_arg4 (c : Dev nD) : W4 m ρ c (Proc.devRef .tc main_arg4) = m ((c : Thread nD τ).loc main_arg4) :=
  ((W4_arr m ρ c 1).trans (((dat1 (V3 m ρ) c).arrAt_in 1 rfl _).trans (A_eq1 (V3 m ρ) c 1))).trans (W3_arg4 m ρ c)
theorem W5_arg4 (c : Dev nD) : W5 m ρ c (Proc.devRef .tc main_arg4) = m ((c : Thread nD τ).loc main_arg4) := by
  refine Eq.trans ?_ (W4_arg4 m ρ c)
  show StableHlo.after hostOps2 (W4 m ρ c) (Proc.devRef .tc main_arg4) = W4 m ρ c (Proc.devRef .tc main_arg4)
  host_keeps hostOps2
theorem W6_arg4 (c : Dev nD) : W6 m ρ c (Proc.devRef .tc main_arg4) = m ((c : Thread nD τ).loc main_arg4) :=
  ((W6_arr m ρ c 1).trans (((dat2 (V5 m ρ) c).arrAt_in 1 rfl _).trans (A_eq2 (V5 m ρ) c 1))).trans (W5_arg4 m ρ c)
theorem W7_arg4 (c : Dev nD) : W7 m ρ c (Proc.devRef .tc main_arg4) = m ((c : Thread nD τ).loc main_arg4) := by
  refine Eq.trans ?_ (W6_arg4 m ρ c)
  show StableHlo.after hostOps3 (W6 m ρ c) (Proc.devRef .tc main_arg4) = W6 m ρ c (Proc.devRef .tc main_arg4)
  host_keeps hostOps3
theorem W8_arg4 (c : Dev nD) : W8 m ρ c (Proc.devRef .tc main_arg4) = m ((c : Thread nD τ).loc main_arg4) :=
  ((W8_arr m ρ c 1).trans (((dat3 (V7 m ρ) c).arrAt_in 1 rfl _).trans (A_eq3 (V7 m ρ) c 1))).trans (W7_arg4 m ρ c)
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  host_keeps hostOps0
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = W2 m ρ c (Proc.devRef .tc main_arg1)
  host_keeps hostOps1
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) := by
  refine Eq.trans ?_ (W4_arg1 m ρ c)
  show StableHlo.after hostOps2 (W4 m ρ c) (Proc.devRef .tc main_arg1) = W4 m ρ c (Proc.devRef .tc main_arg1)
  host_keeps hostOps2
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) := by
  refine Eq.trans ?_ (W6_arg1 m ρ c)
  show StableHlo.after hostOps3 (W6 m ρ c) (Proc.devRef .tc main_arg1) = W6 m ρ c (Proc.devRef .tc main_arg1)
  host_keeps hostOps3
theorem W8_arg1 (c : Dev nD) : W8 m ρ c (Proc.devRef .tc main_arg1) = m ((c : Thread nD τ).loc main_arg1) :=
  (W8_of_ne m ρ c main_arg1 (by decide)).trans (W7_arg1 m ρ c)
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = W2 m ρ c (Proc.devRef .tc main_arg3)
  host_keeps hostOps1
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) := by
  refine Eq.trans ?_ (W4_arg3 m ρ c)
  show StableHlo.after hostOps2 (W4 m ρ c) (Proc.devRef .tc main_arg3) = W4 m ρ c (Proc.devRef .tc main_arg3)
  host_keeps hostOps2
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) := by
  refine Eq.trans ?_ (W6_arg3 m ρ c)
  show StableHlo.after hostOps3 (W6 m ρ c) (Proc.devRef .tc main_arg3) = W6 m ρ c (Proc.devRef .tc main_arg3)
  host_keeps hostOps3
theorem W8_arg3 (c : Dev nD) : W8 m ρ c (Proc.devRef .tc main_arg3) = m ((c : Thread nD τ).loc main_arg3) :=
  (W8_of_ne m ρ c main_arg3 (by decide)).trans (W7_arg3 m ρ c)

/-! # What each region finds in its input arrays -/

open StableHlo in
/-- Region 0's first input array at its entry: the first argument array, reshaped. -/
theorem V1_main_v0 (c : Dev nD) :
    V1 m ρ c main_v0 = shapeCast S2048x128x64 (m ((c : Thread nD τ).loc main_arg0)) shapeCasts_S8x4x64x128x64_S2048x128x64 := by
  show StableHlo.after hostOps0 (W0 m ρ c) (Proc.devRef .tc main_v0) = _
  after_results
  rfl

open StableHlo in
/-- Region 0's second input array at its entry: the third argument array, reshaped. -/
theorem V1_main_v1 (c : Dev nD) :
    V1 m ρ c main_v1 = shapeCast S2048x128x64 (m ((c : Thread nD τ).loc main_arg2)) shapeCasts_S8x4x64x128x64_S2048x128x64 := by
  show StableHlo.after hostOps0 (W0 m ρ c) (Proc.devRef .tc main_v1) = _
  after_results
  rfl

/-- Regions 1, 2 and 3 read the first and the fifth argument arrays, which they find as launched. -/
theorem V3_main_arg0 (c : Dev nD) : V3 m ρ c main_arg0 = m ((c : Thread nD τ).loc main_arg0) := W3_arg0 m ρ c
theorem V3_main_arg4 (c : Dev nD) : V3 m ρ c main_arg4 = m ((c : Thread nD τ).loc main_arg4) := W3_arg4 m ρ c
theorem V5_main_arg0 (c : Dev nD) : V5 m ρ c main_arg0 = m ((c : Thread nD τ).loc main_arg0) := W5_arg0 m ρ c
theorem V5_main_arg4 (c : Dev nD) : V5 m ρ c main_arg4 = m ((c : Thread nD τ).loc main_arg4) := W5_arg4 m ρ c
theorem V7_main_arg0 (c : Dev nD) : V7 m ρ c main_arg0 = m ((c : Thread nD τ).loc main_arg0) := W7_arg0 m ρ c
theorem V7_main_arg4 (c : Dev nD) : V7 m ρ c main_arg4 = m ((c : Thread nD τ).loc main_arg4) := W7_arg4 m ρ c

/-! # The four regions' output arrays, as the write-backs leave them -/

/-- Region 0's output array (one row of partial sums per grid point) after the region. -/
abbrev O0 (c : Dev nD) : FVec F S16x1x128 .f32 := (dat0 (V1 m ρ) c).arrAt 2 cfg0.N
/-- Region 1's output array after the region. -/
abbrev O1 (c : Dev nD) : FVec F S8x1x128 .f32 := (dat1 (V3 m ρ) c).arrAt 2 cfg1.N
/-- Region 2's output array after the region. -/
abbrev O2 (c : Dev nD) : FVec F S8x1x128 .f32 := (dat2 (V5 m ρ) c).arrAt 2 cfg2.N
/-- Region 3's output array after the region. -/
abbrev O3 (c : Dev nD) : FVec F S8x1x128 .f32 := (dat3 (V7 m ρ) c).arrAt 2 cfg3.N

theorem W2_main_v2 (c : Dev nD) : W2 m ρ c (Proc.devRef .tc main_v2) = O0 m ρ c := W2_arr m ρ c 2
theorem W4_main_v7 (c : Dev nD) : W4 m ρ c (Proc.devRef .tc main_v7) = O1 m ρ c := W4_arr m ρ c 2
theorem W6_main_v11 (c : Dev nD) : W6 m ρ c (Proc.devRef .tc main_v11) = O2 m ρ c := W6_arr m ρ c 2
theorem W8_main_v15 (c : Dev nD) : W8 m ρ c (Proc.devRef .tc main_v15) = O3 m ρ c := W8_arr m ρ c 2

/-! # The scalars the stretches between the regions compute -/

open StableHlo in
/-- After the stretch that follows region 0: lane 0 of every row of its output summed, over the number of entries. -/
theorem W3_main_v6 (c : Dev nD) :
    W3 m ρ c (Proc.devRef .tc main_v6)
      = Host.divf (Host.reduceAdd (shapeCast S16 (extractStridedSlice S16x1x1 ![0, 0, 0] (O0 m ρ c) slices_S16x1x128_S16x1x1_0_0_0) shapeCasts_S16x1x1_S16)
          (constant S_ .f32 0x00000000#32) reducesTo_S16_S_d0 h_S_) (constant S_ .f32 0x4B800000#32) := by
  show StableHlo.after hostOps1 (W2 m ρ c) (Proc.devRef .tc main_v6) = _
  after_results
  rw [W2_main_v2 m ρ c]
  rfl

open StableHlo in
/-- After the stretch that follows region 1: lane 0 of every row of its output, summed. -/
theorem W5_main_v10 (c : Dev nD) :
    W5 m ρ c (Proc.devRef .tc main_v10)
      = Host.reduceAdd (shapeCast S8 (extractStridedSlice S8x1x1 ![0, 0, 0] (O1 m ρ c) slices_S8x1x128_S8x1x1_0_0_0) shapeCasts_S8x1x1_S8)
          (constant S_ .f32 0x00000000#32) reducesTo_S8_S_d0 h_S_ := by
  show StableHlo.after hostOps2 (W4 m ρ c) (Proc.devRef .tc main_v10) = _
  after_results
  rw [W4_main_v7 m ρ c]
  rfl

open StableHlo in
/-- After the stretch that follows region 2: lane 0 of every row of its output, summed. -/
theorem W7_main_v14 (c : Dev nD) :
    W7 m ρ c (Proc.devRef .tc main_v14)
      = Host.reduceAdd (shapeCast S8 (extractStridedSlice S8x1x1 ![0, 0, 0] (O2 m ρ c) slices_S8x1x128_S8x1x1_0_0_0) shapeCasts_S8x1x1_S8)
          (constant S_ .f32 0x00000000#32) reducesTo_S8_S_d0 h_S_ := by
  show StableHlo.after hostOps3 (W6 m ρ c) (Proc.devRef .tc main_v14) = _
  after_results
  rw [W6_main_v11 m ρ c]
  rfl

/-! ## Carried to the last region's exit: no later stretch and no later region writes them -/

theorem W8_main_v6 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by
          show StableHlo.after hostOps3 (W6 m ρ c) (Proc.devRef .tc main_v6) = _
          host_keeps hostOps3
    _ = W5 m ρ c (Proc.devRef .tc main_v6) := W6_of_ne m ρ c main_v6 (by decide)
    _ = W4 m ρ c (Proc.devRef .tc main_v6) := by
          show StableHlo.after hostOps2 (W4 m ρ c) (Proc.devRef .tc main_v6) = _
          host_keeps hostOps2
    _ = W3 m ρ c (Proc.devRef .tc main_v6) := W4_of_ne m ρ c main_v6 (by decide)

theorem W8_main_v10 (c : Dev nD) : W8 m ρ c (Proc.devRef .tc main_v10) = W5 m ρ c (Proc.devRef .tc main_v10) :=
  calc W8 m ρ c (Proc.devRef .tc main_v10)
    _ = W7 m ρ c (Proc.devRef .tc main_v10) := W8_of_ne m ρ c main_v10 (by decide)
    _ = W6 m ρ c (Proc.devRef .tc main_v10) := by
          show StableHlo.after hostOps3 (W6 m ρ c) (Proc.devRef .tc main_v10) = _
          host_keeps hostOps3
    _ = W5 m ρ c (Proc.devRef .tc main_v10) := W6_of_ne m ρ c main_v10 (by decide)

theorem W8_main_v14 (c : Dev nD) : W8 m ρ c (Proc.devRef .tc main_v14) = W7 m ρ c (Proc.devRef .tc main_v14) :=
  W8_of_ne m ρ c main_v14 (by decide)

/-! # The result buffer, read back through the fold -/

open StableHlo in
set_option maxHeartbeats 4000000 in
/-- What the last stretch leaves in the result buffer: the closing arithmetic of the three argument arrays it reads
    and of the four means, each the sum of lane 0 of a region's output rows over the number of entries. -/
theorem W9_main_v86 (c : Dev nD) :
    W9 m ρ c (Proc.devRef .tc main_v86)
      = Cert.Closing.closing (m ((c : Thread nD τ).loc main_arg0)) (m ((c : Thread nD τ).loc main_arg1)) (m ((c : Thread nD τ).loc main_arg3))
          (Host.divf (Host.reduceAdd (shapeCast S16 (extractStridedSlice S16x1x1 ![0, 0, 0] (O0 m ρ c) slices_S16x1x128_S16x1x1_0_0_0) shapeCasts_S16x1x1_S16)
            (constant S_ .f32 0x00000000#32) reducesTo_S16_S_d0 h_S_) (constant S_ .f32 0x4B800000#32))
          (Host.divf (Host.reduceAdd (shapeCast S8 (extractStridedSlice S8x1x1 ![0, 0, 0] (O1 m ρ c) slices_S8x1x128_S8x1x1_0_0_0) shapeCasts_S8x1x1_S8)
            (constant S_ .f32 0x00000000#32) reducesTo_S8_S_d0 h_S_) (constant S_ .f32 0x4A6C7F00#32))
          (Host.divf (Host.reduceAdd (shapeCast S8 (extractStridedSlice S8x1x1 ![0, 0, 0] (O2 m ρ c) slices_S8x1x128_S8x1x1_0_0_0) shapeCasts_S8x1x1_S8)
            (constant S_ .f32 0x00000000#32) reducesTo_S8_S_d0 h_S_) (constant S_ .f32 0x4A6C7F00#32))
          (Host.divf (Host.reduceAdd (shapeCast S8 (extractStridedSlice S8x1x1 ![0, 0, 0] (O3 m ρ c) slices_S8x1x128_S8x1x1_0_0_0) shapeCasts_S8x1x1_S8)
            (constant S_ .f32 0x00000000#32) reducesTo_S8_S_d0 h_S_) (constant S_ .f32 0x4A800000#32)) := by
  show StableHlo.after hostOps4 (W8 m ρ c) (Proc.devRef .tc main_v86) = _
  after_results_simp
  rw [W8_main_v15 m ρ c, W8_main_v6 m ρ c, W3_main_v6 m ρ c, W8_main_v10 m ρ c, W5_main_v10 m ρ c,
    W8_main_v14 m ρ c, W7_main_v14 m ρ c, W8_arg0 m ρ c, W8_arg1 m ρ c, W8_arg3 m ρ c]
  rfl

end Cert.KernelIdeal.RunValue

end
-- ==== Proof.RegionOut.lean ====
import proofs.«165125_j53283364274443_1_alg».proof.Proof.Gen.KernelIdeal.Frame
import Idealize.ShloMosaic.Lib.Pipeline.Value
import Idealize.ShloMosaic.Lib.ValueIdx

set_option maxRecDepth 16384

noncomputable section

namespace Cert.KernelIdeal.RegionOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-! # Region 1: the output array after the region -/

/-- Row `q` of the output array is written by grid point `q`. -/
def pt1 (q : Fin 8) : Fin cfg1.N := ⟨q.val, lt_of_lt_of_eq q.isLt N_1.symm⟩

theorem pt1_val (q : Fin 8) : (pt1 q).val = q.val := rfl

/-- The point named by a point's own number is that point. -/
theorem pt1_self (t : Fin cfg1.N) (h : t.val < 8) : pt1 ⟨t.val, h⟩ = t := Fin.ext rfl

/-- The output array after the region: entry (b, 0, l) is lane l of what the body stores at point b. -/
def G1 (c : Dev nD) : S8x1x128.Idx → Elt F .f32 := fun j =>
  out1_2 (iblk1 V c 0 (pt1 (j 0))) (iblk1 V c 1 (pt1 (j 0))) (ValueIdx.ix3 (n0 := 1) (n1 := 1) (n2 := 128) 0 0 (j 2))

/-- `G1` at an index whose row names point t and whose lane is y's: what point t's body stores, at y. -/
theorem G1_at (c : Dev nD) (t : Fin cfg1.N) (j : S8x1x128.Idx) (y : S1x1x128.Idx)
    (h0 : pt1 (j 0) = t) (h2 : (j 2).val = (y 2).val) :
    G1 V c j = out1_2 (iblk1 V c 0 t) (iblk1 V c 1 t) y := by
  subst h0
  have hy : ValueIdx.ix3 (n0 := 1) (n1 := 1) (n2 := 128) 0 0 (j 2) = y := by
    funext a; apply Fin.ext
    match a with
    | ⟨0, _⟩ => have h : (y 0).val < 1 := (y 0).isLt; show 0 = (y 0).val; omega
    | ⟨1, _⟩ => have h : (y 1).val < 1 := (y 1).isLt; show 0 = (y 1).val; omega
    | ⟨2, _⟩ => exact h2
  unfold G1
  rw [hy]

/-- The output window's block index at point t is (t, 0, 0), decided over the grid. -/
theorem idx_out1 : ∀ t : Fin cfg1.N, win1_2.index t (0 : Fin 3) = t.val
    ∧ win1_2.index t (1 : Fin 3) = 0 ∧ win1_2.index t (2 : Fin 3) = 0 :=
  (by decide +kernel : ∀ t : Fin grid1.N, _)

/-- What a point writes back is what the body left in the staging buffer, cut to the block's part inside the array. -/
theorem flushed1_def (c : Dev nD) (t : Fin cfg1.N) :
    (dat1 V c).flushed 2 t = (cfg1.win 2).cut (grid1.coords t) ((dat1 V c).after 2 t) := rfl

/-- The output window's blocks lie inside the array, so the cut keeps all of the buffer. -/
theorem cut_out1 (t : Fin cfg1.N) (X : Vec F S1x1x128 .f32) : (cfg1.win 2).cut (grid1.coords t) X = X := rfl

/-- The output window's block at t, read off whole-array contents G at y, is G at the block's index of y. -/
theorem read_out1 (t : Fin cfg1.N) (G : S8x1x128.Idx → Elt F .f32) (y : S1x1x128.Idx) :
    ((cfg1.win 2).blk t).view.read (Elt F) G y = G (((cfg1.win 2).blk t).view.emb y) := rfl

/-- What point t writes back is block t of `G1`. -/
theorem flushed1_eq (c : Dev nD) (t : Fin cfg1.N) :
    (dat1 V c).flushed 2 t = ((cfg1.win 2).blk t).view.read (Elt F) (G1 V c) := by
  refine (flushed1_def V c t).trans ?_
  rw [after1_2]
  refine (cut_out1 t _).trans ?_
  funext y
  refine Eq.trans ?_ (read_out1 t (G1 V c) y).symm
  obtain ⟨e0, e1, e2⟩ := idx_out1 t
  have hy0 : (y 0).val < 1 := (y 0).isLt
  refine (G1_at V c t _ y ?_ ?_).symm
  · apply Fin.ext
    show win1_2.index t (0 : Fin 3) * 1 + 1 * (y 0).val = t.val
    omega
  · show win1_2.index t (2 : Fin 3) * 128 + 1 * (y 2).val = (y 2).val
    omega

/-- An index of the output array is in point t's block iff each coordinate is in the block's range. -/
theorem mem_blk1 (t : Fin cfg1.N) (i : S8x1x128.Idx) :
    i ∈ ((cfg1.win 2).blk t).view.set ↔ ∀ a : Fin 3, win1_2.index t a * S1x1x128.size a ≤ (i a).val ∧ (i a).val < win1_2.index t a * S1x1x128.size a + S1x1x128.size a := by
  show i ∈ ((View.whole main_v7).slice (win1_2.rect t)).set ↔ _
  rw [View.set_slice_whole, Rect.mem_set_unit]
  exact Iff.rfl

/-- Every index of the output array is in the block of the point named by its row. -/
theorem cover1 (i : S8x1x128.Idx) :
    ∃ t : Fin cfg1.N, (cfg1.win 2).flush t = true ∧ i ∈ ((cfg1.win 2).blk t).view.set := by
  refine ⟨pt1 (i 0), flush1_2 _, ?_⟩
  rw [mem_blk1]
  obtain ⟨e0, e1, e2⟩ := idx_out1 (pt1 (i 0))
  have hv : (pt1 (i 0)).val = (i 0).val := rfl
  have hi1 : (i 1).val < 1 := (i 1).isLt
  have hi2 : (i 2).val < 128 := (i 2).isLt
  intro a
  match a with
  | ⟨0, _⟩ => show win1_2.index (pt1 (i 0)) (0 : Fin 3) * 1 ≤ (i 0).val ∧ (i 0).val < win1_2.index (pt1 (i 0)) (0 : Fin 3) * 1 + 1; omega
  | ⟨1, _⟩ => show win1_2.index (pt1 (i 0)) (1 : Fin 3) * 1 ≤ (i 1).val ∧ (i 1).val < win1_2.index (pt1 (i 0)) (1 : Fin 3) * 1 + 1; omega
  | ⟨2, _⟩ => show win1_2.index (pt1 (i 0)) (2 : Fin 3) * 128 ≤ (i 2).val ∧ (i 2).val < win1_2.index (pt1 (i 0)) (2 : Fin 3) * 128 + 128; omega

/-- THE OUTPUT ARRAY after region 1 is `G1`. -/
theorem arr1 (c : Dev nD) : (dat1 V c).arrAt 2 cfg1.N = G1 V c :=
  (dat1 V c).arrAt_eq_of_cover 2 (G1 V c) (fun t _ => flushed1_eq V c t) cover1

/-! # Region 2: the output array after the region -/

/-- Row `q` of the output array is written by grid point `q`. -/
def pt2 (q : Fin 8) : Fin cfg2.N := ⟨q.val, lt_of_lt_of_eq q.isLt N_2.symm⟩

theorem pt2_val (q : Fin 8) : (pt2 q).val = q.val := rfl

/-- The point named by a point's own number is that point. -/
theorem pt2_self (t : Fin cfg2.N) (h : t.val < 8) : pt2 ⟨t.val, h⟩ = t := Fin.ext rfl

/-- The output array after the region: entry (b, 0, l) is lane l of what the body stores at point b. -/
def G2 (c : Dev nD) : S8x1x128.Idx → Elt F .f32 := fun j =>
  out2_2 (iblk2 V c 0 (pt2 (j 0))) (iblk2 V c 1 (pt2 (j 0))) (ValueIdx.ix3 (n0 := 1) (n1 := 1) (n2 := 128) 0 0 (j 2))

/-- `G2` at an index whose row names point t and whose lane is y's: what point t's body stores, at y. -/
theorem G2_at (c : Dev nD) (t : Fin cfg2.N) (j : S8x1x128.Idx) (y : S1x1x128.Idx)
    (h0 : pt2 (j 0) = t) (h2 : (j 2).val = (y 2).val) :
    G2 V c j = out2_2 (iblk2 V c 0 t) (iblk2 V c 1 t) y := by
  subst h0
  have hy : ValueIdx.ix3 (n0 := 1) (n1 := 1) (n2 := 128) 0 0 (j 2) = y := by
    funext a; apply Fin.ext
    match a with
    | ⟨0, _⟩ => have h : (y 0).val < 1 := (y 0).isLt; show 0 = (y 0).val; omega
    | ⟨1, _⟩ => have h : (y 1).val < 1 := (y 1).isLt; show 0 = (y 1).val; omega
    | ⟨2, _⟩ => exact h2
  unfold G2
  rw [hy]

/-- The output window's block index at point t is (t, 0, 0), decided over the grid. -/
theorem idx_out2 : ∀ t : Fin cfg2.N, win2_2.index t (0 : Fin 3) = t.val
    ∧ win2_2.index t (1 : Fin 3) = 0 ∧ win2_2.index t (2 : Fin 3) = 0 :=
  (by decide +kernel : ∀ t : Fin grid2.N, _)

/-- What a point writes back is what the body left in the staging buffer, cut to the block's part inside the array. -/
theorem flushed2_def (c : Dev nD) (t : Fin cfg2.N) :
    (dat2 V c).flushed 2 t = (cfg2.win 2).cut (grid2.coords t) ((dat2 V c).after 2 t) := rfl

/-- The output window's blocks lie inside the array, so the cut keeps all of the buffer. -/
theorem cut_out2 (t : Fin cfg2.N) (X : Vec F S1x1x128 .f32) : (cfg2.win 2).cut (grid2.coords t) X = X := rfl

/-- The output window's block at t, read off whole-array contents G at y, is G at the block's index of y. -/
theorem read_out2 (t : Fin cfg2.N) (G : S8x1x128.Idx → Elt F .f32) (y : S1x1x128.Idx) :
    ((cfg2.win 2).blk t).view.read (Elt F) G y = G (((cfg2.win 2).blk t).view.emb y) := rfl

/-- What point t writes back is block t of `G2`. -/
theorem flushed2_eq (c : Dev nD) (t : Fin cfg2.N) :
    (dat2 V c).flushed 2 t = ((cfg2.win 2).blk t).view.read (Elt F) (G2 V c) := by
  refine (flushed2_def V c t).trans ?_
  rw [after2_2]
  refine (cut_out2 t _).trans ?_
  funext y
  refine Eq.trans ?_ (read_out2 t (G2 V c) y).symm
  obtain ⟨e0, e1, e2⟩ := idx_out2 t
  have hy0 : (y 0).val < 1 := (y 0).isLt
  refine (G2_at V c t _ y ?_ ?_).symm
  · apply Fin.ext
    show win2_2.index t (0 : Fin 3) * 1 + 1 * (y 0).val = t.val
    omega
  · show win2_2.index t (2 : Fin 3) * 128 + 1 * (y 2).val = (y 2).val
    omega

/-- An index of the output array is in point t's block iff each coordinate is in the block's range. -/
theorem mem_blk2 (t : Fin cfg2.N) (i : S8x1x128.Idx) :
    i ∈ ((cfg2.win 2).blk t).view.set ↔ ∀ a : Fin 3, win2_2.index t a * S1x1x128.size a ≤ (i a).val ∧ (i a).val < win2_2.index t a * S1x1x128.size a + S1x1x128.size a := by
  show i ∈ ((View.whole main_v11).slice (win2_2.rect t)).set ↔ _
  rw [View.set_slice_whole, Rect.mem_set_unit]
  exact Iff.rfl

/-- Every index of the output array is in the block of the point named by its row. -/
theorem cover2 (i : S8x1x128.Idx) :
    ∃ t : Fin cfg2.N, (cfg2.win 2).flush t = true ∧ i ∈ ((cfg2.win 2).blk t).view.set := by
  refine ⟨pt2 (i 0), flush2_2 _, ?_⟩
  rw [mem_blk2]
  obtain ⟨e0, e1, e2⟩ := idx_out2 (pt2 (i 0))
  have hv : (pt2 (i 0)).val = (i 0).val := rfl
  have hi1 : (i 1).val < 1 := (i 1).isLt
  have hi2 : (i 2).val < 128 := (i 2).isLt
  intro a
  match a with
  | ⟨0, _⟩ => show win2_2.index (pt2 (i 0)) (0 : Fin 3) * 1 ≤ (i 0).val ∧ (i 0).val < win2_2.index (pt2 (i 0)) (0 : Fin 3) * 1 + 1; omega
  | ⟨1, _⟩ => show win2_2.index (pt2 (i 0)) (1 : Fin 3) * 1 ≤ (i 1).val ∧ (i 1).val < win2_2.index (pt2 (i 0)) (1 : Fin 3) * 1 + 1; omega
  | ⟨2, _⟩ => show win2_2.index (pt2 (i 0)) (2 : Fin 3) * 128 ≤ (i 2).val ∧ (i 2).val < win2_2.index (pt2 (i 0)) (2 : Fin 3) * 128 + 128; omega

/-- THE OUTPUT ARRAY after region 2 is `G2`. -/
theorem arr2 (c : Dev nD) : (dat2 V c).arrAt 2 cfg2.N = G2 V c :=
  (dat2 V c).arrAt_eq_of_cover 2 (G2 V c) (fun t _ => flushed2_eq V c t) cover2

/-! # Region 3: the output array after the region -/

/-- Row `q` of the output array is written by grid point `q`. -/
def pt3 (q : Fin 8) : Fin cfg3.N := ⟨q.val, lt_of_lt_of_eq q.isLt N_3.symm⟩

theorem pt3_val (q : Fin 8) : (pt3 q).val = q.val := rfl

/-- The point named by a point's own number is that point. -/
theorem pt3_self (t : Fin cfg3.N) (h : t.val < 8) : pt3 ⟨t.val, h⟩ = t := Fin.ext rfl

/-- The output array after the region: entry (b, 0, l) is lane l of what the body stores at point b. -/
def G3 (c : Dev nD) : S8x1x128.Idx → Elt F .f32 := fun j =>
  out3_2 (iblk3 V c 0 (pt3 (j 0))) (iblk3 V c 1 (pt3 (j 0))) (ValueIdx.ix3 (n0 := 1) (n1 := 1) (n2 := 128) 0 0 (j 2))

/-- `G3` at an index whose row names point t and whose lane is y's: what point t's body stores, at y. -/
theorem G3_at (c : Dev nD) (t : Fin cfg3.N) (j : S8x1x128.Idx) (y : S1x1x128.Idx)
    (h0 : pt3 (j 0) = t) (h2 : (j 2).val = (y 2).val) :
    G3 V c j = out3_2 (iblk3 V c 0 t) (iblk3 V c 1 t) y := by
  subst h0
  have hy : ValueIdx.ix3 (n0 := 1) (n1 := 1) (n2 := 128) 0 0 (j 2) = y := by
    funext a; apply Fin.ext
    match a with
    | ⟨0, _⟩ => have h : (y 0).val < 1 := (y 0).isLt; show 0 = (y 0).val; omega
    | ⟨1, _⟩ => have h : (y 1).val < 1 := (y 1).isLt; show 0 = (y 1).val; omega
    | ⟨2, _⟩ => exact h2
  unfold G3
  rw [hy]

/-- The output window's block index at point t is (t, 0, 0), decided over the grid. -/
theorem idx_out3 : ∀ t : Fin cfg3.N, win3_2.index t (0 : Fin 3) = t.val
    ∧ win3_2.index t (1 : Fin 3) = 0 ∧ win3_2.index t (2 : Fin 3) = 0 :=
  (by decide +kernel : ∀ t : Fin grid3.N, _)

/-- What a point writes back is what the body left in the staging buffer, cut to the block's part inside the array. -/
theorem flushed3_def (c : Dev nD) (t : Fin cfg3.N) :
    (dat3 V c).flushed 2 t = (cfg3.win 2).cut (grid3.coords t) ((dat3 V c).after 2 t) := rfl

/-- The output window's blocks lie inside the array, so the cut keeps all of the buffer. -/
theorem cut_out3 (t : Fin cfg3.N) (X : Vec F S1x1x128 .f32) : (cfg3.win 2).cut (grid3.coords t) X = X := rfl

/-- The output window's block at t, read off whole-array contents G at y, is G at the block's index of y. -/
theorem read_out3 (t : Fin cfg3.N) (G : S8x1x128.Idx → Elt F .f32) (y : S1x1x128.Idx) :
    ((cfg3.win 2).blk t).view.read (Elt F) G y = G (((cfg3.win 2).blk t).view.emb y) := rfl

/-- What point t writes back is block t of `G3`. -/
theorem flushed3_eq (c : Dev nD) (t : Fin cfg3.N) :
    (dat3 V c).flushed 2 t = ((cfg3.win 2).blk t).view.read (Elt F) (G3 V c) := by
  refine (flushed3_def V c t).trans ?_
  rw [after3_2]
  refine (cut_out3 t _).trans ?_
  funext y
  refine Eq.trans ?_ (read_out3 t (G3 V c) y).symm
  obtain ⟨e0, e1, e2⟩ := idx_out3 t
  have hy0 : (y 0).val < 1 := (y 0).isLt
  refine (G3_at V c t _ y ?_ ?_).symm
  · apply Fin.ext
    show win3_2.index t (0 : Fin 3) * 1 + 1 * (y 0).val = t.val
    omega
  · show win3_2.index t (2 : Fin 3) * 128 + 1 * (y 2).val = (y 2).val
    omega

/-- An index of the output array is in point t's block iff each coordinate is in the block's range. -/
theorem mem_blk3 (t : Fin cfg3.N) (i : S8x1x128.Idx) :
    i ∈ ((cfg3.win 2).blk t).view.set ↔ ∀ a : Fin 3, win3_2.index t a * S1x1x128.size a ≤ (i a).val ∧ (i a).val < win3_2.index t a * S1x1x128.size a + S1x1x128.size a := by
  show i ∈ ((View.whole main_v15).slice (win3_2.rect t)).set ↔ _
  rw [View.set_slice_whole, Rect.mem_set_unit]
  exact Iff.rfl

/-- Every index of the output array is in the block of the point named by its row. -/
theorem cover3 (i : S8x1x128.Idx) :
    ∃ t : Fin cfg3.N, (cfg3.win 2).flush t = true ∧ i ∈ ((cfg3.win 2).blk t).view.set := by
  refine ⟨pt3 (i 0), flush3_2 _, ?_⟩
  rw [mem_blk3]
  obtain ⟨e0, e1, e2⟩ := idx_out3 (pt3 (i 0))
  have hv : (pt3 (i 0)).val = (i 0).val := rfl
  have hi1 : (i 1).val < 1 := (i 1).isLt
  have hi2 : (i 2).val < 128 := (i 2).isLt
  intro a
  match a with
  | ⟨0, _⟩ => show win3_2.index (pt3 (i 0)) (0 : Fin 3) * 1 ≤ (i 0).val ∧ (i 0).val < win3_2.index (pt3 (i 0)) (0 : Fin 3) * 1 + 1; omega
  | ⟨1, _⟩ => show win3_2.index (pt3 (i 0)) (1 : Fin 3) * 1 ≤ (i 1).val ∧ (i 1).val < win3_2.index (pt3 (i 0)) (1 : Fin 3) * 1 + 1; omega
  | ⟨2, _⟩ => show win3_2.index (pt3 (i 0)) (2 : Fin 3) * 128 ≤ (i 2).val ∧ (i 2).val < win3_2.index (pt3 (i 0)) (2 : Fin 3) * 128 + 128; omega

/-- THE OUTPUT ARRAY after region 3 is `G3`. -/
theorem arr3 (c : Dev nD) : (dat3 V c).arrAt 2 cfg3.N = G3 V c :=
  (dat3 V c).arrAt_eq_of_cover 2 (G3 V c) (fun t _ => flushed3_eq V c t) cover3

/-! # Region 0: the output array after the region -/

/-- Row `q` of the output array is written by grid point `q`. -/
def pt0 (q : Fin 16) : Fin cfg0.N := ⟨q.val, lt_of_lt_of_eq q.isLt N_0.symm⟩

theorem pt0_val (q : Fin 16) : (pt0 q).val = q.val := rfl

/-- The point named by a point's own number is that point. -/
theorem pt0_self (t : Fin cfg0.N) (h : t.val < 16) : pt0 ⟨t.val, h⟩ = t := Fin.ext rfl

/-- The output array after the region: entry (b, 0, l) is lane l of what the body stores at point b. -/
def G0 (c : Dev nD) : S16x1x128.Idx → Elt F .f32 := fun j =>
  out0_2 (iblk0 V c 0 (pt0 (j 0))) (iblk0 V c 1 (pt0 (j 0))) (ValueIdx.ix3 (n0 := 1) (n1 := 1) (n2 := 128) 0 0 (j 2))

/-- `G0` at an index whose row names point t and whose lane is y's: what point t's body stores, at y. -/
theorem G0_at (c : Dev nD) (t : Fin cfg0.N) (j : S16x1x128.Idx) (y : S1x1x128.Idx)
    (h0 : pt0 (j 0) = t) (h2 : (j 2).val = (y 2).val) :
    G0 V c j = out0_2 (iblk0 V c 0 t) (iblk0 V c 1 t) y := by
  subst h0
  have hy : ValueIdx.ix3 (n0 := 1) (n1 := 1) (n2 := 128) 0 0 (j 2) = y := by
    funext a; apply Fin.ext
    match a with
    | ⟨0, _⟩ => have h : (y 0).val < 1 := (y 0).isLt; show 0 = (y 0).val; omega
    | ⟨1, _⟩ => have h : (y 1).val < 1 := (y 1).isLt; show 0 = (y 1).val; omega
    | ⟨2, _⟩ => exact h2
  unfold G0
  rw [hy]

/-- The output window's block index at point t is (t, 0, 0), decided over the grid. -/
theorem idx_out0 : ∀ t : Fin cfg0.N, win0_2.index t (0 : Fin 3) = t.val
    ∧ win0_2.index t (1 : Fin 3) = 0 ∧ win0_2.index t (2 : Fin 3) = 0 :=
  (by decide +kernel : ∀ t : Fin grid0.N, _)

/-- What a point writes back is what the body left in the staging buffer, cut to the block's part inside the array. -/
theorem flushed0_def (c : Dev nD) (t : Fin cfg0.N) :
    (dat0 V c).flushed 2 t = (cfg0.win 2).cut (grid0.coords t) ((dat0 V c).after 2 t) := rfl

/-- The output window's blocks lie inside the array, so the cut keeps all of the buffer. -/
theorem cut_out0 (t : Fin cfg0.N) (X : Vec F S1x1x128 .f32) : (cfg0.win 2).cut (grid0.coords t) X = X := rfl

/-- The output window's block at t, read off whole-array contents G at y, is G at the block's index of y. -/
theorem read_out0 (t : Fin cfg0.N) (G : S16x1x128.Idx → Elt F .f32) (y : S1x1x128.Idx) :
    ((cfg0.win 2).blk t).view.read (Elt F) G y = G (((cfg0.win 2).blk t).view.emb y) := rfl

/-- What point t writes back is block t of `G0`. -/
theorem flushed0_eq (c : Dev nD) (t : Fin cfg0.N) :
    (dat0 V c).flushed 2 t = ((cfg0.win 2).blk t).view.read (Elt F) (G0 V c) := by
  refine (flushed0_def V c t).trans ?_
  rw [after0_2]
  refine (cut_out0 t _).trans ?_
  funext y
  refine Eq.trans ?_ (read_out0 t (G0 V c) y).symm
  obtain ⟨e0, e1, e2⟩ := idx_out0 t
  have hy0 : (y 0).val < 1 := (y 0).isLt
  refine (G0_at V c t _ y ?_ ?_).symm
  · apply Fin.ext
    show win0_2.index t (0 : Fin 3) * 1 + 1 * (y 0).val = t.val
    omega
  · show win0_2.index t (2 : Fin 3) * 128 + 1 * (y 2).val = (y 2).val
    omega

/-- An index of the output array is in point t's block iff each coordinate is in the block's range. -/
theorem mem_blk0 (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- Every index of the output array is in the block of the point named by its row. -/
theorem cover0 (i : S16x1x128.Idx) :
    ∃ t : Fin cfg0.N, (cfg0.win 2).flush t = true ∧ i ∈ ((cfg0.win 2).blk t).view.set := by
  refine ⟨pt0 (i 0), flush0_2 _, ?_⟩
  rw [mem_blk0]
  obtain ⟨e0, e1, e2⟩ := idx_out0 (pt0 (i 0))
  have hv : (pt0 (i 0)).val = (i 0).val := rfl
  have hi1 : (i 1).val < 1 := (i 1).isLt
  have hi2 : (i 2).val < 128 := (i 2).isLt
  intro a
  match a with
  | ⟨0, _⟩ => show win0_2.index (pt0 (i 0)) (0 : Fin 3) * 1 ≤ (i 0).val ∧ (i 0).val < win0_2.index (pt0 (i 0)) (0 : Fin 3) * 1 + 1; omega
  | ⟨1, _⟩ => show win0_2.index (pt0 (i 0)) (1 : Fin 3) * 1 ≤ (i 1).val ∧ (i 1).val < win0_2.index (pt0 (i 0)) (1 : Fin 3) * 1 + 1; omega
  | ⟨2, _⟩ => show win0_2.index (pt0 (i 0)) (2 : Fin 3) * 128 ≤ (i 2).val ∧ (i 2).val < win0_2.index (pt0 (i 0)) (2 : Fin 3) * 128 + 128; omega

/-- THE OUTPUT ARRAY after region 0 is `G0`. -/
theorem arr0 (c : Dev nD) : (dat0 V c).arrAt 2 cfg0.N = G0 V c :=
  (dat0 V c).arrAt_eq_of_cover 2 (G0 V c) (fun t _ => flushed0_eq V c t) cover0

/-! # The loaded blocks read at an index, as the argument arrays read at an index -/

/-- The index of a [1,1,64,128,64] block at the row-major position of index i of the [64,128,64] shape. -/
abbrev lift5 (i : S64x128x64.Idx) : S1x1x64x128x64.Idx :=
  ValueIdx.ix5 (n0 := 1) (n1 := 1) (n2 := 64) (n3 := 128) (n4 := 64) 0 0 (i 0) (i 1) (i 2)

/-- A [1,1,64,128,64] block cast to [64,128,64] reads, at (x, y, z), the block at (0, 0, x, y, z). -/
theorem cast_apply {α : Type} (x : S1x1x64x128x64.Idx → α) (i : S64x128x64.Idx) :
    shapeCast S64x128x64 x shapeCasts_S1x1x64x128x64_S64x128x64 i = x (lift5 i) :=
  shapeCast_apply (s := S1x1x64x128x64) (t := S64x128x64) x shapeCasts_S1x1x64x128x64_S64x128x64 i (lift5 i) (by
    rw [Shape.rowMajor_val_five, Shape.rowMajor_val_three]
    show ((((0 * 1 + 0) * 64 + (i 0).val) * 128 + (i 1).val) * 64 + (i 2).val) = ((i 0).val * 128 + (i 1).val) * 64 + (i 2).val
    simp only [Nat.zero_mul, Nat.zero_add])

/-! ## Region 1: its loads -/

theorem arrRef1_0 : Pipeline.arrRef spec1 0 = main_arg0 := rfl
theorem arrRef1_1 : Pipeline.arrRef spec1 1 = main_arg4 := rfl

/-- Both input windows' block index at point t is (t, 0, 0, 0, 0), decided over the grid. -/
theorem idx_in1 : ∀ t : Fin cfg1.N,
    (win1_0.index t (0 : Fin 5) = t.val ∧ win1_0.index t (1 : Fin 5) = 0 ∧ win1_0.index t (2 : Fin 5) = 0
      ∧ win1_0.index t (3 : Fin 5) = 0 ∧ win1_0.index t (4 : Fin 5) = 0)
    ∧ (win1_1.index t (0 : Fin 5) = t.val ∧ win1_1.index t (1 : Fin 5) = 0 ∧ win1_1.index t (2 : Fin 5) = 0
      ∧ win1_1.index t (3 : Fin 5) = 0 ∧ win1_1.index t (4 : Fin 5) = 0) :=
  (by decide +kernel : ∀ t : Fin grid1.N, _)

/-- Input window 0's block at t, read at y, is the first argument array at the block's index of y. -/
theorem iblk1_0_apply (c : Dev nD) (t : Fin cfg1.N) (y : S1x4x64x128x64.Idx) :
    iblk1 V c 0 t y = V c main_arg0 (((cfg1.win 0).blk t).view.emb y) := rfl

/-- Input window 1's block at t, read at y, is the mask array at the block's index of y. -/
theorem iblk1_1_apply (c : Dev nD) (t : Fin cfg1.N) (y : S1x1x64x128x64.Idx) :
    iblk1 V c 1 t y = V c main_arg4 (((cfg1.win 1).blk t).view.emb y) := rfl

/-- Channel 0 of the first argument as point t's body loads it, read at (x, y, z): the array at (t, 0, x, y, z). -/
theorem ld1_c0 (c : Dev nD) (t : Fin cfg1.N) (i : S64x128x64.Idx) :
    shapeCast S64x128x64 (View.ld (iblk1 V c 0 t) r1_0) shapeCasts_S1x1x64x128x64_S64x128x64 i
      = V c main_arg0 (ValueIdx.ix5 (n0 := 8) (n1 := 4) (n2 := 64) (n3 := 128) (n4 := 64) ⟨t.val, lt_of_lt_of_eq t.isLt N_1⟩ 0 (i 0) (i 1) (i 2)) := by
  refine (cast_apply _ i).trans ?_
  refine (iblk1_0_apply V c t _).trans ?_
  refine congrArg (V c main_arg0) ?_
  obtain ⟨⟨e0, e1, e2, e3, e4⟩, -⟩ := idx_in1 t
  funext a; apply Fin.ext
  match a with
  | ⟨0, _⟩ => show win1_0.index t (0 : Fin 5) * 1 + 1 * (0 + 1 * 0) = t.val; omega
  | ⟨1, _⟩ => show win1_0.index t (1 : Fin 5) * 4 + 1 * (0 + 1 * 0) = 0; omega
  | ⟨2, _⟩ => show win1_0.index t (2 : Fin 5) * 64 + 1 * (0 + 1 * (i 0).val) = (i 0).val; omega
  | ⟨3, _⟩ => show win1_0.index t (3 : Fin 5) * 128 + 1 * (0 + 1 * (i 1).val) = (i 1).val; omega
  | ⟨4, _⟩ => show win1_0.index t (4 : Fin 5) * 64 + 1 * (0 + 1 * (i 2).val) = (i 2).val; omega

/-- Channel 1 of the first argument as point t's body loads it, read at (x, y, z): the array at (t, 1, x, y, z). -/
theorem ld1_c1 (c : Dev nD) (t : Fin cfg1.N) (i : S64x128x64.Idx) :
    shapeCast S64x128x64 (View.ld (iblk1 V c 0 t) r1_1) shapeCasts_S1x1x64x128x64_S64x128x64 i
      = V c main_arg0 (ValueIdx.ix5 (n0 := 8) (n1 := 4) (n2 := 64) (n3 := 128) (n4 := 64) ⟨t.val, lt_of_lt_of_eq t.isLt N_1⟩ 1 (i 0) (i 1) (i 2)) := by
  refine (cast_apply _ i).trans ?_
  refine (iblk1_0_apply V c t _).trans ?_
  refine congrArg (V c main_arg0) ?_
  obtain ⟨⟨e0, e1, e2, e3, e4⟩, -⟩ := idx_in1 t
  funext a; apply Fin.ext
  match a with
  | ⟨0, _⟩ => show win1_0.index t (0 : Fin 5) * 1 + 1 * (0 + 1 * 0) = t.val; omega
  | ⟨1, _⟩ => show win1_0.index t (1 : Fin 5) * 4 + 1 * (1 + 1 * 0) = 1; omega
  | ⟨2, _⟩ => show win1_0.index t (2 : Fin 5) * 64 + 1 * (0 + 1 * (i 0).val) = (i 0).val; omega
  | ⟨3, _⟩ => show win1_0.index t (3 : Fin 5) * 128 + 1 * (0 + 1 * (i 1).val) = (i 1).val; omega
  | ⟨4, _⟩ => show win1_0.index t (4 : Fin 5) * 64 + 1 * (0 + 1 * (i 2).val) = (i 2).val; omega

/-- Channel 2 of the first argument as point t's body loads it, read at (x, y, z): the array at (t, 2, x, y, z). -/
theorem ld1_c2 (c : Dev nD) (t : Fin cfg1.N) (i : S64x128x64.Idx) :
    shapeCast S64x128x64 (View.ld (iblk1 V c 0 t) r1_2) shapeCasts_S1x1x64x128x64_S64x128x64 i
      = V c main_arg0 (ValueIdx.ix5 (n0 := 8) (n1 := 4) (n2 := 64) (n3 := 128) (n4 := 64) ⟨t.val, lt_of_lt_of_eq t.isLt N_1⟩ 2 (i 0) (i 1) (i 2)) := by
  refine (cast_apply _ i).trans ?_
  refine (iblk1_0_apply V c t _).trans ?_
  refine congrArg (V c main_arg0) ?_
  obtain ⟨⟨e0, e1, e2, e3, e4⟩, -⟩ := idx_in1 t
  funext a; apply Fin.ext
  match a with
  | ⟨0, _⟩ => show win1_0.index t (0 : Fin 5) * 1 + 1 * (0 + 1 * 0) = t.val; omega
  | ⟨1, _⟩ => show win1_0.index t (1 : Fin 5) * 4 + 1 * (2 + 1 * 0) = 2; omega
  | ⟨2, _⟩ => show win1_0.index t (2 : Fin 5) * 64 + 1 * (0 + 1 * (i 0).val) = (i 0).val; omega
  | ⟨3, _⟩ => show win1_0.index t (3 : Fin 5) * 128 + 1 * (0 + 1 * (i 1).val) = (i 1).val; omega
  | ⟨4, _⟩ => show win1_0.index t (4 : Fin 5) * 64 + 1 * (0 + 1 * (i 2).val) = (i 2).val; omega

/-- The mask block as point t's body loads it, read at (x, y, z): the mask array at (t, 0, x, y, z). -/
theorem ld1_w1 (c : Dev nD) (t : Fin cfg1.N) (i : S64x128x64.Idx) :
    shapeCast S64x128x64 (View.ld (iblk1 V c 1 t) r1_3) shapeCasts_S1x1x64x128x64_S64x128x64 i
      = V c main_arg4 (ValueIdx.ix5 (n0 := 8) (n1 := 1) (n2 := 64) (n3 := 128) (n4 := 64) ⟨t.val, lt_of_lt_of_eq t.isLt N_1⟩ 0 (i 0) (i 1) (i 2)) := by
  refine (cast_apply _ i).trans ?_
  refine (iblk1_1_apply V c t _).trans ?_
  refine congrArg (V c main_arg4) ?_
  obtain ⟨-, ⟨e0, e1, e2, e3, e4⟩⟩ := idx_in1 t
  funext a; apply Fin.ext
  match a with
  | ⟨0, _⟩ => show win1_1.index t (0 : Fin 5) * 1 + 1 * (0 + 1 * 0) = t.val; omega
  | ⟨1, _⟩ => show win1_1.index t (1 : Fin 5) * 1 + 1 * (0 + 1 * 0) = 0; omega
  | ⟨2, _⟩ => show win1_1.index t (2 : Fin 5) * 64 + 1 * (0 + 1 * (i 0).val) = (i 0).val; omega
  | ⟨3, _⟩ => show win1_1.index t (3 : Fin 5) * 128 + 1 * (0 + 1 * (i 1).val) = (i 1).val; omega
  | ⟨4, _⟩ => show win1_1.index t (4 : Fin 5) * 64 + 1 * (0 + 1 * (i 2).val) = (i 2).val; omega

/-! ## Region 2: its loads -/

theorem arrRef2_0 : Pipeline.arrRef spec2 0 = main_arg0 := rfl
theorem arrRef2_1 : Pipeline.arrRef spec2 1 = main_arg4 := rfl

/-- Both input windows' block index at point t is (t, 0, 0, 0, 0), decided over the grid. -/
theorem idx_in2 : ∀ t : Fin cfg2.N,
    (win2_0.index t (0 : Fin 5) = t.val ∧ win2_0.index t (1 : Fin 5) = 0 ∧ win2_0.index t (2 : Fin 5) = 0
      ∧ win2_0.index t (3 : Fin 5) = 0 ∧ win2_0.index t (4 : Fin 5) = 0)
    ∧ (win2_1.index t (0 : Fin 5) = t.val ∧ win2_1.index t (1 : Fin 5) = 0 ∧ win2_1.index t (2 : Fin 5) = 0
      ∧ win2_1.index t (3 : Fin 5) = 0 ∧ win2_1.index t (4 : Fin 5) = 0) :=
  (by decide +kernel : ∀ t : Fin grid2.N, _)

/-- Input window 0's block at t, read at y, is the first argument array at the block's index of y. -/
theorem iblk2_0_apply (c : Dev nD) (t : Fin cfg2.N) (y : S1x4x64x128x64.Idx) :
    iblk2 V c 0 t y = V c main_arg0 (((cfg2.win 0).blk t).view.emb y) := rfl

/-- Input window 1's block at t, read at y, is the mask array at the block's index of y. -/
theorem iblk2_1_apply (c : Dev nD) (t : Fin cfg2.N) (y : S1x1x64x128x64.Idx) :
    iblk2 V c 1 t y = V c main_arg4 (((cfg2.win 1).blk t).view.emb y) := rfl

/-- Channel 0 of the first argument as point t's body loads it, read at (x, y, z): the array at (t, 0, x, y, z). -/
theorem ld2_c0 (c : Dev nD) (t : Fin cfg2.N) (i : S64x128x64.Idx) :
    shapeCast S64x128x64 (View.ld (iblk2 V c 0 t) r2_0) shapeCasts_S1x1x64x128x64_S64x128x64 i
      = V c main_arg0 (ValueIdx.ix5 (n0 := 8) (n1 := 4) (n2 := 64) (n3 := 128) (n4 := 64) ⟨t.val, lt_of_lt_of_eq t.isLt N_2⟩ 0 (i 0) (i 1) (i 2)) := by
  refine (cast_apply _ i).trans ?_
  refine (iblk2_0_apply V c t _).trans ?_
  refine congrArg (V c main_arg0) ?_
  obtain ⟨⟨e0, e1, e2, e3, e4⟩, -⟩ := idx_in2 t
  funext a; apply Fin.ext
  match a with
  | ⟨0, _⟩ => show win2_0.index t (0 : Fin 5) * 1 + 1 * (0 + 1 * 0) = t.val; omega
  | ⟨1, _⟩ => show win2_0.index t (1 : Fin 5) * 4 + 1 * (0 + 1 * 0) = 0; omega
  | ⟨2, _⟩ => show win2_0.index t (2 : Fin 5) * 64 + 1 * (0 + 1 * (i 0).val) = (i 0).val; omega
  | ⟨3, _⟩ => show win2_0.index t (3 : Fin 5) * 128 + 1 * (0 + 1 * (i 1).val) = (i 1).val; omega
  | ⟨4, _⟩ => show win2_0.index t (4 : Fin 5) * 64 + 1 * (0 + 1 * (i 2).val) = (i 2).val; omega

/-- Channel 1 of the first argument as point t's body loads it, read at (x, y, z): the array at (t, 1, x, y, z). -/
theorem ld2_c1 (c : Dev nD) (t : Fin cfg2.N) (i : S64x128x64.Idx) :
    shapeCast S64x128x64 (View.ld (iblk2 V c 0 t) r2_1) shapeCasts_S1x1x64x128x64_S64x128x64 i
      = V c main_arg0 (ValueIdx.ix5 (n0 := 8) (n1 := 4) (n2 := 64) (n3 := 128) (n4 := 64) ⟨t.val, lt_of_lt_of_eq t.isLt N_2⟩ 1 (i 0) (i 1) (i 2)) := by
  refine (cast_apply _ i).trans ?_
  refine (iblk2_0_apply V c t _).trans ?_
  refine congrArg (V c main_arg0) ?_
  obtain ⟨⟨e0, e1, e2, e3, e4⟩, -⟩ := idx_in2 t
  funext a; apply Fin.ext
  match a with
  | ⟨0, _⟩ => show win2_0.index t (0 : Fin 5) * 1 + 1 * (0 + 1 * 0) = t.val; omega
  | ⟨1, _⟩ => show win2_0.index t (1 : Fin 5) * 4 + 1 * (1 + 1 * 0) = 1; omega
  | ⟨2, _⟩ => show win2_0.index t (2 : Fin 5) * 64 + 1 * (0 + 1 * (i 0).val) = (i 0).val; omega
  | ⟨3, _⟩ => show win2_0.index t (3 : Fin 5) * 128 + 1 * (0 + 1 * (i 1).val) = (i 1).val; omega
  | ⟨4, _⟩ => show win2_0.index t (4 : Fin 5) * 64 + 1 * (0 + 1 * (i 2).val) = (i 2).val; omega

/-- Channel 2 of the first argument as point t's body loads it, read at (x, y, z): the array at (t, 2, x, y, z). -/
theorem ld2_c2 (c : Dev nD) (t : Fin cfg2.N) (i : S64x128x64.Idx) :
    shapeCast S64x128x64 (View.ld (iblk2 V c 0 t) r2_2) shapeCasts_S1x1x64x128x64_S64x128x64 i
      = V c main_arg0 (ValueIdx.ix5 (n0 := 8) (n1 := 4) (n2 := 64) (n3 := 128) (n4 := 64) ⟨t.val, lt_of_lt_of_eq t.isLt N_2⟩ 2 (i 0) (i 1) (i 2)) := by
  refine (cast_apply _ i).trans ?_
  refine (iblk2_0_apply V c t _).trans ?_
  refine congrArg (V c main_arg0) ?_
  obtain ⟨⟨e0, e1, e2, e3, e4⟩, -⟩ := idx_in2 t
  funext a; apply Fin.ext
  match a with
  | ⟨0, _⟩ => show win2_0.index t (0 : Fin 5) * 1 + 1 * (0 + 1 * 0) = t.val; omega
  | ⟨1, _⟩ => show win2_0.index t (1 : Fin 5) * 4 + 1 * (2 + 1 * 0) = 2; omega
  | ⟨2, _⟩ => show win2_0.index t (2 : Fin 5) * 64 + 1 * (0 + 1 * (i 0).val) = (i 0).val; omega
  | ⟨3, _⟩ => show win2_0.index t (3 : Fin 5) * 128 + 1 * (0 + 1 * (i 1).val) = (i 1).val; omega
  | ⟨4, _⟩ => show win2_0.index t (4 : Fin 5) * 64 + 1 * (0 + 1 * (i 2).val) = (i 2).val; omega

/-- Channel 3 of the first argument as point t's body loads it, read at (x, y, z): the array at (t, 3, x, y, z). -/
theorem ld2_c3 (c : Dev nD) (t : Fin cfg2.N) (i : S64x128x64.Idx) :
    shapeCast S64x128x64 (View.ld (iblk2 V c 0 t) r2_3) shapeCasts_S1x1x64x128x64_S64x128x64 i
      = V c main_arg0 (ValueIdx.ix5 (n0 := 8) (n1 := 4) (n2 := 64) (n3 := 128) (n4 := 64) ⟨t.val, lt_of_lt_of_eq t.isLt N_2⟩ 3 (i 0) (i 1) (i 2)) := by
  refine (cast_apply _ i).trans ?_
  refine (iblk2_0_apply V c t _).trans ?_
  refine congrArg (V c main_arg0) ?_
  obtain ⟨⟨e0, e1, e2, e3, e4⟩, -⟩ := idx_in2 t
  funext a; apply Fin.ext
  match a with
  | ⟨0, _⟩ => show win2_0.index t (0 : Fin 5) * 1 + 1 * (0 + 1 * 0) = t.val; omega
  | ⟨1, _⟩ => show win2_0.index t (1 : Fin 5) * 4 + 1 * (3 + 1 * 0) = 3; omega
  | ⟨2, _⟩ => show win2_0.index t (2 : Fin 5) * 64 + 1 * (0 + 1 * (i 0).val) = (i 0).val; omega
  | ⟨3, _⟩ => show win2_0.index t (3 : Fin 5) * 128 + 1 * (0 + 1 * (i 1).val) = (i 1).val; omega
  | ⟨4, _⟩ => show win2_0.index t (4 : Fin 5) * 64 + 1 * (0 + 1 * (i 2).val) = (i 2).val; omega

/-- The mask block as point t's body loads it, read at (x, y, z): the mask array at (t, 0, x, y, z). -/
theorem ld2_w1 (c : Dev nD) (t : Fin cfg2.N) (i : S64x128x64.Idx) :
    shapeCast S64x128x64 (View.ld (iblk2 V c 1 t) r2_4) shapeCasts_S1x1x64x128x64_S64x128x64 i
      = V c main_arg4 (ValueIdx.ix5 (n0 := 8) (n1 := 1) (n2 := 64) (n3 := 128) (n4 := 64) ⟨t.val, lt_of_lt_of_eq t.isLt N_2⟩ 0 (i 0) (i 1) (i 2)) := by
  refine (cast_apply _ i).trans ?_
  refine (iblk2_1_apply V c t _).trans ?_
  refine congrArg (V c main_arg4) ?_
  obtain ⟨-, ⟨e0, e1, e2, e3, e4⟩⟩ := idx_in2 t
  funext a; apply Fin.ext
  match a with
  | ⟨0, _⟩ => show win2_1.index t (0 : Fin 5) * 1 + 1 * (0 + 1 * 0) = t.val; omega
  | ⟨1, _⟩ => show win2_1.index t (1 : Fin 5) * 1 + 1 * (0 + 1 * 0) = 0; omega
  | ⟨2, _⟩ => show win2_1.index t (2 : Fin 5) * 64 + 1 * (0 + 1 * (i 0).val) = (i 0).val; omega
  | ⟨3, _⟩ => show win2_1.index t (3 : Fin 5) * 128 + 1 * (0 + 1 * (i 1).val) = (i 1).val; omega
  | ⟨4, _⟩ => show win2_1.index t (4 : Fin 5) * 64 + 1 * (0 + 1 * (i 2).val) = (i 2).val; omega

/-! ## Region 3: its loads -/

theorem arrRef3_0 : Pipeline.arrRef spec3 0 = main_arg0 := rfl
theorem arrRef3_1 : Pipeline.arrRef spec3 1 = main_arg4 := rfl

/-- Both input windows' block index at point t is (t, 0, 0, 0, 0), decided over the grid. -/
theorem idx_in3 : ∀ t : Fin cfg3.N,
    (win3_0.index t (0 : Fin 5) = t.val ∧ win3_0.index t (1 : Fin 5) = 0 ∧ win3_0.index t (2 : Fin 5) = 0
      ∧ win3_0.index t (3 : Fin 5) = 0 ∧ win3_0.index t (4 : Fin 5) = 0)
    ∧ (win3_1.index t (0 : Fin 5) = t.val ∧ win3_1.index t (1 : Fin 5) = 0 ∧ win3_1.index t (2 : Fin 5) = 0
      ∧ win3_1.index t (3 : Fin 5) = 0 ∧ win3_1.index t (4 : Fin 5) = 0) :=
  (by decide +kernel : ∀ t : Fin grid3.N, _)

/-- Input window 0's block at t, read at y, is the first argument array at the block's index of y. -/
theorem iblk3_0_apply (c : Dev nD) (t : Fin cfg3.N) (y : S1x4x64x128x64.Idx) :
    iblk3 V c 0 t y = V c main_arg0 (((cfg3.win 0).blk t).view.emb y) := rfl

/-- Input window 1's block at t, read at y, is the mask array at the block's index of y. -/
theorem iblk3_1_apply (c : Dev nD) (t : Fin cfg3.N) (y : S1x1x64x128x64.Idx) :
    iblk3 V c 1 t y = V c main_arg4 (((cfg3.win 1).blk t).view.emb y) := rfl

/-- Channel 0 of the first argument as point t's body loads it, read at (x, y, z): the array at (t, 0, x, y, z). -/
theorem ld3_c0 (c : Dev nD) (t : Fin cfg3.N) (i : S64x128x64.Idx) :
    shapeCast S64x128x64 (View.ld (iblk3 V c 0 t) r3_0) shapeCasts_S1x1x64x128x64_S64x128x64 i
      = V c main_arg0 (ValueIdx.ix5 (n0 := 8) (n1 := 4) (n2 := 64) (n3 := 128) (n4 := 64) ⟨t.val, lt_of_lt_of_eq t.isLt N_3⟩ 0 (i 0) (i 1) (i 2)) := by
  refine (cast_apply _ i).trans ?_
  refine (iblk3_0_apply V c t _).trans ?_
  refine congrArg (V c main_arg0) ?_
  obtain ⟨⟨e0, e1, e2, e3, e4⟩, -⟩ := idx_in3 t
  funext a; apply Fin.ext
  match a with
  | ⟨0, _⟩ => show win3_0.index t (0 : Fin 5) * 1 + 1 * (0 + 1 * 0) = t.val; omega
  | ⟨1, _⟩ => show win3_0.index t (1 : Fin 5) * 4 + 1 * (0 + 1 * 0) = 0; omega
  | ⟨2, _⟩ => show win3_0.index t (2 : Fin 5) * 64 + 1 * (0 + 1 * (i 0).val) = (i 0).val; omega
  | ⟨3, _⟩ => show win3_0.index t (3 : Fin 5) * 128 + 1 * (0 + 1 * (i 1).val) = (i 1).val; omega
  | ⟨4, _⟩ => show win3_0.index t (4 : Fin 5) * 64 + 1 * (0 + 1 * (i 2).val) = (i 2).val; omega

/-- Channel 1 of the first argument as point t's body loads it, read at (x, y, z): the array at (t, 1, x, y, z). -/
theorem ld3_c1 (c : Dev nD) (t : Fin cfg3.N) (i : S64x128x64.Idx) :
    shapeCast S64x128x64 (View.ld (iblk3 V c 0 t) r3_1) shapeCasts_S1x1x64x128x64_S64x128x64 i
      = V c main_arg0 (ValueIdx.ix5 (n0 := 8) (n1 := 4) (n2 := 64) (n3 := 128) (n4 := 64) ⟨t.val, lt_of_lt_of_eq t.isLt N_3⟩ 1 (i 0) (i 1) (i 2)) := by
  refine (cast_apply _ i).trans ?_
  refine (iblk3_0_apply V c t _).trans ?_
  refine congrArg (V c main_arg0) ?_
  obtain ⟨⟨e0, e1, e2, e3, e4⟩, -⟩ := idx_in3 t
  funext a; apply Fin.ext
  match a with
  | ⟨0, _⟩ => show win3_0.index t (0 : Fin 5) * 1 + 1 * (0 + 1 * 0) = t.val; omega
  | ⟨1, _⟩ => show win3_0.index t (1 : Fin 5) * 4 + 1 * (1 + 1 * 0) = 1; omega
  | ⟨2, _⟩ => show win3_0.index t (2 : Fin 5) * 64 + 1 * (0 + 1 * (i 0).val) = (i 0).val; omega
  | ⟨3, _⟩ => show win3_0.index t (3 : Fin 5) * 128 + 1 * (0 + 1 * (i 1).val) = (i 1).val; omega
  | ⟨4, _⟩ => show win3_0.index t (4 : Fin 5) * 64 + 1 * (0 + 1 * (i 2).val) = (i 2).val; omega

/-- Channel 2 of the first argument as point t's body loads it, read at (x, y, z): the array at (t, 2, x, y, z). -/
theorem ld3_c2 (c : Dev nD) (t : Fin cfg3.N) (i : S64x128x64.Idx) :
    shapeCast S64x128x64 (View.ld (iblk3 V c 0 t) r3_2) shapeCasts_S1x1x64x128x64_S64x128x64 i
      = V c main_arg0 (ValueIdx.ix5 (n0 := 8) (n1 := 4) (n2 := 64) (n3 := 128) (n4 := 64) ⟨t.val, lt_of_lt_of_eq t.isLt N_3⟩ 2 (i 0) (i 1) (i 2)) := by
  refine (cast_apply _ i).trans ?_
  refine (iblk3_0_apply V c t _).trans ?_
  refine congrArg (V c main_arg0) ?_
  obtain ⟨⟨e0, e1, e2, e3, e4⟩, -⟩ := idx_in3 t
  funext a; apply Fin.ext
  match a with
  | ⟨0, _⟩ => show win3_0.index t (0 : Fin 5) * 1 + 1 * (0 + 1 * 0) = t.val; omega
  | ⟨1, _⟩ => show win3_0.index t (1 : Fin 5) * 4 + 1 * (2 + 1 * 0) = 2; omega
  | ⟨2, _⟩ => show win3_0.index t (2 : Fin 5) * 64 + 1 * (0 + 1 * (i 0).val) = (i 0).val; omega
  | ⟨3, _⟩ => show win3_0.index t (3 : Fin 5) * 128 + 1 * (0 + 1 * (i 1).val) = (i 1).val; omega
  | ⟨4, _⟩ => show win3_0.index t (4 : Fin 5) * 64 + 1 * (0 + 1 * (i 2).val) = (i 2).val; omega

/-- The mask block as point t's body loads it, read at (x, y, z): the mask array at (t, 0, x, y, z). -/
theorem ld3_w1 (c : Dev nD) (t : Fin cfg3.N) (i : S64x128x64.Idx) :
    shapeCast S64x128x64 (View.ld (iblk3 V c 1 t) r3_3) shapeCasts_S1x1x64x128x64_S64x128x64 i
      = V c main_arg4 (ValueIdx.ix5 (n0 := 8) (n1 := 1) (n2 := 64) (n3 := 128) (n4 := 64) ⟨t.val, lt_of_lt_of_eq t.isLt N_3⟩ 0 (i 0) (i 1) (i 2)) := by
  refine (cast_apply _ i).trans ?_
  refine (iblk3_1_apply V c t _).trans ?_
  refine congrArg (V c main_arg4) ?_
  obtain ⟨-, ⟨e0, e1, e2, e3, e4⟩⟩ := idx_in3 t
  funext a; apply Fin.ext
  match a with
  | ⟨0, _⟩ => show win3_1.index t (0 : Fin 5) * 1 + 1 * (0 + 1 * 0) = t.val; omega
  | ⟨1, _⟩ => show win3_1.index t (1 : Fin 5) * 1 + 1 * (0 + 1 * 0) = 0; omega
  | ⟨2, _⟩ => show win3_1.index t (2 : Fin 5) * 64 + 1 * (0 + 1 * (i 0).val) = (i 0).val; omega
  | ⟨3, _⟩ => show win3_1.index t (3 : Fin 5) * 128 + 1 * (0 + 1 * (i 1).val) = (i 1).val; omega
  | ⟨4, _⟩ => show win3_1.index t (4 : Fin 5) * 64 + 1 * (0 + 1 * (i 2).val) = (i 2).val; omega

/-! ## Region 0: its loads -/

theorem arrRef0_0 : Pipeline.arrRef spec0 0 = main_v0 := rfl
theorem arrRef0_1 : Pipeline.arrRef spec0 1 = main_v1 := rfl

/-- Both input windows' block index at point t is (t, 0, 0), decided over the grid. -/
theorem idx_in0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0) :=
  (by decide +kernel : ∀ t : Fin grid0.N, _)

theorem iblk0_0_apply (c : Dev nD) (t : Fin cfg0.N) (y : S128x128x64.Idx) :
    iblk0 V c 0 t y = V c main_v0 (((cfg0.win 0).blk t).view.emb y) := rfl

theorem iblk0_1_apply (c : Dev nD) (t : Fin cfg0.N) (y : S128x128x64.Idx) :
    iblk0 V c 1 t y = V c main_v1 (((cfg0.win 1).blk t).view.emb y) := rfl

/-- Row 128 t + x of a point t of the 16 and a row x of its 128-row block is a row of the 2048-row array. -/
theorem row0_lt (t : Fin cfg0.N) {x : Nat} (hx : x < 128) : 128 * t.val + x < 2048 := by
  have ht : t.val < 16 := lt_of_lt_of_eq t.isLt N_0
  omega

/-- The first operand's block as point t's body loads it, read at (x, y, z): the array at (128 t + x, y, z). -/
theorem ld0_w0 (c : Dev nD) (t : Fin cfg0.N) (i : S128x128x64.Idx) :
    View.ld (iblk0 V c 0 t) r0_0 i
      = V c main_v0 (ValueIdx.ix3 (n0 := 2048) (n1 := 128) (n2 := 64) ⟨128 * t.val + (i 0).val, row0_lt t (i 0).isLt⟩ (i 1) (i 2)) := by
  refine (iblk0_0_apply V c t _).trans ?_
  refine congrArg (V c main_v0) ?_
  obtain ⟨⟨e0, e1, e2⟩, -⟩ := idx_in0 t
  funext a; apply Fin.ext
  match a with
  | ⟨0, _⟩ => show win0_0.index t (0 : Fin 3) * 128 + 1 * (0 + 1 * (i 0).val) = 128 * t.val + (i 0).val; omega
  | ⟨1, _⟩ => show win0_0.index t (1 : Fin 3) * 128 + 1 * (0 + 1 * (i 1).val) = (i 1).val; omega
  | ⟨2, _⟩ => show win0_0.index t (2 : Fin 3) * 64 + 1 * (0 + 1 * (i 2).val) = (i 2).val; omega

/-- The second operand's block as point t's body loads it, read at (x, y, z): the array at (128 t + x, y, z). -/
theorem ld0_w1 (c : Dev nD) (t : Fin cfg0.N) (i : S128x128x64.Idx) :
    View.ld (iblk0 V c 1 t) r0_0 i
      = V c main_v1 (ValueIdx.ix3 (n0 := 2048) (n1 := 128) (n2 := 64) ⟨128 * t.val + (i 0).val, row0_lt t (i 0).isLt⟩ (i 1) (i 2)) := by
  refine (iblk0_1_apply V c t _).trans ?_
  refine congrArg (V c main_v1) ?_
  obtain ⟨-, ⟨e0, e1, e2⟩⟩ := idx_in0 t
  funext a; apply Fin.ext
  match a with
  | ⟨0, _⟩ => show win0_1.index t (0 : Fin 3) * 128 + 1 * (0 + 1 * (i 0).val) = 128 * t.val + (i 0).val; omega
  | ⟨1, _⟩ => show win0_1.index t (1 : Fin 3) * 128 + 1 * (0 + 1 * (i 1).val) = (i 1).val; omega
  | ⟨2, _⟩ => show win0_1.index t (2 : Fin 3) * 64 + 1 * (0 + 1 * (i 2).val) = (i 2).val; omega

/-- The same through the body's cast of the block to its own shape. -/
theorem ld0_w0_cast (c : Dev nD) (t : Fin cfg0.N) (i : S128x128x64.Idx) :
    shapeCast S128x128x64 (View.ld (iblk0 V c 0 t) r0_0) shapeCasts_S128x128x64_S128x128x64 i
      = V c main_v0 (ValueIdx.ix3 (n0 := 2048) (n1 := 128) (n2 := 64) ⟨128 * t.val + (i 0).val, row0_lt t (i 0).isLt⟩ (i 1) (i 2)) :=
  (congrFun (shapeCast_self (s := S128x128x64) (View.ld (iblk0 V c 0 t) r0_0) shapeCasts_S128x128x64_S128x128x64) i).trans (ld0_w0 V c t i)

theorem ld0_w1_cast (c : Dev nD) (t : Fin cfg0.N) (i : S128x128x64.Idx) :
    shapeCast S128x128x64 (View.ld (iblk0 V c 1 t) r0_0) shapeCasts_S128x128x64_S128x128x64 i
      = V c main_v1 (ValueIdx.ix3 (n0 := 2048) (n1 := 128) (n2 := 64) ⟨128 * t.val + (i 0).val, row0_lt t (i 0).isLt⟩ (i 1) (i 2)) :=
  (congrFun (shapeCast_self (s := S128x128x64) (View.ld (iblk0 V c 1 t) r0_0) shapeCasts_S128x128x64_S128x128x64) i).trans (ld0_w1 V c t i)

end Cert.KernelIdeal.RegionOut

end
-- ==== Proof.LibSlab.lean ====
/-
Restricting a rank-5 array of shape `[8, 1, A, B, C]` (batch axis first, then an axis of extent one) to one batch
entry `b` gives the rank-3 array `slab b X` of shape `[A, B, C]` with `slab b X (i, j, k) = X (b, 0, i, j, k)`.

This file proves that the restriction commutes with the operations applied to whole arrays:

* a block taken at offsets `(0, 0, o0, o1, o2)` of the rank-5 array restricts to the block at offsets `(o0, o1, o2)` of
  the restricted array (`slab_slice`), and the block of `[8, 4, A, B, C]` that picks channel `k` restricts to the
  channel's rank-3 array `chan b k X` (`slab_slice_chan`);
* pointwise sums, differences, products, quotients, a splat constant, and the 0/1 indicator of a comparison restrict
  to the same operation on the restricted arrays;
* the sum of all entries of the rank-5 array is the sum over the batch entries of the sums of the restricted arrays
  (`sum_slabs`).
-/
import Idealize.ShloMosaic.Lib.ValueIdx
import Idealize.ShloMosaic.Lib.Pipeline.Value
import Idealize.ShloMosaic.PureOps.Ideal.Laws

noncomputable section

open scoped BigOperators

namespace Cert.LibSlab

open Idealize.ShloMosaic Idealize.ShloMosaic.ValueIdx

/-! ## The restriction to one batch entry -/

/-- Batch entry `b` of an array of shape `[8, 1, A, B, C]`: the rank-3 array `(i, j, k) ↦ X (b, 0, i, j, k)`. -/
def slab {α : Type} {A B C : Nat} (b : Fin 8) (X : (⟨5, ![8, 1, A, B, C]⟩ : Shape).Idx → α) :
    (⟨3, ![A, B, C]⟩ : Shape).Idx → α :=
  fun i => X (ix5 b (0 : Fin 1) (i 0) (i 1) (i 2))

/-- The restriction at an index. -/
theorem slab_apply {α : Type} {A B C : Nat} (b : Fin 8) (X : (⟨5, ![8, 1, A, B, C]⟩ : Shape).Idx → α)
    (i : (⟨3, ![A, B, C]⟩ : Shape).Idx) : slab b X i = X (ix5 b (0 : Fin 1) (i 0) (i 1) (i 2)) := rfl

/-- Channel `k` of batch entry `b` of an array of shape `[8, 4, A, B, C]`: `(i, j, k') ↦ X (b, k, i, j, k')`. -/
def chan {α : Type} {A B C : Nat} (b : Fin 8) (k : Fin 4) (X : (⟨5, ![8, 4, A, B, C]⟩ : Shape).Idx → α) :
    (⟨3, ![A, B, C]⟩ : Shape).Idx → α :=
  fun i => X (ix5 b k (i 0) (i 1) (i 2))

/-- The channel at an index. -/
theorem chan_apply {α : Type} {A B C : Nat} (b : Fin 8) (k : Fin 4) (X : (⟨5, ![8, 4, A, B, C]⟩ : Shape).Idx → α)
    (i : (⟨3, ![A, B, C]⟩ : Shape).Idx) : chan b k X i = X (ix5 b k (i 0) (i 1) (i 2)) := rfl

/-! ## Blocks -/

/-- A block of `[8, 1, A, B, C]` at offsets `(0, 0, o0, o1, o2)` of shape `[8, 1, A', B', C']` is in range, so the block
    of `[A, B, C]` at `(o0, o1, o2)` of shape `[A', B', C']` is. -/
theorem slices3_of_5 {A B C A' B' C' o0 o1 o2 : Nat}
    (h5 : (⟨5, ![8, 1, A, B, C]⟩ : Shape).Slices ![0, 0, o0, o1, o2] ⟨5, ![8, 1, A', B', C']⟩) :
    (⟨3, ![A, B, C]⟩ : Shape).Slices ![o0, o1, o2] ⟨3, ![A', B', C']⟩ :=
  ⟨rfl, fun a => by
    obtain ⟨_, hs⟩ := h5
    match a with
    | ⟨0, _⟩ => have := hs ⟨2, (by decide : (2 : Nat) < 5)⟩; simpa using this
    | ⟨1, _⟩ => have := hs ⟨3, (by decide : (3 : Nat) < 5)⟩; simpa using this
    | ⟨2, _⟩ => have := hs ⟨4, (by decide : (4 : Nat) < 5)⟩; simpa using this⟩

/-- Restricting a block of the rank-5 array is taking the corresponding block of the restricted array. -/
theorem slab_slice {α : Type} {A B C A' B' C' o0 o1 o2 : Nat} (b : Fin 8)
    (X : (⟨5, ![8, 1, A, B, C]⟩ : Shape).Idx → α)
    (h5 : (⟨5, ![8, 1, A, B, C]⟩ : Shape).Slices ![0, 0, o0, o1, o2] ⟨5, ![8, 1, A', B', C']⟩) :
    slab b (extractStridedSlice ⟨5, ![8, 1, A', B', C']⟩ ![0, 0, o0, o1, o2] X h5)
      = extractStridedSlice ⟨3, ![A', B', C']⟩ ![o0, o1, o2] (slab b X) (slices3_of_5 h5) := by
  funext i
  unfold slab extractStridedSlice
  congr 1
  funext a
  match a with
  | ⟨0, _⟩ => apply Fin.ext; simp
  | ⟨1, _⟩ => apply Fin.ext; simp
  | ⟨2, _⟩ => apply Fin.ext; simp
  | ⟨3, _⟩ => apply Fin.ext; simp
  | ⟨4, _⟩ => apply Fin.ext; simp

/-- The block of `[8, 4, A, B, C]` at offsets `(0, k, 0, 0, 0)` of shape `[8, 1, A, B, C]` is channel `k`: restricted to batch
    entry `b` it is the rank-3 array `chan b k X`. -/
theorem slab_slice_chan {α : Type} {A B C : Nat} (b : Fin 8) (k : Fin 4)
    (X : (⟨5, ![8, 4, A, B, C]⟩ : Shape).Idx → α)
    (h : (⟨5, ![8, 4, A, B, C]⟩ : Shape).Slices ![0, k.val, 0, 0, 0] ⟨5, ![8, 1, A, B, C]⟩) :
    slab b (extractStridedSlice ⟨5, ![8, 1, A, B, C]⟩ ![0, k.val, 0, 0, 0] X h) = chan b k X := by
  funext i
  unfold slab chan extractStridedSlice
  congr 1
  funext a
  match a with
  | ⟨0, _⟩ => apply Fin.ext; simp
  | ⟨1, _⟩ => apply Fin.ext; simp
  | ⟨2, _⟩ => apply Fin.ext; simp
  | ⟨3, _⟩ => apply Fin.ext; simp
  | ⟨4, _⟩ => apply Fin.ext; simp

/-- Channel 0, with the offsets written as numerals. -/
theorem slab_slice_chan0 {α : Type} {A B C : Nat} (b : Fin 8) (X : (⟨5, ![8, 4, A, B, C]⟩ : Shape).Idx → α)
    (h : (⟨5, ![8, 4, A, B, C]⟩ : Shape).Slices ![0, 0, 0, 0, 0] ⟨5, ![8, 1, A, B, C]⟩) :
    slab b (extractStridedSlice ⟨5, ![8, 1, A, B, C]⟩ ![0, 0, 0, 0, 0] X h) = chan b 0 X :=
  slab_slice_chan b 0 X h
/-- Channel 1, with the offsets written as numerals. -/
theorem slab_slice_chan1 {α : Type} {A B C : Nat} (b : Fin 8) (X : (⟨5, ![8, 4, A, B, C]⟩ : Shape).Idx → α)
    (h : (⟨5, ![8, 4, A, B, C]⟩ : Shape).Slices ![0, 1, 0, 0, 0] ⟨5, ![8, 1, A, B, C]⟩) :
    slab b (extractStridedSlice ⟨5, ![8, 1, A, B, C]⟩ ![0, 1, 0, 0, 0] X h) = chan b 1 X :=
  slab_slice_chan b 1 X h
/-- Channel 2, with the offsets written as numerals. -/
theorem slab_slice_chan2 {α : Type} {A B C : Nat} (b : Fin 8) (X : (⟨5, ![8, 4, A, B, C]⟩ : Shape).Idx → α)
    (h : (⟨5, ![8, 4, A, B, C]⟩ : Shape).Slices ![0, 2, 0, 0, 0] ⟨5, ![8, 1, A, B, C]⟩) :
    slab b (extractStridedSlice ⟨5, ![8, 1, A, B, C]⟩ ![0, 2, 0, 0, 0] X h) = chan b 2 X :=
  slab_slice_chan b 2 X h
/-- Channel 3, with the offsets written as numerals. -/
theorem slab_slice_chan3 {α : Type} {A B C : Nat} (b : Fin 8) (X : (⟨5, ![8, 4, A, B, C]⟩ : Shape).Idx → α)
    (h : (⟨5, ![8, 4, A, B, C]⟩ : Shape).Slices ![0, 3, 0, 0, 0] ⟨5, ![8, 1, A, B, C]⟩) :
    slab b (extractStridedSlice ⟨5, ![8, 1, A, B, C]⟩ ![0, 3, 0, 0, 0] X h) = chan b 3 X :=
  slab_slice_chan b 3 X h

/-! ## The sum of all entries, batch entry by batch entry -/

/-- An index of `[8, 1, A, B, C]` is a batch entry and an index of `[A, B, C]`: the axis of extent one carries nothing. -/
def slabEquiv {A B C : Nat} : (⟨5, ![8, 1, A, B, C]⟩ : Shape).Idx ≃ Fin 8 × (⟨3, ![A, B, C]⟩ : Shape).Idx where
  toFun j := (j 0, ix3 (j 2) (j 3) (j 4))
  invFun p := ix5 p.1 (0 : Fin 1) (p.2 0) (p.2 1) (p.2 2)
  left_inv j := by
    funext a
    match a with
    | ⟨0, _⟩ => rfl
    | ⟨1, _⟩ => exact (Fin.fin_one_eq_zero (j 1 : Fin 1)).symm
    | ⟨2, _⟩ => rfl
    | ⟨3, _⟩ => rfl
    | ⟨4, _⟩ => rfl
  right_inv p := Prod.ext rfl (eq_ix3 p.2).symm

/-- The sum of all entries of an array of shape `[8, 1, A, B, C]` is the sum over the batch entries of the sums of the
    restricted arrays. -/
theorem sum_slabs {M : Type} [AddCommMonoid M] {A B C : Nat} (X : (⟨5, ![8, 1, A, B, C]⟩ : Shape).Idx → M) :
    ∑ j, X j = ∑ b : Fin 8, ∑ i : (⟨3, ![A, B, C]⟩ : Shape).Idx, slab b X i := by
  rw [← Equiv.sum_comp (slabEquiv (A := A) (B := B) (C := C)).symm X, Fintype.sum_prod_type]
  rfl

/-- An index of `[8, 4, A, B, C]` is a batch entry, a channel, and an index of `[A, B, C]`. -/
def chanEquiv {A B C : Nat} : (⟨5, ![8, 4, A, B, C]⟩ : Shape).Idx ≃ Fin 8 × Fin 4 × (⟨3, ![A, B, C]⟩ : Shape).Idx where
  toFun j := (j 0, j 1, ix3 (j 2) (j 3) (j 4))
  invFun p := ix5 p.1 p.2.1 (p.2.2 0) (p.2.2 1) (p.2.2 2)
  left_inv j := (eq_ix5 j).symm
  right_inv p := Prod.ext rfl (Prod.ext rfl (eq_ix3 p.2.2).symm)

/-- The sum of all entries of an array of shape `[8, 4, A, B, C]` is the sum over batch entries and channels of the sums
    of the rank-3 channel arrays. -/
theorem sum_chans {M : Type} [AddCommMonoid M] {A B C : Nat} (X : (⟨5, ![8, 4, A, B, C]⟩ : Shape).Idx → M) :
    ∑ j, X j = ∑ b : Fin 8, ∑ k : Fin 4, ∑ i : (⟨3, ![A, B, C]⟩ : Shape).Idx, chan b k X i := by
  rw [← Equiv.sum_comp (chanEquiv (A := A) (B := B) (C := C)).symm X, Fintype.sum_prod_type]
  simp only [Fintype.sum_prod_type]
  rfl

/-! ## Pointwise operations -/

section Pointwise
variable {F : FTy → Type} [FloatOps F] {φ : FTy} {A B C : Nat}

/-- The restriction of a pointwise sum is the sum of the restrictions. -/
theorem slab_addf (b : Fin 8) (X Y : FVec F ⟨5, ![8, 1, A, B, C]⟩ φ) :
    slab b (addf X Y) = addf (slab b X) (slab b Y) := rfl
/-- The restriction of a pointwise difference is the difference of the restrictions. -/
theorem slab_subf (b : Fin 8) (X Y : FVec F ⟨5, ![8, 1, A, B, C]⟩ φ) :
    slab b (subf X Y) = subf (slab b X) (slab b Y) := rfl
/-- The restriction of a pointwise product is the product of the restrictions. -/
theorem slab_mulf (b : Fin 8) (X Y : FVec F ⟨5, ![8, 1, A, B, C]⟩ φ) :
    slab b (mulf X Y) = mulf (slab b X) (slab b Y) := rfl
/-- The restriction of a pointwise comparison is the comparison of the restrictions. -/
theorem slab_cmpf (p : CmpFPredicate) (b : Fin 8) (X Y : FVec F ⟨5, ![8, 1, A, B, C]⟩ φ) :
    slab b (cmpf p X Y) = cmpf p (slab b X) (slab b Y) := rfl
/-- A channel of a pointwise sum is the sum of the channels. -/
theorem chan_addf (b : Fin 8) (k : Fin 4) (X Y : FVec F ⟨5, ![8, 4, A, B, C]⟩ φ) :
    chan b k (addf X Y) = addf (chan b k X) (chan b k Y) := rfl
/-- A channel of a pointwise difference is the difference of the channels. -/
theorem chan_subf (b : Fin 8) (k : Fin 4) (X Y : FVec F ⟨5, ![8, 4, A, B, C]⟩ φ) :
    chan b k (subf X Y) = subf (chan b k X) (chan b k Y) := rfl
/-- A channel of a pointwise product is the product of the channels. -/
theorem chan_mulf (b : Fin 8) (k : Fin 4) (X Y : FVec F ⟨5, ![8, 4, A, B, C]⟩ φ) :
    chan b k (mulf X Y) = mulf (chan b k X) (chan b k Y) := rfl

/-- A scalar constant broadcast to `[8, 1, A, B, C]` restricts to the same constant broadcast to `[A, B, C]`. -/
theorem slab_broadcast_constant (b : Fin 8) (w : BitVec 32)
    (dims : Fin (⟨0, ![]⟩ : Shape).rank → Fin (⟨5, ![8, 1, A, B, C]⟩ : Shape).rank)
    (hb : (⟨0, ![]⟩ : Shape).BroadcastsInDim ⟨5, ![8, 1, A, B, C]⟩ dims) :
    slab b (broadcastInDim ⟨5, ![8, 1, A, B, C]⟩ dims hb (constant (F := F) ⟨0, ![]⟩ .f32 w))
      = broadcast ⟨3, ![A, B, C]⟩ (Scalar.ofBits (F := F) .f32 w) := rfl

end Pointwise

section AtIdeal
variable {φ : FTy} {A B C : Nat}

/-- At the extended reals the quotient of whole arrays and the quotient of the restricted arrays are the same division,
    entry by entry. -/
theorem slab_hostDivf (b : Fin 8) (X Y : FVec Ideal ⟨5, ![8, 1, A, B, C]⟩ φ) :
    slab b (Host.divf X Y) = divf (slab b X) (slab b Y) := rfl

/-- The one-bit word `c` read as an unsigned integer, and `c` widened by zeros to 32 bits and read as a signed
    integer, are the same real number: 0 or 1. -/
theorem uitofp_bit_eq_sitofp_extui (c : BitVec 1) :
    (FloatOps.uitofp (F := Ideal) φ c : Ideal φ) = FloatOps.sitofp (F := Ideal) φ (c.setWidth 32) := by
  rcases BitVec.eq_zero_or_eq_one c with h | h <;> subst h <;> rfl

/-- The 0/1 indicator of a comparison restricts to the indicator of the comparison of the restrictions; converting
    the bit directly as an unsigned integer, or widening it to 32 bits and converting as a signed integer, is the
    same. -/
theorem slab_uitofp_cmpf_of (h : 1 < 32) (p : CmpFPredicate) (b : Fin 8) (X Y : FVec Ideal ⟨5, ![8, 1, A, B, C]⟩ φ) :
    slab b (uitofp (F := Ideal) .f32 (cmpf p X Y))
      = sitofp (F := Ideal) .f32 (extui 32 (cmpf p (slab b X) (slab b Y)) h) := by
  funext i
  exact uitofp_bit_eq_sitofp_extui _

/-- The same with the fact `1 < 32` supplied; any two proofs of it are equal, so this is the equation above with no
    hypothesis left. -/
theorem slab_uitofp_cmpf (p : CmpFPredicate) (b : Fin 8) (X Y : FVec Ideal ⟨5, ![8, 1, A, B, C]⟩ φ) :
    slab b (uitofp (F := Ideal) .f32 (cmpf p X Y))
      = sitofp (F := Ideal) .f32 (extui 32 (cmpf p (slab b X) (slab b Y)) (by decide : 1 < 32)) :=
  slab_uitofp_cmpf_of _ p b X Y

end AtIdeal

end Cert.LibSlab

end
-- ==== Proof.Tiles.lean ====
/-
  The rank-3 tiles the kernel bodies sum, as functions of what the body loads: the squared difference of two field
  tiles; the masked squared speed; and the three squared masked momentum residuals (each from the interior values,
  the first and second central differences and the fluid mask that the body has already formed).
  The definitions repeat the printed body's operations up to the value that is summed.
-/
import proofs.«165125_j53283364274443_1_alg».proof.Proof.Gen.KernelIdeal.Skeleton

noncomputable section

namespace Cert.KernelIdeal.Tiles

open Cert.KernelIdeal Cert.KernelIdeal.Gen Idealize.ShloMosaic

variable {F : FTy → Type} [FloatOps F]

/-- The squared difference of the two loaded tiles. -/
noncomputable def sqdiffTile (v0 : Vec F S128x128x64 .f32) (v2 : Vec F S128x128x64 .f32) : FVec F S128x128x64 .f32 :=
  have v1 : FVec F S128x128x64 .f32 := shapeCast S128x128x64 v0 shapeCasts_S128x128x64_S128x128x64
  have v3 : FVec F S128x128x64 .f32 := shapeCast S128x128x64 v2 shapeCasts_S128x128x64_S128x128x64
  have v4 : FVec F S128x128x64 .f32 := subf v1 v3
  have v5 : FVec F S128x128x64 .f32 := mulf v4 v4
  v5

/-- The squared speed of the loaded tile where its signed distance is not positive, zero elsewhere. -/
noncomputable def noslipTile (v0 : Vec F S1x1x64x128x64 .f32) (v2 : Vec F S1x1x64x128x64 .f32) (v4 : Vec F S1x1x64x128x64 .f32) (v6 : Vec F S1x1x64x128x64 .f32) : FVec F S64x128x64 .f32 :=
  have v1 : FVec F S64x128x64 .f32 := shapeCast S64x128x64 v0 shapeCasts_S1x1x64x128x64_S64x128x64
  have v3 : FVec F S64x128x64 .f32 := shapeCast S64x128x64 v2 shapeCasts_S1x1x64x128x64_S64x128x64
  have v5 : FVec F S64x128x64 .f32 := shapeCast S64x128x64 v4 shapeCasts_S1x1x64x128x64_S64x128x64
  have v7 : FVec F S64x128x64 .f32 := shapeCast S64x128x64 v6 shapeCasts_S1x1x64x128x64_S64x128x64
  have cst : F .f32 := Scalar.ofBits .f32 0x00000000#32
  have v8 : FVec F S64x128x64 .f32 := broadcast S64x128x64 cst
  have v9 : IVec S64x128x64 1 := cmpf .ole v7 v8
  have v10 : IVec S64x128x64 32 := extui 32 v9 natLt_1_32
  have v11 : FVec F S64x128x64 .f32 := sitofp .f32 v10
  have v12 : FVec F S64x128x64 .f32 := mulf v1 v1
  have v13 : FVec F S64x128x64 .f32 := mulf v3 v3
  have v14 : FVec F S64x128x64 .f32 := addf v12 v13
  have v15 : FVec F S64x128x64 .f32 := mulf v5 v5
  have v16 : FVec F S64x128x64 .f32 := addf v14 v15
  have v17 : FVec F S64x128x64 .f32 := mulf v16 v11
  v17

/-- The squared masked x-momentum residual of the tile, from the residual's two parts and the mask. -/
noncomputable def momTileX (v14 : FVec F S62x126x62 .f32) (v79 : FVec F S62x126x62 .f32) (v81 : FVec F S62x126x62 .f32) : FVec F S62x126x62 .f32 :=
  have v82 : FVec F S62x126x62 .f32 := subf v79 v81
  have v83 : FVec F S62x126x62 .f32 := mulf v82 v14
  have v84 : FVec F S62x126x62 .f32 := mulf v83 v83
  v84

/-- The squared masked y-momentum residual of the tile. -/
noncomputable def momTileY (v3 : FVec F S64x128x64 .f32) (v14 : FVec F S62x126x62 .f32) (v15 : FVec F S62x126x62 .f32) (v16 : FVec F S62x126x62 .f32) (v17 : FVec F S62x126x62 .f32) (v90 : F .f32) (v96 : FVec F S62x126x62 .f32) (v102 : FVec F S62x126x62 .f32) (v108 : FVec F S62x126x62 .f32) (v114 : FVec F S62x126x62 .f32) (v124 : FVec F S62x126x62 .f32) (v131 : FVec F S64x126x64 .f32) : FVec F S62x126x62 .f32 :=
  have cst_42 : F .f32 := Scalar.ofBits .f32 0x38820610#32
  have v132 : FVec F S64x126x64 .f32 := broadcast S64x126x64 cst_42
  have v133 : FVec F S64x126x64 .f32 := divf v131 v132
  have v134 : FVec F S62x126x62 .f32 := extractStridedSlice S62x126x62 ![1, 0, 1] v133 slices_S64x126x64_o1_0_1_S62x126x62
  have v135 : FVec F S62x126x62 .f32 := addf v124 v134
  have v136 : FVec F S62x128x64 .f32 := extractStridedSlice S62x128x64 ![2, 0, 0] v3 slices_S64x128x64_o2_0_0_S62x128x64
  have v137 : FVec F S62x128x64 .f32 := extractStridedSlice S62x128x64 ![1, 0, 0] v3 slices_S64x128x64_o1_0_0_S62x128x64
  have cst_43 : F .f32 := Scalar.ofBits .f32 0x40000000#32
  have v138 : FVec F S62x128x64 .f32 := broadcast S62x128x64 cst_43
  have v139 : FVec F S62x128x64 .f32 := mulf v138 v137
  have v140 : FVec F S62x128x64 .f32 := subf v136 v139
  have v141 : FVec F S62x128x64 .f32 := extractStridedSlice S62x128x64 ![0, 0, 0] v3 slices_S64x128x64_o0_0_0_S62x128x64
  have v142 : FVec F S62x128x64 .f32 := addf v140 v141
  have cst_44 : F .f32 := Scalar.ofBits .f32 0x39291522#32
  have v143 : FVec F S62x128x64 .f32 := broadcast S62x128x64 cst_44
  have v144 : FVec F S62x128x64 .f32 := divf v142 v143
  have v145 : FVec F S62x126x62 .f32 := extractStridedSlice S62x126x62 ![0, 1, 1] v144 slices_S62x128x64_o0_1_1_S62x126x62
  have v146 : FVec F S62x126x62 .f32 := addf v135 v145
  have v147 : FVec F S62x126x62 .f32 := mulf v15 v96
  have v148 : FVec F S62x126x62 .f32 := mulf v16 v102
  have v149 : FVec F S62x126x62 .f32 := addf v147 v148
  have v150 : FVec F S62x126x62 .f32 := mulf v17 v108
  have v151 : FVec F S62x126x62 .f32 := addf v149 v150
  have v152 : FVec F S62x126x62 .f32 := addf v151 v114
  have cst_45 : F .f32 := Scalar.ofBits .f32 0x358637BD#32
  have v153 : FVec F S62x126x62 .f32 := broadcast S62x126x62 cst_45
  have v154 : FVec F S62x126x62 .f32 := mulf v153 v146
  have v155 : FVec F S62x126x62 .f32 := subf v152 v154
  have v156 : FVec F S62x126x62 .f32 := mulf v155 v14
  have v157 : FVec F S62x126x62 .f32 := mulf v156 v156
  v157

/-- The squared masked z-momentum residual of the tile. -/
noncomputable def momTileZ (v5 : FVec F S64x128x64 .f32) (v7 : FVec F S64x128x64 .f32) (v14 : FVec F S62x126x62 .f32) (v15 : FVec F S62x126x62 .f32) (v16 : FVec F S62x126x62 .f32) (v17 : FVec F S62x126x62 .f32) (v170 : FVec F S62x126x62 .f32) (v176 : FVec F S62x126x62 .f32) (v181 : FVec F S62x128x64 .f32) : FVec F S62x126x62 .f32 :=
  have v182 : FVec F S62x126x62 .f32 := extractStridedSlice S62x126x62 ![0, 1, 1] v181 slices_S62x128x64_o0_1_1_S62x126x62
  have v183 : FVec F S62x128x64 .f32 := extractStridedSlice S62x128x64 ![2, 0, 0] v7 slices_S64x128x64_o2_0_0_S62x128x64
  have v184 : FVec F S62x128x64 .f32 := extractStridedSlice S62x128x64 ![0, 0, 0] v7 slices_S64x128x64_o0_0_0_S62x128x64
  have v185 : FVec F S62x128x64 .f32 := subf v183 v184
  have cst_52 : F .f32 := Scalar.ofBits .f32 0x3CD00D01#32
  have v186 : FVec F S62x128x64 .f32 := broadcast S62x128x64 cst_52
  have v187 : FVec F S62x128x64 .f32 := divf v185 v186
  have v188 : FVec F S62x126x62 .f32 := extractStridedSlice S62x126x62 ![0, 1, 1] v187 slices_S62x128x64_o0_1_1_S62x126x62
  have v189 : FVec F S64x128x62 .f32 := extractStridedSlice S64x128x62 ![0, 0, 2] v5 slices_S64x128x64_o0_0_2_S64x128x62
  have v190 : FVec F S64x128x62 .f32 := extractStridedSlice S64x128x62 ![0, 0, 1] v5 slices_S64x128x64_o0_0_1_S64x128x62
  have cst_53 : F .f32 := Scalar.ofBits .f32 0x40000000#32
  have v191 : FVec F S64x128x62 .f32 := broadcast S64x128x62 cst_53
  have v192 : FVec F S64x128x62 .f32 := mulf v191 v190
  have v193 : FVec F S64x128x62 .f32 := subf v189 v192
  have v194 : FVec F S64x128x62 .f32 := extractStridedSlice S64x128x62 ![0, 0, 0] v5 slices_S64x128x64_o0_0_0_S64x128x62
  have v195 : FVec F S64x128x62 .f32 := addf v193 v194
  have cst_54 : F .f32 := Scalar.ofBits .f32 0x3ACE664C#32
  have v196 : FVec F S64x128x62 .f32 := broadcast S64x128x62 cst_54
  have v197 : FVec F S64x128x62 .f32 := divf v195 v196
  have v198 : FVec F S62x126x62 .f32 := extractStridedSlice S62x126x62 ![1, 1, 0] v197 slices_S64x128x62_o1_1_0_S62x126x62
  have v199 : FVec F S64x126x64 .f32 := extractStridedSlice S64x126x64 ![0, 2, 0] v5 slices_S64x128x64_o0_2_0_S64x126x64
  have v200 : FVec F S64x126x64 .f32 := extractStridedSlice S64x126x64 ![0, 1, 0] v5 slices_S64x128x64_o0_1_0_S64x126x64
  have cst_55 : F .f32 := Scalar.ofBits .f32 0x40000000#32
  have v201 : FVec F S64x126x64 .f32 := broadcast S64x126x64 cst_55
  have v202 : FVec F S64x126x64 .f32 := mulf v201 v200
  have v203 : FVec F S64x126x64 .f32 := subf v199 v202
  have v204 : FVec F S64x126x64 .f32 := extractStridedSlice S64x126x64 ![0, 0, 0] v5 slices_S64x128x64_o0_0_0_S64x126x64
  have v205 : FVec F S64x126x64 .f32 := addf v203 v204
  have cst_56 : F .f32 := Scalar.ofBits .f32 0x38820610#32
  have v206 : FVec F S64x126x64 .f32 := broadcast S64x126x64 cst_56
  have v207 : FVec F S64x126x64 .f32 := divf v205 v206
  have v208 : FVec F S62x126x62 .f32 := extractStridedSlice S62x126x62 ![1, 0, 1] v207 slices_S64x126x64_o1_0_1_S62x126x62
  have v209 : FVec F S62x126x62 .f32 := addf v198 v208
  have v210 : FVec F S62x128x64 .f32 := extractStridedSlice S62x128x64 ![2, 0, 0] v5 slices_S64x128x64_o2_0_0_S62x128x64
  have v211 : FVec F S62x128x64 .f32 := extractStridedSlice S62x128x64 ![1, 0, 0] v5 slices_S64x128x64_o1_0_0_S62x128x64
  have cst_57 : F .f32 := Scalar.ofBits .f32 0x40000000#32
  have v212 : FVec F S62x128x64 .f32 := broadcast S62x128x64 cst_57
  have v213 : FVec F S62x128x64 .f32 := mulf v212 v211
  have v214 : FVec F S62x128x64 .f32 := subf v210 v213
  have v215 : FVec F S62x128x64 .f32 := extractStridedSlice S62x128x64 ![0, 0, 0] v5 slices_S64x128x64_o0_0_0_S62x128x64
  have v216 : FVec F S62x128x64 .f32 := addf v214 v215
  have cst_58 : F .f32 := Scalar.ofBits .f32 0x39291522#32
  have v217 : FVec F S62x128x64 .f32 := broadcast S62x128x64 cst_58
  have v218 : FVec F S62x128x64 .f32 := divf v216 v217
  have v219 : FVec F S62x126x62 .f32 := extractStridedSlice S62x126x62 ![0, 1, 1] v218 slices_S62x128x64_o0_1_1_S62x126x62
  have v220 : FVec F S62x126x62 .f32 := addf v209 v219
  have v221 : FVec F S62x126x62 .f32 := mulf v15 v170
  have v222 : FVec F S62x126x62 .f32 := mulf v16 v176
  have v223 : FVec F S62x126x62 .f32 := addf v221 v222
  have v224 : FVec F S62x126x62 .f32 := mulf v17 v182
  have v225 : FVec F S62x126x62 .f32 := addf v223 v224
  have v226 : FVec F S62x126x62 .f32 := addf v225 v188
  have cst_59 : F .f32 := Scalar.ofBits .f32 0x358637BD#32
  have v227 : FVec F S62x126x62 .f32 := broadcast S62x126x62 cst_59
  have v228 : FVec F S62x126x62 .f32 := mulf v227 v220
  have v229 : FVec F S62x126x62 .f32 := subf v226 v228
  have v230 : FVec F S62x126x62 .f32 := mulf v229 v14
  have v231 : FVec F S62x126x62 .f32 := mulf v230 v230
  v231

end Cert.KernelIdeal.Tiles

end
-- ==== Proof.RefTerms.lean ====
/-
  The four volume integrands of the physics-informed loss, as the reference states them on whole arrays of shape
  [8, 1, D, H, W] (batch first): the squared field error; the squared masked divergence u_x + v_y + w_z (central
  differences, interior grid, fluid mask); the three squared masked momentum residuals; the squared speed on the solid.
  Stated once over the argument arrays (the field `a0`, the true field `a2`, the signed distance `a4`), so that the
  kernel's per-batch values can be compared with their restrictions to one batch entry.
-/
import Idealize.ShloMosaic.PureOps
import Idealize.ShloMosaic.PureOps.Ideal

noncomputable section

namespace Cert.RefTerms

open Idealize.ShloMosaic

abbrev S_ : Shape := ⟨0, ![]⟩
abbrev S8x4x64x128x64 : Shape := ⟨5, ![8, 4, 64, 128, 64]⟩
abbrev S8x1x64x128x64 : Shape := ⟨5, ![8, 1, 64, 128, 64]⟩
abbrev S8x1x62x126x62 : Shape := ⟨5, ![8, 1, 62, 126, 62]⟩
abbrev S8x1x64x128x62 : Shape := ⟨5, ![8, 1, 64, 128, 62]⟩
abbrev S8x1x64x126x64 : Shape := ⟨5, ![8, 1, 64, 126, 64]⟩
abbrev S8x1x62x128x64 : Shape := ⟨5, ![8, 1, 62, 128, 64]⟩

variable {F : FTy → Type} [FloatOps F]

/-- The difference of the two field arrays. -/
def r0 (a0 a2 : FVec F S8x4x64x128x64 .f32) (a4 : FVec F S8x1x64x128x64 .f32) : FVec F S8x4x64x128x64 .f32 :=
  subf a0 a2

/-- The first velocity component u (channel 0). -/
def r8 (a0 a2 : FVec F S8x4x64x128x64 .f32) (a4 : FVec F S8x1x64x128x64 .f32) : FVec F S8x1x64x128x64 .f32 :=
  extractStridedSlice S8x1x64x128x64 ![0, 0, 0, 0, 0] a0 (by decide)

/-- The second velocity component v (channel 1). -/
def r9 (a0 a2 : FVec F S8x4x64x128x64 .f32) (a4 : FVec F S8x1x64x128x64 .f32) : FVec F S8x1x64x128x64 .f32 :=
  extractStridedSlice S8x1x64x128x64 ![0, 1, 0, 0, 0] a0 (by decide)

/-- The third velocity component w (channel 2). -/
def r10 (a0 a2 : FVec F S8x4x64x128x64 .f32) (a4 : FVec F S8x1x64x128x64 .f32) : FVec F S8x1x64x128x64 .f32 :=
  extractStridedSlice S8x1x64x128x64 ![0, 2, 0, 0, 0] a0 (by decide)

/-- The pressure p (channel 3). -/
def r11 (a0 a2 : FVec F S8x4x64x128x64 .f32) (a4 : FVec F S8x1x64x128x64 .f32) : FVec F S8x1x64x128x64 .f32 :=
  extractStridedSlice S8x1x64x128x64 ![0, 3, 0, 0, 0] a0 (by decide)

/-- ∂u/∂x on the interior grid: the central difference along the last axis. -/
def r17 (a0 a2 : FVec F S8x4x64x128x64 .f32) (a4 : FVec F S8x1x64x128x64 .f32) : FVec F S8x1x62x126x62 .f32 :=
  extractStridedSlice S8x1x62x126x62 ![0, 0, 1, 1, 0] (Host.divf (subf (extractStridedSlice S8x1x64x128x62 ![0, 0, 0, 0, 2] (r8 a0 a2 a4) (by decide)) (extractStridedSlice S8x1x64x128x62 ![0, 0, 0, 0, 0] (r8 a0 a2 a4) (by decide))) (broadcastInDim S8x1x64x128x62 ![] (by decide) (constant S_ .f32 0x3DA28A29#32))) (by decide)

/-- ∂v/∂y on the interior grid: the central difference along the second-last axis. -/
def r23 (a0 a2 : FVec F S8x4x64x128x64 .f32) (a4 : FVec F S8x1x64x128x64 .f32) : FVec F S8x1x62x126x62 .f32 :=
  extractStridedSlice S8x1x62x126x62 ![0, 0, 1, 0, 1] (Host.divf (subf (extractStridedSlice S8x1x64x126x64 ![0, 0, 0, 2, 0] (r9 a0 a2 a4) (by decide)) (extractStridedSlice S8x1x64x126x64 ![0, 0, 0, 0, 0] (r9 a0 a2 a4) (by decide))) (broadcastInDim S8x1x64x126x64 ![] (by decide) (constant S_ .f32 0x3C810204#32))) (by decide)

/-- ∂w/∂z on the interior grid: the central difference along the third-last axis. -/
def r29 (a0 a2 : FVec F S8x4x64x128x64 .f32) (a4 : FVec F S8x1x64x128x64 .f32) : FVec F S8x1x62x126x62 .f32 :=
  extractStridedSlice S8x1x62x126x62 ![0, 0, 0, 1, 1] (Host.divf (subf (extractStridedSlice S8x1x62x128x64 ![0, 0, 2, 0, 0] (r10 a0 a2 a4) (by decide)) (extractStridedSlice S8x1x62x128x64 ![0, 0, 0, 0, 0] (r10 a0 a2 a4) (by decide))) (broadcastInDim S8x1x62x128x64 ![] (by decide) (constant S_ .f32 0x3CD00D01#32))) (by decide)

/-- The fluid mask on the interior grid: 1 where the signed distance is positive, 0 elsewhere. -/
def r35 (a0 a2 : FVec F S8x4x64x128x64 .f32) (a4 : FVec F S8x1x64x128x64 .f32) : FVec F S8x1x62x126x62 .f32 :=
  uitofp .f32 (cmpf .ogt (extractStridedSlice S8x1x62x126x62 ![0, 0, 1, 1, 1] a4 (by decide)) (broadcastInDim S8x1x62x126x62 ![] (by decide) (constant S_ .f32 0x00000000#32)))

/-- The masked divergence on the interior grid. -/
def r36 (a0 a2 : FVec F S8x4x64x128x64 .f32) (a4 : FVec F S8x1x64x128x64 .f32) : FVec F S8x1x62x126x62 .f32 :=
  mulf (addf (addf (r17 a0 a2 a4) (r23 a0 a2 a4)) (r29 a0 a2 a4)) (r35 a0 a2 a4)

/-- u on the interior grid. -/
def r40 (a0 a2 : FVec F S8x4x64x128x64 .f32) (a4 : FVec F S8x1x64x128x64 .f32) : FVec F S8x1x62x126x62 .f32 :=
  extractStridedSlice S8x1x62x126x62 ![0, 0, 1, 1, 1] (r8 a0 a2 a4) (by decide)

/-- v on the interior grid. -/
def r41 (a0 a2 : FVec F S8x4x64x128x64 .f32) (a4 : FVec F S8x1x64x128x64 .f32) : FVec F S8x1x62x126x62 .f32 :=
  extractStridedSlice S8x1x62x126x62 ![0, 0, 1, 1, 1] (r9 a0 a2 a4) (by decide)

/-- w on the interior grid. -/
def r42 (a0 a2 : FVec F S8x4x64x128x64 .f32) (a4 : FVec F S8x1x64x128x64 .f32) : FVec F S8x1x62x126x62 .f32 :=
  extractStridedSlice S8x1x62x126x62 ![0, 0, 1, 1, 1] (r10 a0 a2 a4) (by decide)

/-- The masked x-momentum residual  u·u_x + v·u_y + w·u_z + p_x − ν·Δu  on the interior grid. -/
def r220 (a0 a2 : FVec F S8x4x64x128x64 .f32) (a4 : FVec F S8x1x64x128x64 .f32) : FVec F S8x1x62x126x62 .f32 :=
  mulf (subf (addf (addf (addf (mulf (r40 a0 a2 a4) (r17 a0 a2 a4)) (mulf (r41 a0 a2 a4) (extractStridedSlice S8x1x62x126x62 ![0, 0, 1, 0, 1] (Host.divf (subf (extractStridedSlice S8x1x64x126x64 ![0, 0, 0, 2, 0] (r8 a0 a2 a4) (by decide)) (extractStridedSlice S8x1x64x126x64 ![0, 0, 0, 0, 0] (r8 a0 a2 a4) (by decide))) (broadcastInDim S8x1x64x126x64 ![] (by decide) (constant S_ .f32 0x3C810204#32))) (by decide)))) (mulf (r42 a0 a2 a4) (extractStridedSlice S8x1x62x126x62 ![0, 0, 0, 1, 1] (Host.divf (subf (extractStridedSlice S8x1x62x128x64 ![0, 0, 2, 0, 0] (r8 a0 a2 a4) (by decide)) (extractStridedSlice S8x1x62x128x64 ![0, 0, 0, 0, 0] (r8 a0 a2 a4) (by decide))) (broadcastInDim S8x1x62x128x64 ![] (by decide) (constant S_ .f32 0x3CD00D01#32))) (by decide)))) (extractStridedSlice S8x1x62x126x62 ![0, 0, 1, 1, 0] (Host.divf (subf (extractStridedSlice S8x1x64x128x62 ![0, 0, 0, 0, 2] (r11 a0 a2 a4) (by decide)) (extractStridedSlice S8x1x64x128x62 ![0, 0, 0, 0, 0] (r11 a0 a2 a4) (by decide))) (broadcastInDim S8x1x64x128x62 ![] (by decide) (constant S_ .f32 0x3DA28A29#32))) (by decide))) (mulf (broadcastInDim S8x1x62x126x62 ![] (by decide) (constant S_ .f32 0x358637BD#32)) (addf (addf (extractStridedSlice S8x1x62x126x62 ![0, 0, 1, 1, 0] (Host.divf (addf (subf (extractStridedSlice S8x1x64x128x62 ![0, 0, 0, 0, 2] (r8 a0 a2 a4) (by decide)) (mulf (broadcastInDim S8x1x64x128x62 ![] (by decide) (constant S_ .f32 0x40000000#32)) (extractStridedSlice S8x1x64x128x62 ![0, 0, 0, 0, 1] (r8 a0 a2 a4) (by decide)))) (extractStridedSlice S8x1x64x128x62 ![0, 0, 0, 0, 0] (r8 a0 a2 a4) (by decide))) (broadcastInDim S8x1x64x128x62 ![] (by decide) (constant S_ .f32 0x3ACE664C#32))) (by decide)) (extractStridedSlice S8x1x62x126x62 ![0, 0, 1, 0, 1] (Host.divf (addf (subf (extractStridedSlice S8x1x64x126x64 ![0, 0, 0, 2, 0] (r8 a0 a2 a4) (by decide)) (mulf (broadcastInDim S8x1x64x126x64 ![] (by decide) (constant S_ .f32 0x40000000#32)) (extractStridedSlice S8x1x64x126x64 ![0, 0, 0, 1, 0] (r8 a0 a2 a4) (by decide)))) (extractStridedSlice S8x1x64x126x64 ![0, 0, 0, 0, 0] (r8 a0 a2 a4) (by decide))) (broadcastInDim S8x1x64x126x64 ![] (by decide) (constant S_ .f32 0x38820610#32))) (by decide))) (extractStridedSlice S8x1x62x126x62 ![0, 0, 0, 1, 1] (Host.divf (addf (subf (extractStridedSlice S8x1x62x128x64 ![0, 0, 2, 0, 0] (r8 a0 a2 a4) (by decide)) (mulf (broadcastInDim S8x1x62x128x64 ![] (by decide) (constant S_ .f32 0x40000000#32)) (extractStridedSlice S8x1x62x128x64 ![0, 0, 1, 0, 0] (r8 a0 a2 a4) (by decide)))) (extractStridedSlice S8x1x62x128x64 ![0, 0, 0, 0, 0] (r8 a0 a2 a4) (by decide))) (broadcastInDim S8x1x62x128x64 ![] (by decide) (constant S_ .f32 0x39291522#32))) (by decide))))) (r35 a0 a2 a4)

/-- The masked y-momentum residual on the interior grid. -/
def r222 (a0 a2 : FVec F S8x4x64x128x64 .f32) (a4 : FVec F S8x1x64x128x64 .f32) : FVec F S8x1x62x126x62 .f32 :=
  mulf (subf (addf (addf (addf (mulf (r40 a0 a2 a4) (extractStridedSlice S8x1x62x126x62 ![0, 0, 1, 1, 0] (Host.divf (subf (extractStridedSlice S8x1x64x128x62 ![0, 0, 0, 0, 2] (r9 a0 a2 a4) (by decide)) (extractStridedSlice S8x1x64x128x62 ![0, 0, 0, 0, 0] (r9 a0 a2 a4) (by decide))) (broadcastInDim S8x1x64x128x62 ![] (by decide) (constant S_ .f32 0x3DA28A29#32))) (by decide))) (mulf (r41 a0 a2 a4) (r23 a0 a2 a4))) (mulf (r42 a0 a2 a4) (extractStridedSlice S8x1x62x126x62 ![0, 0, 0, 1, 1] (Host.divf (subf (extractStridedSlice S8x1x62x128x64 ![0, 0, 2, 0, 0] (r9 a0 a2 a4) (by decide)) (extractStridedSlice S8x1x62x128x64 ![0, 0, 0, 0, 0] (r9 a0 a2 a4) (by decide))) (broadcastInDim S8x1x62x128x64 ![] (by decide) (constant S_ .f32 0x3CD00D01#32))) (by decide)))) (extractStridedSlice S8x1x62x126x62 ![0, 0, 1, 0, 1] (Host.divf (subf (extractStridedSlice S8x1x64x126x64 ![0, 0, 0, 2, 0] (r11 a0 a2 a4) (by decide)) (extractStridedSlice S8x1x64x126x64 ![0, 0, 0, 0, 0] (r11 a0 a2 a4) (by decide))) (broadcastInDim S8x1x64x126x64 ![] (by decide) (constant S_ .f32 0x3C810204#32))) (by decide))) (mulf (broadcastInDim S8x1x62x126x62 ![] (by decide) (constant S_ .f32 0x358637BD#32)) (addf (addf (extractStridedSlice S8x1x62x126x62 ![0, 0, 1, 1, 0] (Host.divf (addf (subf (extractStridedSlice S8x1x64x128x62 ![0, 0, 0, 0, 2] (r9 a0 a2 a4) (by decide)) (mulf (broadcastInDim S8x1x64x128x62 ![] (by decide) (constant S_ .f32 0x40000000#32)) (extractStridedSlice S8x1x64x128x62 ![0, 0, 0, 0, 1] (r9 a0 a2 a4) (by decide)))) (extractStridedSlice S8x1x64x128x62 ![0, 0, 0, 0, 0] (r9 a0 a2 a4) (by decide))) (broadcastInDim S8x1x64x128x62 ![] (by decide) (constant S_ .f32 0x3ACE664C#32))) (by decide)) (extractStridedSlice S8x1x62x126x62 ![0, 0, 1, 0, 1] (Host.divf (addf (subf (extractStridedSlice S8x1x64x126x64 ![0, 0, 0, 2, 0] (r9 a0 a2 a4) (by decide)) (mulf (broadcastInDim S8x1x64x126x64 ![] (by decide) (constant S_ .f32 0x40000000#32)) (extractStridedSlice S8x1x64x126x64 ![0, 0, 0, 1, 0] (r9 a0 a2 a4) (by decide)))) (extractStridedSlice S8x1x64x126x64 ![0, 0, 0, 0, 0] (r9 a0 a2 a4) (by decide))) (broadcastInDim S8x1x64x126x64 ![] (by decide) (constant S_ .f32 0x38820610#32))) (by decide))) (extractStridedSlice S8x1x62x126x62 ![0, 0, 0, 1, 1] (Host.divf (addf (subf (extractStridedSlice S8x1x62x128x64 ![0, 0, 2, 0, 0] (r9 a0 a2 a4) (by decide)) (mulf (broadcastInDim S8x1x62x128x64 ![] (by decide) (constant S_ .f32 0x40000000#32)) (extractStridedSlice S8x1x62x128x64 ![0, 0, 1, 0, 0] (r9 a0 a2 a4) (by decide)))) (extractStridedSlice S8x1x62x128x64 ![0, 0, 0, 0, 0] (r9 a0 a2 a4) (by decide))) (broadcastInDim S8x1x62x128x64 ![] (by decide) (constant S_ .f32 0x39291522#32))) (by decide))))) (r35 a0 a2 a4)

/-- The masked z-momentum residual on the interior grid. -/
def r225 (a0 a2 : FVec F S8x4x64x128x64 .f32) (a4 : FVec F S8x1x64x128x64 .f32) : FVec F S8x1x62x126x62 .f32 :=
  mulf (subf (addf (addf (addf (mulf (r40 a0 a2 a4) (extractStridedSlice S8x1x62x126x62 ![0, 0, 1, 1, 0] (Host.divf (subf (extractStridedSlice S8x1x64x128x62 ![0, 0, 0, 0, 2] (r10 a0 a2 a4) (by decide)) (extractStridedSlice S8x1x64x128x62 ![0, 0, 0, 0, 0] (r10 a0 a2 a4) (by decide))) (broadcastInDim S8x1x64x128x62 ![] (by decide) (constant S_ .f32 0x3DA28A29#32))) (by decide))) (mulf (r41 a0 a2 a4) (extractStridedSlice S8x1x62x126x62 ![0, 0, 1, 0, 1] (Host.divf (subf (extractStridedSlice S8x1x64x126x64 ![0, 0, 0, 2, 0] (r10 a0 a2 a4) (by decide)) (extractStridedSlice S8x1x64x126x64 ![0, 0, 0, 0, 0] (r10 a0 a2 a4) (by decide))) (broadcastInDim S8x1x64x126x64 ![] (by decide) (constant S_ .f32 0x3C810204#32))) (by decide)))) (mulf (r42 a0 a2 a4) (r29 a0 a2 a4))) (extractStridedSlice S8x1x62x126x62 ![0, 0, 0, 1, 1] (Host.divf (subf (extractStridedSlice S8x1x62x128x64 ![0, 0, 2, 0, 0] (r11 a0 a2 a4) (by decide)) (extractStridedSlice S8x1x62x128x64 ![0, 0, 0, 0, 0] (r11 a0 a2 a4) (by decide))) (broadcastInDim S8x1x62x128x64 ![] (by decide) (constant S_ .f32 0x3CD00D01#32))) (by decide))) (mulf (broadcastInDim S8x1x62x126x62 ![] (by decide) (constant S_ .f32 0x358637BD#32)) (addf (addf (extractStridedSlice S8x1x62x126x62 ![0, 0, 1, 1, 0] (Host.divf (addf (subf (extractStridedSlice S8x1x64x128x62 ![0, 0, 0, 0, 2] (r10 a0 a2 a4) (by decide)) (mulf (broadcastInDim S8x1x64x128x62 ![] (by decide) (constant S_ .f32 0x40000000#32)) (extractStridedSlice S8x1x64x128x62 ![0, 0, 0, 0, 1] (r10 a0 a2 a4) (by decide)))) (extractStridedSlice S8x1x64x128x62 ![0, 0, 0, 0, 0] (r10 a0 a2 a4) (by decide))) (broadcastInDim S8x1x64x128x62 ![] (by decide) (constant S_ .f32 0x3ACE664C#32))) (by decide)) (extractStridedSlice S8x1x62x126x62 ![0, 0, 1, 0, 1] (Host.divf (addf (subf (extractStridedSlice S8x1x64x126x64 ![0, 0, 0, 2, 0] (r10 a0 a2 a4) (by decide)) (mulf (broadcastInDim S8x1x64x126x64 ![] (by decide) (constant S_ .f32 0x40000000#32)) (extractStridedSlice S8x1x64x126x64 ![0, 0, 0, 1, 0] (r10 a0 a2 a4) (by decide)))) (extractStridedSlice S8x1x64x126x64 ![0, 0, 0, 0, 0] (r10 a0 a2 a4) (by decide))) (broadcastInDim S8x1x64x126x64 ![] (by decide) (constant S_ .f32 0x38820610#32))) (by decide))) (extractStridedSlice S8x1x62x126x62 ![0, 0, 0, 1, 1] (Host.divf (addf (subf (extractStridedSlice S8x1x62x128x64 ![0, 0, 2, 0, 0] (r10 a0 a2 a4) (by decide)) (mulf (broadcastInDim S8x1x62x128x64 ![] (by decide) (constant S_ .f32 0x40000000#32)) (extractStridedSlice S8x1x62x128x64 ![0, 0, 1, 0, 0] (r10 a0 a2 a4) (by decide)))) (extractStridedSlice S8x1x62x128x64 ![0, 0, 0, 0, 0] (r10 a0 a2 a4) (by decide))) (broadcastInDim S8x1x62x128x64 ![] (by decide) (constant S_ .f32 0x39291522#32))) (by decide))))) (r35 a0 a2 a4)

/-- The squared difference of the two field arrays. -/
def fieldInt (a0 a2 : FVec F S8x4x64x128x64 .f32) (a4 : FVec F S8x1x64x128x64 .f32) : FVec F S8x4x64x128x64 .f32 :=
  mulf (r0 a0 a2 a4) (r0 a0 a2 a4)

/-- The squared masked divergence. -/
def contInt (a0 a2 : FVec F S8x4x64x128x64 .f32) (a4 : FVec F S8x1x64x128x64 .f32) : FVec F S8x1x62x126x62 .f32 :=
  mulf (r36 a0 a2 a4) (r36 a0 a2 a4)

/-- The sum of the three squared masked momentum residuals. -/
def momInt (a0 a2 : FVec F S8x4x64x128x64 .f32) (a4 : FVec F S8x1x64x128x64 .f32) : FVec F S8x1x62x126x62 .f32 :=
  addf (addf (mulf (r220 a0 a2 a4) (r220 a0 a2 a4)) (mulf (r222 a0 a2 a4) (r222 a0 a2 a4))) (mulf (r225 a0 a2 a4) (r225 a0 a2 a4))

/-- The squared speed where the signed distance is not positive, zero elsewhere. -/
def noslipInt (a0 a2 : FVec F S8x4x64x128x64 .f32) (a4 : FVec F S8x1x64x128x64 .f32) : FVec F S8x1x64x128x64 .f32 :=
  mulf (addf (addf (mulf (r8 a0 a2 a4) (r8 a0 a2 a4)) (mulf (r9 a0 a2 a4) (r9 a0 a2 a4))) (mulf (r10 a0 a2 a4) (r10 a0 a2 a4))) (uitofp .f32 (cmpf .ole a4 (broadcastInDim S8x1x64x128x64 ![] (by decide) (constant S_ .f32 0x00000000#32))))

end Cert.RefTerms

end
-- ==== Proof.TileMatch.lean ====
/-
  One batch entry of the reference's whole-array integrands is the kernel's tile: restricting the reference's rank-5
  term to batch entry b (slices commute with the restriction, pointwise operations commute with it, a broadcast
  constant restricts to a broadcast constant, the comparison mask converted to a float is the same 0/1 value) gives,
  operation by operation, the term the kernel body computes from its loaded channels — for the continuity integrand,
  the no-slip integrand and each of the three momentum integrands.
-/
import proofs.«165125_j53283364274443_1_alg».proof.Proof.Gen.KernelIdeal.Skeleton
import proofs.«165125_j53283364274443_1_alg».proof.Proof.Tiles
import proofs.«165125_j53283364274443_1_alg».proof.Proof.LibSlab
import proofs.«165125_j53283364274443_1_alg».proof.Proof.RefTerms

set_option maxRecDepth 16384

noncomputable section

namespace Cert.KernelIdeal.TileMatch

open Cert.KernelIdeal Cert.KernelIdeal.Gen Cert.KernelIdeal.Tiles Cert.LibSlab Idealize.ShloMosaic Idealize.ShloMosaic.ValueIdx

/-- The continuity tile of batch entry b. -/
theorem cont_tile (b : Fin 8) (a0 a2 : FVec Ideal S8x4x64x128x64 .f32) (a4 : FVec Ideal S8x1x64x128x64 .f32)
    (l0 l1 l2 ls : Vec Ideal S1x1x64x128x64 .f32)
    (e0 : shapeCast S64x128x64 l0 shapeCasts_S1x1x64x128x64_S64x128x64 = chan b 0 a0)
    (e1 : shapeCast S64x128x64 l1 shapeCasts_S1x1x64x128x64_S64x128x64 = chan b 1 a0)
    (e2 : shapeCast S64x128x64 l2 shapeCasts_S1x1x64x128x64_S64x128x64 = chan b 2 a0)
    (es : shapeCast S64x128x64 ls shapeCasts_S1x1x64x128x64_S64x128x64 = slab b a4) :
    k1_pay2 l0 l1 l2 ls = slab b (Cert.RefTerms.contInt a0 a2 a4) := by
  unfold k1_pay2
  simp only [e0, e1, e2, es]
  unfold Cert.RefTerms.contInt Cert.RefTerms.r36 Cert.RefTerms.r35 Cert.RefTerms.r29 Cert.RefTerms.r23 Cert.RefTerms.r17 Cert.RefTerms.r10 Cert.RefTerms.r9 Cert.RefTerms.r8
  simp only [slab_slice, slab_slice_chan0, slab_slice_chan1, slab_slice_chan2, slab_slice_chan3, slab_mulf, slab_subf, slab_addf, slab_hostDivf, slab_broadcast_constant, slab_uitofp_cmpf]

/-- The no-slip tile of batch entry b. -/
theorem noslip_tile (b : Fin 8) (a0 a2 : FVec Ideal S8x4x64x128x64 .f32) (a4 : FVec Ideal S8x1x64x128x64 .f32)
    (l0 l1 l2 ls : Vec Ideal S1x1x64x128x64 .f32)
    (e0 : shapeCast S64x128x64 l0 shapeCasts_S1x1x64x128x64_S64x128x64 = chan b 0 a0)
    (e1 : shapeCast S64x128x64 l1 shapeCasts_S1x1x64x128x64_S64x128x64 = chan b 1 a0)
    (e2 : shapeCast S64x128x64 l2 shapeCasts_S1x1x64x128x64_S64x128x64 = chan b 2 a0)
    (es : shapeCast S64x128x64 ls shapeCasts_S1x1x64x128x64_S64x128x64 = slab b a4) :
    noslipTile l0 l1 l2 ls = slab b (Cert.RefTerms.noslipInt a0 a2 a4) := by
  unfold noslipTile
  simp only [e0, e1, e2, es]
  unfold Cert.RefTerms.noslipInt Cert.RefTerms.r10 Cert.RefTerms.r9 Cert.RefTerms.r8
  simp only [slab_slice, slab_slice_chan0, slab_slice_chan1, slab_slice_chan2, slab_slice_chan3, slab_mulf, slab_subf, slab_addf, slab_hostDivf, slab_broadcast_constant, slab_uitofp_cmpf]

/-- The x-momentum tile of batch entry b. -/
theorem momX_tile (b : Fin 8) (a0 a2 : FVec Ideal S8x4x64x128x64 .f32) (a4 : FVec Ideal S8x1x64x128x64 .f32)
    (l0 l1 l2 l3 ls : Vec Ideal S1x1x64x128x64 .f32)
    (e0 : shapeCast S64x128x64 l0 shapeCasts_S1x1x64x128x64_S64x128x64 = chan b 0 a0)
    (e1 : shapeCast S64x128x64 l1 shapeCasts_S1x1x64x128x64_S64x128x64 = chan b 1 a0)
    (e2 : shapeCast S64x128x64 l2 shapeCasts_S1x1x64x128x64_S64x128x64 = chan b 2 a0)
    (e3 : shapeCast S64x128x64 l3 shapeCasts_S1x1x64x128x64_S64x128x64 = chan b 3 a0)
    (es : shapeCast S64x128x64 ls shapeCasts_S1x1x64x128x64_S64x128x64 = slab b a4) :
    momTileX (k2_pay6 ls) (k2_pay13 (k2_pay2 l0) (k2_pay5 l3) (k2_pay7 l0) (k2_pay8 l1) (k2_pay9 l2) (k2_pay10 l0) (k2_pay11 l0) (k2_pay12 l0)) (k2_pay14 (k2_pay2 l0))
      = slab b (mulf (Cert.RefTerms.r220 a0 a2 a4) (Cert.RefTerms.r220 a0 a2 a4)) := by
  unfold momTileX k2_pay13 k2_pay14 k2_pay6 k2_pay7 k2_pay8 k2_pay9 k2_pay10 k2_pay11 k2_pay12 k2_pay2 k2_pay3 k2_pay4 k2_pay5
  simp only [e0, e1, e2, e3, es]
  unfold Cert.RefTerms.r220 Cert.RefTerms.r40 Cert.RefTerms.r41 Cert.RefTerms.r42 Cert.RefTerms.r35 Cert.RefTerms.r17 Cert.RefTerms.r11 Cert.RefTerms.r10 Cert.RefTerms.r9 Cert.RefTerms.r8
  simp only [slab_slice, slab_slice_chan0, slab_slice_chan1, slab_slice_chan2, slab_slice_chan3, slab_mulf, slab_subf, slab_addf, slab_hostDivf, slab_broadcast_constant, slab_uitofp_cmpf]

/-- The y-momentum tile of batch entry b (the running scalar `s` is not read by the tile). -/
theorem momY_tile (b : Fin 8) (a0 a2 : FVec Ideal S8x4x64x128x64 .f32) (a4 : FVec Ideal S8x1x64x128x64 .f32)
    (l0 l1 l2 l3 ls : Vec Ideal S1x1x64x128x64 .f32)
    (e0 : shapeCast S64x128x64 l0 shapeCasts_S1x1x64x128x64_S64x128x64 = chan b 0 a0)
    (e1 : shapeCast S64x128x64 l1 shapeCasts_S1x1x64x128x64_S64x128x64 = chan b 1 a0)
    (e2 : shapeCast S64x128x64 l2 shapeCasts_S1x1x64x128x64_S64x128x64 = chan b 2 a0)
    (e3 : shapeCast S64x128x64 l3 shapeCasts_S1x1x64x128x64_S64x128x64 = chan b 3 a0)
    (es : shapeCast S64x128x64 ls shapeCasts_S1x1x64x128x64_S64x128x64 = slab b a4) (s : Ideal .f32) :
    momTileY (k2_pay3 l1) (k2_pay6 ls) (k2_pay7 l0) (k2_pay8 l1) (k2_pay9 l2) s (k2_pay16 (k2_pay3 l1)) (k2_pay17 (k2_pay3 l1)) (k2_pay18 (k2_pay3 l1)) (k2_pay19 (k2_pay5 l3)) (k2_pay20 (k2_pay3 l1)) (k2_pay21 (k2_pay3 l1))
      = slab b (mulf (Cert.RefTerms.r222 a0 a2 a4) (Cert.RefTerms.r222 a0 a2 a4)) := by
  unfold momTileY k2_pay16 k2_pay17 k2_pay18 k2_pay19 k2_pay20 k2_pay21 k2_pay6 k2_pay7 k2_pay8 k2_pay9 k2_pay2 k2_pay3 k2_pay4 k2_pay5
  simp only [e0, e1, e2, e3, es]
  unfold Cert.RefTerms.r222 Cert.RefTerms.r40 Cert.RefTerms.r41 Cert.RefTerms.r42 Cert.RefTerms.r35 Cert.RefTerms.r23 Cert.RefTerms.r11 Cert.RefTerms.r10 Cert.RefTerms.r9 Cert.RefTerms.r8
  simp only [slab_slice, slab_slice_chan0, slab_slice_chan1, slab_slice_chan2, slab_slice_chan3, slab_mulf, slab_subf, slab_addf, slab_hostDivf, slab_broadcast_constant, slab_uitofp_cmpf]

/-- The z-momentum tile of batch entry b. -/
theorem momZ_tile (b : Fin 8) (a0 a2 : FVec Ideal S8x4x64x128x64 .f32) (a4 : FVec Ideal S8x1x64x128x64 .f32)
    (l0 l1 l2 l3 ls : Vec Ideal S1x1x64x128x64 .f32)
    (e0 : shapeCast S64x128x64 l0 shapeCasts_S1x1x64x128x64_S64x128x64 = chan b 0 a0)
    (e1 : shapeCast S64x128x64 l1 shapeCasts_S1x1x64x128x64_S64x128x64 = chan b 1 a0)
    (e2 : shapeCast S64x128x64 l2 shapeCasts_S1x1x64x128x64_S64x128x64 = chan b 2 a0)
    (e3 : shapeCast S64x128x64 l3 shapeCasts_S1x1x64x128x64_S64x128x64 = chan b 3 a0)
    (es : shapeCast S64x128x64 ls shapeCasts_S1x1x64x128x64_S64x128x64 = slab b a4) :
    momTileZ (k2_pay4 l2) (k2_pay5 l3) (k2_pay6 ls) (k2_pay7 l0) (k2_pay8 l1) (k2_pay9 l2) (k2_pay23 (k2_pay4 l2)) (k2_pay24 (k2_pay4 l2)) (k2_pay25 (k2_pay4 l2))
      = slab b (mulf (Cert.RefTerms.r225 a0 a2 a4) (Cert.RefTerms.r225 a0 a2 a4)) := by
  unfold momTileZ k2_pay23 k2_pay24 k2_pay25 k2_pay6 k2_pay7 k2_pay8 k2_pay9 k2_pay2 k2_pay3 k2_pay4 k2_pay5
  simp only [e0, e1, e2, e3, es]
  unfold Cert.RefTerms.r225 Cert.RefTerms.r40 Cert.RefTerms.r41 Cert.RefTerms.r42 Cert.RefTerms.r35 Cert.RefTerms.r29 Cert.RefTerms.r11 Cert.RefTerms.r10 Cert.RefTerms.r9 Cert.RefTerms.r8
  simp only [slab_slice, slab_slice_chan0, slab_slice_chan1, slab_slice_chan2, slab_slice_chan3, slab_mulf, slab_subf, slab_addf, slab_hostDivf, slab_broadcast_constant, slab_uitofp_cmpf]

end Cert.KernelIdeal.TileMatch

end
-- ==== Proof.LibSums.lean ====
/-
  Reductions read as finite sums over ALL indices, at the ideal values (a float is an extended real, an additive
  commutative monoid).

  * A host `stablehlo.reduce` with an `add` body over every axis (a rank-zero result) is the initial value plus the
    sum of the operand over every index (`hostReduceAdd_all`); from the zero constant it is that sum
    (`hostReduceAdd_all_zero`).
  * A shape cast keeps the sum over every index (`sum_shapeCast`): it re-indexes along a bijection.
  * A sum over a rank-3 index set is the triple sum over its coordinates (`idxEquiv3`, `sum_idx3`).
  * A rank-3 tile [A, B, C] summed to one scalar by a chain of one-axis `vector.multi_reduction <add>` steps (the last
    axis, then the second, then — after a unit axis is added — the remaining one) is the sum of the tile over every index
    (`sum_chain3`).
  * A sum over N = T * R rows is the sum over the T blocks of the sum over each block's R rows (`sum_fin_blocks`), so the
    sum over an [N, B, C] array is the sum over its T row blocks of the sum over each [R, B, C] block
    (`sum_row_blocks`; `sum_row_blocks_2048` is [2048, 128, 64] as 16 blocks of [128, 128, 64]).
-/
import Idealize.ShloMosaic.Lib.ValueIdx
import Idealize.ShloMosaic.Lib.Pipeline.Value
import Idealize.ShloMosaic.PureOps.Ideal.Laws

noncomputable section

open scoped BigOperators

namespace Cert.LibSums

open Idealize.ShloMosaic Idealize.ShloMosaic.ValueIdx

/-! ## The host's sum over every axis -/

/-- A host `stablehlo.reduce` with an `add` body into the rank-zero shape, at the ideal values: the initial value's
    element plus the sum of the operand over EVERY index (the rank-zero shape has no axis, so its one index keeps
    nothing of a source index). -/
theorem hostReduceAdd_all {s u : Shape} {axes : List (Fin s.rank)} (x : FVec Ideal s .f32) (init : u.Idx → Ideal .f32)
    (h : s.ReducesTo axes ⟨0, ![]⟩) (hu : 0 < u.numel) (j : (⟨0, ![]⟩ : Shape).Idx) :
    Host.reduceAdd x init h hu j = init (Shape.Idx.first hu) + ∑ i : s.Idx, x i := by
  unfold Host.reduceAdd
  rw [Ideal.hostReduceAdd_def]
  exact Ideal.hostReduceAdd_total h (fun b => b.elim0) x _ j

/-- From the zero constant (`0.0` as a rank-zero tensor) the host's sum over every axis is the sum of the operand over
    every index. -/
theorem hostReduceAdd_all_zero {s : Shape} {axes : List (Fin s.rank)} (x : FVec Ideal s .f32)
    (h : s.ReducesTo axes ⟨0, ![]⟩) (hu : 0 < (⟨0, ![]⟩ : Shape).numel) (j : (⟨0, ![]⟩ : Shape).Idx) :
    Host.reduceAdd x (constant (F := Ideal) ⟨0, ![]⟩ .f32 0x00000000#32) h hu j = ∑ i : s.Idx, x i := by
  rw [hostReduceAdd_all, constant_apply, Ideal.ofBits_zero_f32, zero_add]

/-! ## A shape cast keeps the total -/

/-- A shape cast re-indexes along the bijection of row-major positions, so the sum over every index is unchanged. -/
theorem sum_shapeCast {M : Type} [AddCommMonoid M] {s t : Shape} (x : s.Idx → M) (h : s.ShapeCasts t) :
    ∑ j : t.Idx, shapeCast t x h j = ∑ i : s.Idx, x i := by
  unfold shapeCast
  exact Equiv.sum_comp (Shape.reshapeEquiv h) x

/-! ## A rank-3 index set as the product of its coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The kernel's chain of one-axis sums over a rank-3 tile -/

/-- A rank-3 tile [A, B, C] summed by one-axis `vector.multi_reduction <add>` steps — over the last axis into [A, B],
    over the second into [A], then, viewed as [1, A], over its second axis into [1] — and read as a scalar through the
    [1, 1] view, is the sum of the tile over every index: at each step the reduced index with the summed coordinate put
    back is the tile index (a, b, c), and the triple sum over the coordinates is the sum over the index set. -/
theorem sum_chain3 {A B C : Nat} (v : FVec Ideal ⟨3, ![A, B, C]⟩ .f32)
    (h1 : (⟨3, ![A, B, C]⟩ : Shape).Reduces [2] ⟨2, ![A, B]⟩) (hφ1 : FKind.Formats .f32)
    (hacc1 : (0x00000000#32 : BitVec 32) = FKind.add.neutral .f32 hφ1)
    (h2 : (⟨2, ![A, B]⟩ : Shape).Reduces [1] ⟨1, ![A]⟩) (hφ2 : FKind.Formats .f32)
    (hacc2 : (0x00000000#32 : BitVec 32) = FKind.add.neutral .f32 hφ2)
    (hc1 : (⟨1, ![A]⟩ : Shape).ShapeCasts ⟨2, ![1, A]⟩)
    (h3 : (⟨2, ![1, A]⟩ : Shape).Reduces [1] ⟨1, ![1]⟩) (hφ3 : FKind.Formats .f32)
    (hacc3 : (0x00000000#32 : BitVec 32) = FKind.add.neutral .f32 hφ3)
    (hc2 : (⟨1, ![1]⟩ : Shape).ShapeCasts ⟨2, ![1, 1]⟩)
    (hp : ∀ a, (![0, 0] : Fin 2 → Nat) a < (⟨2, ![1, 1]⟩ : Shape).size a) :
    extractAt ![0, 0]
      (shapeCast ⟨2, ![1, 1]⟩
        (multiReduction .add [1] ⟨1, ![1]⟩
          (shapeCast ⟨2, ![1, A]⟩
            (multiReduction .add [1] ⟨1, ![A]⟩
              (multiReduction .add [2] ⟨2, ![A, B]⟩ v 0x00000000#32 h1 hφ1 hacc1)
              0x00000000#32 h2 hφ2 hacc2) hc1)
          0x00000000#32 h3 hφ3 hacc3) hc2) hp
      = ∑ i : (⟨3, ![A, B, C]⟩ : Shape).Idx, v i := by
  unfold extractAt
  refine (shapeCast_addUnit_apply (d := ![1]) _ hc2 _).trans ?_
  refine (Ideal.multiReduction_add_single _ _ h3 hφ3 hacc3 _).trans ?_
  rw [sum_idx3]
  refine Finset.sum_congr rfl fun a _ => ?_
  refine (shapeCast_addUnit_apply (d := ![A]) _ hc1 _).trans ?_
  refine (Ideal.multiReduction_add_single _ _ h2 hφ2 hacc2 _).trans ?_
  refine Finset.sum_congr rfl fun b _ => ?_
  refine (Ideal.multiReduction_add_single _ _ h1 hφ1 hacc1 _).trans ?_
  refine Finset.sum_congr rfl fun c _ => ?_
  congr 1
  funext d
  match d with
  | ⟨0, _⟩ => rfl
  | ⟨1, _⟩ => rfl
  | ⟨2, _⟩ => rfl

/-- The chain at the literal tile [62, 126, 62], its shape facts left as hypotheses and its format and accumulator
    facts given by their literal proofs. -/
example (v : FVec Ideal ⟨3, ![62, 126, 62]⟩ .f32)
    (h1 : (⟨3, ![62, 126, 62]⟩ : Shape).Reduces [2] ⟨2, ![62, 126]⟩)
    (h2 : (⟨2, ![62, 126]⟩ : Shape).Reduces [1] ⟨1, ![62]⟩)
    (hc1 : (⟨1, ![62]⟩ : Shape).ShapeCasts ⟨2, ![1, 62]⟩)
    (h3 : (⟨2, ![1, 62]⟩ : Shape).Reduces [1] ⟨1, ![1]⟩)
    (hc2 : (⟨1, ![1]⟩ : Shape).ShapeCasts ⟨2, ![1, 1]⟩)
    (hp : ∀ a, (![0, 0] : Fin 2 → Nat) a < (⟨2, ![1, 1]⟩ : Shape).size a) :
    extractAt ![0, 0]
      (shapeCast ⟨2, ![1, 1]⟩
        (multiReduction .add [1] ⟨1, ![1]⟩
          (shapeCast ⟨2, ![1, 62]⟩
            (multiReduction .add [1] ⟨1, ![62]⟩
              (multiReduction .add [2] ⟨2, ![62, 126]⟩ v 0x00000000#32 h1 (.inl rfl) rfl)
              0x00000000#32 h2 (.inl rfl) rfl) hc1)
          0x00000000#32 h3 (.inl rfl) rfl) hc2) hp
      = ∑ i : (⟨3, ![62, 126, 62]⟩ : Shape).Idx, v i :=
  sum_chain3 v h1 _ _ h2 _ _ hc1 h3 _ _ hc2 hp

/-! ## The sum over an array cut into row blocks -/

/-- Row `r` of block `t`, blocks of `R` rows, is a row of the `N = T * R`-row array. -/
theorem row_block_lt {T R N : Nat} (hN : N = T * R) (t : Fin T) (r : Fin R) : R * t.val + r.val < N := by
  subst hN
  calc R * t.val + r.val < R * t.val + R := Nat.add_lt_add_left r.isLt _
    _ = R * (t.val + 1) := (Nat.mul_succ _ _).symm
    _ ≤ R * T := Nat.mul_le_mul_left _ t.isLt
    _ = T * R := Nat.mul_comm _ _

/-- A sum over the rows of an `N = T * R`-row range is the sum over the `T` blocks of the sum over each block's `R` rows:
    row `R * t + r` is row `r` of block `t`, a bijection of the row range with the pairs (block, row in block). -/
theorem sum_fin_blocks {M : Type} [AddCommMonoid M] {T R N : Nat} (hN : N = T * R) (g : Fin N → M) :
    ∑ a : Fin N, g a = ∑ t : Fin T, ∑ r : Fin R, g ⟨R * t.val + r.val, row_block_lt hN t r⟩ := by
  subst hN
  rw [← Equiv.sum_comp (finProdFinEquiv (m := T) (n := R)) g, Fintype.sum_prod_type]
  refine Finset.sum_congr rfl fun t _ => Finset.sum_congr rfl fun r _ => ?_
  congr 1
  exact Fin.ext (Nat.add_comm _ _)

/-- The sum over an [N, B, C] array with `N = T * R` rows is the sum over its `T` row blocks of the sum over each
    [R, B, C] block, the block's index (r, b, c) read at the array's (R * t + r, b, c). -/
theorem sum_row_blocks {M : Type} [AddCommMonoid M] {T R N B C : Nat} (hN : N = T * R)
    (Y : (⟨3, ![N, B, C]⟩ : Shape).Idx → M) :
    ∑ k, Y k = ∑ t : Fin T, ∑ i : (⟨3, ![R, B, C]⟩ : Shape).Idx,
      Y (ix3 ⟨R * t.val + (i 0).val, row_block_lt hN t (i 0)⟩ (i 1) (i 2)) := by
  rw [sum_idx3, sum_fin_blocks hN]
  refine Finset.sum_congr rfl fun t _ => ?_
  rw [sum_idx3]
  rfl

/-- The instance met here: a [2048, 128, 64] array as 16 blocks of [128, 128, 64]. -/
theorem sum_row_blocks_2048 {M : Type} [AddCommMonoid M] (Y : (⟨3, ![2048, 128, 64]⟩ : Shape).Idx → M) :
    ∑ k, Y k = ∑ t : Fin 16, ∑ i : (⟨3, ![128, 128, 64]⟩ : Shape).Idx,
      Y (ix3 ⟨128 * t.val + (i 0).val, row_block_lt (T := 16) (R := 128) (N := 2048) (by norm_num) t (i 0)⟩ (i 1) (i 2)) :=
  sum_row_blocks (T := 16) (R := 128) (by norm_num) Y

end Cert.LibSums

end
-- ==== Proof.PayloadSums.lean ====
/-
  What each kernel body stores in lane (0, 0, 0) of its output block, at the ideal instance, as finite sums over the
  indices of the loaded tile: the chain of one-axis reductions that the body applies is the sum over every index.
  The field-error body stores the sum of the squared differences of its two tiles; the continuity body the sum of the
  squared masked divergence; the no-slip body the sum of the masked squared speed; the momentum body the sum of the
  three sums of squared masked residuals (x, then x + y, then that plus z).
-/
import proofs.«165125_j53283364274443_1_alg».proof.Proof.Gen.KernelIdeal.Frame
import proofs.«165125_j53283364274443_1_alg».proof.Proof.LibSums
import proofs.«165125_j53283364274443_1_alg».proof.Proof.Tiles

set_option maxRecDepth 16384

noncomputable section

namespace Cert.KernelIdeal.PayloadSums

open Cert.KernelIdeal Cert.KernelIdeal.Gen Cert.KernelIdeal.Tiles Idealize.ShloMosaic Idealize.ShloMosaic.ValueIdx

variable {F : FTy → Type} [FloatOps F]

/-! ## The stored lane as sums -/

theorem hz3 : (![0, 0, 0] : Fin 3 → Nat) = fun _ => 0 := funext fun a => by fin_cases a <;> rfl

/-- The field-error body stores the sum over its tile of the squared differences. -/
theorem sqdiff_lane (x0 x1 : Vec Ideal S128x128x64 .f32) :
    out0_2 x0 x1 (ix3 0 0 0) = ∑ i : S128x128x64.Idx, sqdiffTile (View.ld x0 r0_0) (View.ld x1 r0_0) i := by
  unfold out0_2
  rw [View.canon_unit_zero hz3]
  unfold k0_pay1 sqdiffTile
  exact Cert.LibSums.sum_chain3 _ _ _ _ _ _ _ _ _ _ _ _ _

/-- The continuity body stores the sum over the interior grid of the squared masked divergence. -/
theorem cont_lane (x0 : Vec Ideal S1x4x64x128x64 .f32) (x1 : Vec Ideal S1x1x64x128x64 .f32) :
    out1_2 x0 x1 (ix3 0 0 0)
      = ∑ i : S62x126x62.Idx, k1_pay2 (View.ld x0 r1_0) (View.ld x0 r1_1) (View.ld x0 r1_2) (View.ld x1 r1_3) i := by
  unfold out1_2
  rw [View.canon_unit_zero hz3]
  unfold k1_pay1
  exact Cert.LibSums.sum_chain3 _ _ _ _ _ _ _ _ _ _ _ _ _

/-- The no-slip body stores the sum over the whole grid of the masked squared speed. -/
theorem noslip_lane (x0 : Vec Ideal S1x4x64x128x64 .f32) (x1 : Vec Ideal S1x1x64x128x64 .f32) :
    out3_2 x0 x1 (ix3 0 0 0)
      = ∑ i : S64x128x64.Idx, noslipTile (View.ld x0 r3_0) (View.ld x0 r3_1) (View.ld x0 r3_2) (View.ld x1 r3_3) i := by
  unfold out3_2
  rw [View.canon_unit_zero hz3]
  unfold k3_pay1 noslipTile
  exact Cert.LibSums.sum_chain3 _ _ _ _ _ _ _ _ _ _ _ _ _

/-- The first momentum scalar is the sum of the squared masked x-residual. -/
theorem momX_sum (v14 : FVec Ideal S62x126x62 .f32) (v79 : FVec Ideal S62x126x62 .f32) (v81 : FVec Ideal S62x126x62 .f32) :
    k2_pay15 (F := Ideal) v14 v79 v81 = ∑ i : S62x126x62.Idx, momTileX v14 v79 v81 i := by
  unfold k2_pay15 momTileX
  exact Cert.LibSums.sum_chain3 _ _ _ _ _ _ _ _ _ _ _ _ _

/-- The second momentum scalar adds the sum of the squared masked y-residual to the first. -/
theorem momY_sum (v3 : FVec Ideal S64x128x64 .f32) (v14 : FVec Ideal S62x126x62 .f32) (v15 : FVec Ideal S62x126x62 .f32) (v16 : FVec Ideal S62x126x62 .f32) (v17 : FVec Ideal S62x126x62 .f32) (v90 : Ideal .f32) (v96 : FVec Ideal S62x126x62 .f32) (v102 : FVec Ideal S62x126x62 .f32) (v108 : FVec Ideal S62x126x62 .f32) (v114 : FVec Ideal S62x126x62 .f32) (v124 : FVec Ideal S62x126x62 .f32) (v131 : FVec Ideal S64x126x64 .f32) :
    k2_pay22 (F := Ideal) v3 v14 v15 v16 v17 v90 v96 v102 v108 v114 v124 v131 = v90 + ∑ i : S62x126x62.Idx, momTileY v3 v14 v15 v16 v17 v90 v96 v102 v108 v114 v124 v131 i := by
  unfold k2_pay22 momTileY
  exact congrArg (v90 + ·) (Cert.LibSums.sum_chain3 _ _ _ _ _ _ _ _ _ _ _ _ _)

/-- The stored lane adds the sum of the squared masked z-residual to the second scalar. -/
theorem momZ_lane (v164 : Ideal .f32) (v5 : FVec Ideal S64x128x64 .f32) (v7 : FVec Ideal S64x128x64 .f32) (v14 : FVec Ideal S62x126x62 .f32) (v15 : FVec Ideal S62x126x62 .f32) (v16 : FVec Ideal S62x126x62 .f32) (v17 : FVec Ideal S62x126x62 .f32) (v170 : FVec Ideal S62x126x62 .f32) (v176 : FVec Ideal S62x126x62 .f32) (v181 : FVec Ideal S62x128x64 .f32) :
    k2_pay1 (F := Ideal) v164 (k2_pay26 v5 v7 v14 v15 v16 v17 v170 v176 v181) (ix3 0 0 0)
      = v164 + ∑ i : S62x126x62.Idx, momTileZ v5 v7 v14 v15 v16 v17 v170 v176 v181 i := by
  unfold k2_pay1 k2_pay26 momTileZ
  exact congrArg (v164 + ·) (Cert.LibSums.sum_chain3 _ _ _ _ _ _ _ _ _ _ _ _ _)

/-- The momentum body stores the sum of the three sums of squared masked residuals. -/
theorem mom_lane (x0 : Vec Ideal S1x4x64x128x64 .f32) (x1 : Vec Ideal S1x1x64x128x64 .f32) :
    out2_2 x0 x1 (ix3 0 0 0)
      = (∑ i : S62x126x62.Idx, momTileX (k2_pay6 (View.ld x1 r2_4)) (k2_pay13 (k2_pay2 (View.ld x0 r2_0)) (k2_pay5 (View.ld x0 r2_3)) (k2_pay7 (View.ld x0 r2_0)) (k2_pay8 (View.ld x0 r2_1)) (k2_pay9 (View.ld x0 r2_2)) (k2_pay10 (View.ld x0 r2_0)) (k2_pay11 (View.ld x0 r2_0)) (k2_pay12 (View.ld x0 r2_0))) (k2_pay14 (k2_pay2 (View.ld x0 r2_0))) i)
        + (∑ i : S62x126x62.Idx, momTileY (k2_pay3 (View.ld x0 r2_1)) (k2_pay6 (View.ld x1 r2_4)) (k2_pay7 (View.ld x0 r2_0)) (k2_pay8 (View.ld x0 r2_1)) (k2_pay9 (View.ld x0 r2_2)) (k2_pay15 (k2_pay6 (View.ld x1 r2_4)) (k2_pay13 (k2_pay2 (View.ld x0 r2_0)) (k2_pay5 (View.ld x0 r2_3)) (k2_pay7 (View.ld x0 r2_0)) (k2_pay8 (View.ld x0 r2_1)) (k2_pay9 (View.ld x0 r2_2)) (k2_pay10 (View.ld x0 r2_0)) (k2_pay11 (View.ld x0 r2_0)) (k2_pay12 (View.ld x0 r2_0))) (k2_pay14 (k2_pay2 (View.ld x0 r2_0)))) (k2_pay16 (k2_pay3 (View.ld x0 r2_1))) (k2_pay17 (k2_pay3 (View.ld x0 r2_1))) (k2_pay18 (k2_pay3 (View.ld x0 r2_1))) (k2_pay19 (k2_pay5 (View.ld x0 r2_3))) (k2_pay20 (k2_pay3 (View.ld x0 r2_1))) (k2_pay21 (k2_pay3 (View.ld x0 r2_1))) i)
        + ∑ i : S62x126x62.Idx, momTileZ (k2_pay4 (View.ld x0 r2_2)) (k2_pay5 (View.ld x0 r2_3)) (k2_pay6 (View.ld x1 r2_4)) (k2_pay7 (View.ld x0 r2_0)) (k2_pay8 (View.ld x0 r2_1)) (k2_pay9 (View.ld x0 r2_2)) (k2_pay23 (k2_pay4 (View.ld x0 r2_2))) (k2_pay24 (k2_pay4 (View.ld x0 r2_2))) (k2_pay25 (k2_pay4 (View.ld x0 r2_2))) i := by
  unfold out2_2
  rw [View.canon_unit_zero hz3, momZ_lane, momY_sum, momX_sum]

end Cert.KernelIdeal.PayloadSums

end
-- ==== Proof.LibLane.lean ====
/-
  A host program that keeps entry (q, 0, 0) of each row q of an array of shape [N, 1, 128], lays the N kept
  entries out as a vector and adds them up from zero: at the ideal instance (floats are extended reals, a host sum
  is the exact sum) the result is the sum over q of the entries (q, 0, 0).
-/
import Idealize.ShloMosaic.Lib.ValueIdx
import Idealize.ShloMosaic.Lib.Pipeline.Value
import Idealize.ShloMosaic.PureOps.Ideal.Laws

noncomputable section

namespace Cert.LibLane

open Idealize.ShloMosaic Idealize.ShloMosaic.ValueIdx

/-- A rank-1 index is its one coordinate. -/
def idxEquiv1 {N : Nat} : (⟨1, ![N]⟩ : Shape).Idx ≃ Fin N where
  toFun j := j 0
  invFun q := ix1 q
  left_inv j := (eq_ix1 j).symm
  right_inv _ := rfl

/-- A sum over the indices of a vector is the sum over its coordinates. -/
theorem sum_idx1 {M : Type*} [AddCommMonoid M] {N : Nat} (f : (⟨1, ![N]⟩ : Shape).Idx → M) :
    ∑ j, f j = ∑ q : Fin N, f (ix1 q) :=
  Fintype.sum_equiv idxEquiv1 f (fun q => f (ix1 q)) fun j => congrArg f (eq_ix1 j)

/-- The host sum from zero of the lane-0 entries of the N row blocks is the sum of the entries (q, 0, 0). -/
theorem hostSum_lane0 {N : Nat} (O : FVec Ideal ⟨3, ![N, 1, 128]⟩ .f32)
    (hs : (⟨3, ![N, 1, 128]⟩ : Shape).Slices ![0, 0, 0] ⟨3, ![N, 1, 1]⟩)
    (hc : (⟨3, ![N, 1, 1]⟩ : Shape).ShapeCasts ⟨1, ![N]⟩)
    (hr : (⟨1, ![N]⟩ : Shape).ReducesTo [0] ⟨0, ![]⟩) (hu : 0 < (⟨0, ![]⟩ : Shape).numel)
    (j : (⟨0, ![]⟩ : Shape).Idx) :
    Host.reduceAdd (shapeCast ⟨1, ![N]⟩ (extractStridedSlice ⟨3, ![N, 1, 1]⟩ ![0, 0, 0] O hs) hc)
        (constant (F := Ideal) ⟨0, ![]⟩ .f32 0x00000000#32) hr hu j
      = ∑ q : Fin N, O (ix3 q 0 0) := by
  unfold Host.reduceAdd
  rw [Ideal.hostReduceAdd_def, Ideal.hostReduceAdd_total hr (fun b => b.elim0), constant_apply,
    Ideal.ofBits_zero_f32, zero_add, sum_idx1]
  refine Finset.sum_congr rfl fun q _ => ?_
  rw [shapeCast_apply _ hc (ix1 q) (ix3 q 0 0) (by
    rw [Shape.rowMajor_val_three, Shape.rowMajor_val_one]
    show (q.val * 1 + 0) * 1 + 0 = q.val
    omega)]
  exact extractStridedSlice_apply _ _ hs (ix3 q 0 0) (ix3 q 0 0) fun a => by
    match a with
    | ⟨0, _⟩ => simp
    | ⟨1, _⟩ => simp
    | ⟨2, _⟩ => simp

end Cert.LibLane

end
-- ==== Proof.BridgeSums.lean ====
/-
  The kernel program's host sum of the stored lanes of a region's output array equals the reference's host sum of its
  integrand over every index, at the ideal instance (floats are extended reals, host sums are exact sums), for each of
  the four regions: the field error, the continuity residual, the momentum residuals and the no-slip term.

  Each statement takes as hypotheses what relates the two programs' data: that row q of the output array holds, in
  lane (0, 0, 0), what the kernel body stores for grid point q, and that the tile the body sums at grid point q is the
  reference's integrand restricted to batch entry q (for the field error: the rows of block q of the arguments
  viewed as [2048, 128, 64]). Given those, both sides are the same finite sum: the left one over the grid points of the
  sums over a tile, the right one over every index of the whole array, split batch entry by batch entry (row block by
  row block).
-/
import proofs.«165125_j53283364274443_1_alg».proof.Proof.PayloadSums
import proofs.«165125_j53283364274443_1_alg».proof.Proof.LibSlab
import proofs.«165125_j53283364274443_1_alg».proof.Proof.LibLane
import proofs.«165125_j53283364274443_1_alg».proof.Proof.LibSums
import proofs.«165125_j53283364274443_1_alg».proof.Proof.RefTerms

set_option maxRecDepth 16384

noncomputable section

namespace Cert.KernelIdeal.BridgeSums

open Cert.KernelIdeal Cert.KernelIdeal.Gen Cert.KernelIdeal.Tiles Cert.KernelIdeal.PayloadSums
open Idealize.ShloMosaic Idealize.ShloMosaic.ValueIdx

/-! ## The continuity residual -/

/-- The host sum of the lanes the continuity body stored, one per batch entry, is the reference's host sum of the
    squared masked divergence over the whole interior grid of every batch entry. -/
theorem cont_sums (O : FVec Ideal S8x1x128 .f32)
    (x0 : Fin 8 → Vec Ideal S1x4x64x128x64 .f32) (x1 : Fin 8 → Vec Ideal S1x1x64x128x64 .f32)
    (hO : ∀ q : Fin 8, O (ix3 q 0 0) = out1_2 (x0 q) (x1 q) (ix3 0 0 0))
    (a0 a2 : FVec Ideal S8x4x64x128x64 .f32) (a4 : FVec Ideal S8x1x64x128x64 .f32)
    (ht : ∀ q : Fin 8,
      k1_pay2 (View.ld (x0 q) r1_0) (View.ld (x0 q) r1_1) (View.ld (x0 q) r1_2) (View.ld (x1 q) r1_3)
        = Cert.LibSlab.slab q (Cert.RefTerms.contInt a0 a2 a4))
    (hr : Cert.RefTerms.S8x1x62x126x62.ReducesTo [0, 1, 2, 3, 4] Cert.RefTerms.S_)
    (hu : 0 < Cert.RefTerms.S_.numel) (j : S_.Idx) :
    Host.reduceAdd
        (shapeCast S8 (extractStridedSlice S8x1x1 ![0, 0, 0] O slices_S8x1x128_S8x1x1_0_0_0) shapeCasts_S8x1x1_S8)
        (constant (F := Ideal) S_ .f32 0x00000000#32) reducesTo_S8_S_d0 h_S_ j
      = Host.reduceAdd (Cert.RefTerms.contInt a0 a2 a4)
          (constant (F := Ideal) Cert.RefTerms.S_ .f32 0x00000000#32) hr hu j := by
  refine (Cert.LibLane.hostSum_lane0 (N := 8) O _ _ _ _ j).trans ?_
  refine Eq.symm ((Cert.LibSums.hostReduceAdd_all_zero _ hr hu j).trans ?_)
  rw [Cert.LibSlab.sum_slabs]
  refine Finset.sum_congr rfl fun q _ => ?_
  rw [hO q, cont_lane, ht q]

/-! ## The no-slip term -/

/-- The host sum of the lanes the no-slip body stored, one per batch entry, is the reference's host sum of the masked
    squared speed over the whole grid of every batch entry. -/
theorem noslip_sums (O : FVec Ideal S8x1x128 .f32)
    (x0 : Fin 8 → Vec Ideal S1x4x64x128x64 .f32) (x1 : Fin 8 → Vec Ideal S1x1x64x128x64 .f32)
    (hO : ∀ q : Fin 8, O (ix3 q 0 0) = out3_2 (x0 q) (x1 q) (ix3 0 0 0))
    (a0 a2 : FVec Ideal S8x4x64x128x64 .f32) (a4 : FVec Ideal S8x1x64x128x64 .f32)
    (ht : ∀ q : Fin 8,
      noslipTile (View.ld (x0 q) r3_0) (View.ld (x0 q) r3_1) (View.ld (x0 q) r3_2) (View.ld (x1 q) r3_3)
        = Cert.LibSlab.slab q (Cert.RefTerms.noslipInt a0 a2 a4))
    (hr : Cert.RefTerms.S8x1x64x128x64.ReducesTo [0, 1, 2, 3, 4] Cert.RefTerms.S_)
    (hu : 0 < Cert.RefTerms.S_.numel) (j : S_.Idx) :
    Host.reduceAdd
        (shapeCast S8 (extractStridedSlice S8x1x1 ![0, 0, 0] O slices_S8x1x128_S8x1x1_0_0_0) shapeCasts_S8x1x1_S8)
        (constant (F := Ideal) S_ .f32 0x00000000#32) reducesTo_S8_S_d0 h_S_ j
      = Host.reduceAdd (Cert.RefTerms.noslipInt a0 a2 a4)
          (constant (F := Ideal) Cert.RefTerms.S_ .f32 0x00000000#32) hr hu j := by
  refine (Cert.LibLane.hostSum_lane0 (N := 8) O _ _ _ _ j).trans ?_
  refine Eq.symm ((Cert.LibSums.hostReduceAdd_all_zero _ hr hu j).trans ?_)
  rw [Cert.LibSlab.sum_slabs]
  refine Finset.sum_congr rfl fun q _ => ?_
  rw [hO q, noslip_lane, ht q]

/-! ## The field error -/

/-- The host sum of the lanes the field-error body stored, one per block of 128 rows of the two arguments viewed as
    [2048, 128, 64], is the reference's host sum of the squared difference of the arguments over every index: a shape
    cast keeps the total, the 2048 rows are 16 blocks of 128, and on block q the body's tile is the squared difference
    of the two arguments' rows. -/
theorem field_sums (O : FVec Ideal S16x1x128 .f32) (x0 x1 : Fin 16 → Vec Ideal S128x128x64 .f32)
    (hO : ∀ q : Fin 16, O (ix3 q 0 0) = out0_2 (x0 q) (x1 q) (ix3 0 0 0))
    (a0 a2 : FVec Ideal S8x4x64x128x64 .f32) (a4 : FVec Ideal S8x1x64x128x64 .f32)
    (hc : S8x4x64x128x64.ShapeCasts S2048x128x64)
    (h0 : ∀ (q : Fin 16) (i : S128x128x64.Idx), View.ld (x0 q) r0_0 i
      = shapeCast S2048x128x64 a0 hc (ix3 ⟨128 * q.val + (i 0).val,
          Cert.LibSums.row_block_lt (T := 16) (R := 128) (N := 2048) (by norm_num) q (i 0)⟩ (i 1) (i 2)))
    (h1 : ∀ (q : Fin 16) (i : S128x128x64.Idx), View.ld (x1 q) r0_0 i
      = shapeCast S2048x128x64 a2 hc (ix3 ⟨128 * q.val + (i 0).val,
          Cert.LibSums.row_block_lt (T := 16) (R := 128) (N := 2048) (by norm_num) q (i 0)⟩ (i 1) (i 2)))
    (hr : Cert.RefTerms.S8x4x64x128x64.ReducesTo [0, 1, 2, 3, 4] Cert.RefTerms.S_)
    (hu : 0 < Cert.RefTerms.S_.numel) (j : S_.Idx) :
    Host.reduceAdd
        (shapeCast S16 (extractStridedSlice S16x1x1 ![0, 0, 0] O slices_S16x1x128_S16x1x1_0_0_0) shapeCasts_S16x1x1_S16)
        (constant (F := Ideal) S_ .f32 0x00000000#32) reducesTo_S16_S_d0 h_S_ j
      = Host.reduceAdd (Cert.RefTerms.fieldInt a0 a2 a4)
          (constant (F := Ideal) Cert.RefTerms.S_ .f32 0x00000000#32) hr hu j := by
  refine (Cert.LibLane.hostSum_lane0 (N := 16) O _ _ _ _ j).trans ?_
  refine Eq.symm ((Cert.LibSums.hostReduceAdd_all_zero _ hr hu j).trans ?_)
  rw [← Cert.LibSums.sum_shapeCast (Cert.RefTerms.fieldInt a0 a2 a4) hc, Cert.LibSums.sum_row_blocks_2048]
  refine Finset.sum_congr rfl fun q _ => ?_
  rw [hO q, sqdiff_lane]
  refine Finset.sum_congr rfl fun i _ => Eq.symm ?_
  unfold sqdiffTile
  rw [shapeCast_self, shapeCast_self]
  show (View.ld (x0 q) r0_0 i - View.ld (x1 q) r0_0 i) * (View.ld (x0 q) r0_0 i - View.ld (x1 q) r0_0 i) = _
  rw [h0 q i, h1 q i]
  rfl

/-! ## The momentum residuals -/

/-- The host sum of the lanes the momentum body stored, one per batch entry, is the reference's host sum of the three
    squared masked momentum residuals over the whole interior grid of every batch entry: the body stores the sum of
    its three tile sums, and a sum of sums over one index set is the sum of the pointwise sums. -/
theorem mom_sums (O : FVec Ideal S8x1x128 .f32)
    (x0 : Fin 8 → Vec Ideal S1x4x64x128x64 .f32) (x1 : Fin 8 → Vec Ideal S1x1x64x128x64 .f32)
    (hO : ∀ q : Fin 8, O (ix3 q 0 0) = out2_2 (x0 q) (x1 q) (ix3 0 0 0))
    (a0 a2 : FVec Ideal S8x4x64x128x64 .f32) (a4 : FVec Ideal S8x1x64x128x64 .f32)
    (hX : ∀ q : Fin 8,
      momTileX (k2_pay6 (View.ld (x1 q) r2_4)) (k2_pay13 (k2_pay2 (View.ld (x0 q) r2_0)) (k2_pay5 (View.ld (x0 q) r2_3)) (k2_pay7 (View.ld (x0 q) r2_0)) (k2_pay8 (View.ld (x0 q) r2_1)) (k2_pay9 (View.ld (x0 q) r2_2)) (k2_pay10 (View.ld (x0 q) r2_0)) (k2_pay11 (View.ld (x0 q) r2_0)) (k2_pay12 (View.ld (x0 q) r2_0))) (k2_pay14 (k2_pay2 (View.ld (x0 q) r2_0)))
        = Cert.LibSlab.slab q (mulf (Cert.RefTerms.r220 a0 a2 a4) (Cert.RefTerms.r220 a0 a2 a4)))
    (hY : ∀ q : Fin 8,
      momTileY (k2_pay3 (View.ld (x0 q) r2_1)) (k2_pay6 (View.ld (x1 q) r2_4)) (k2_pay7 (View.ld (x0 q) r2_0)) (k2_pay8 (View.ld (x0 q) r2_1)) (k2_pay9 (View.ld (x0 q) r2_2)) (k2_pay15 (k2_pay6 (View.ld (x1 q) r2_4)) (k2_pay13 (k2_pay2 (View.ld (x0 q) r2_0)) (k2_pay5 (View.ld (x0 q) r2_3)) (k2_pay7 (View.ld (x0 q) r2_0)) (k2_pay8 (View.ld (x0 q) r2_1)) (k2_pay9 (View.ld (x0 q) r2_2)) (k2_pay10 (View.ld (x0 q) r2_0)) (k2_pay11 (View.ld (x0 q) r2_0)) (k2_pay12 (View.ld (x0 q) r2_0))) (k2_pay14 (k2_pay2 (View.ld (x0 q) r2_0)))) (k2_pay16 (k2_pay3 (View.ld (x0 q) r2_1))) (k2_pay17 (k2_pay3 (View.ld (x0 q) r2_1))) (k2_pay18 (k2_pay3 (View.ld (x0 q) r2_1))) (k2_pay19 (k2_pay5 (View.ld (x0 q) r2_3))) (k2_pay20 (k2_pay3 (View.ld (x0 q) r2_1))) (k2_pay21 (k2_pay3 (View.ld (x0 q) r2_1)))
        = Cert.LibSlab.slab q (mulf (Cert.RefTerms.r222 a0 a2 a4) (Cert.RefTerms.r222 a0 a2 a4)))
    (hZ : ∀ q : Fin 8,
      momTileZ (k2_pay4 (View.ld (x0 q) r2_2)) (k2_pay5 (View.ld (x0 q) r2_3)) (k2_pay6 (View.ld (x1 q) r2_4)) (k2_pay7 (View.ld (x0 q) r2_0)) (k2_pay8 (View.ld (x0 q) r2_1)) (k2_pay9 (View.ld (x0 q) r2_2)) (k2_pay23 (k2_pay4 (View.ld (x0 q) r2_2))) (k2_pay24 (k2_pay4 (View.ld (x0 q) r2_2))) (k2_pay25 (k2_pay4 (View.ld (x0 q) r2_2)))
        = Cert.LibSlab.slab q (mulf (Cert.RefTerms.r225 a0 a2 a4) (Cert.RefTerms.r225 a0 a2 a4)))
    (hr : Cert.RefTerms.S8x1x62x126x62.ReducesTo [0, 1, 2, 3, 4] Cert.RefTerms.S_)
    (hu : 0 < Cert.RefTerms.S_.numel) (j : S_.Idx) :
    Host.reduceAdd
        (shapeCast S8 (extractStridedSlice S8x1x1 ![0, 0, 0] O slices_S8x1x128_S8x1x1_0_0_0) shapeCasts_S8x1x1_S8)
        (constant (F := Ideal) S_ .f32 0x00000000#32) reducesTo_S8_S_d0 h_S_ j
      = Host.reduceAdd (Cert.RefTerms.momInt a0 a2 a4)
          (constant (F := Ideal) Cert.RefTerms.S_ .f32 0x00000000#32) hr hu j := by
  refine (Cert.LibLane.hostSum_lane0 (N := 8) O _ _ _ _ j).trans ?_
  refine Eq.symm ((Cert.LibSums.hostReduceAdd_all_zero _ hr hu j).trans ?_)
  rw [Cert.LibSlab.sum_slabs]
  refine Finset.sum_congr rfl fun q _ => ?_
  rw [hO q, mom_lane, hX q, hY q, hZ q, ← Finset.sum_add_distrib, ← Finset.sum_add_distrib]
  exact Finset.sum_congr rfl fun i _ => rfl

end Cert.KernelIdeal.BridgeSums

end
-- ==== Proof.RegionSums.lean ====
/-
  Region by region: the host sum of the stored lanes of a region's output array is the reference's host sum of the
  corresponding integrand over every index, for ANY buffer contents at the region's entry — the field and the signed
  distance read off those contents.  Each statement puts together: the output array after the region (row q holds,
  in every lane, what the body stored at grid point q), the stored lane as a sum over the loaded tile, the loaded
  channels as the batch entry's channels, the tile as the restriction of the reference's integrand to the batch
  entry, and the sum over all indices as the sum over batch entries of the sums over tiles.
-/
import proofs.«165125_j53283364274443_1_alg».proof.Proof.RegionOut
import proofs.«165125_j53283364274443_1_alg».proof.Proof.LibSlab
import proofs.«165125_j53283364274443_1_alg».proof.Proof.TileMatch
import proofs.«165125_j53283364274443_1_alg».proof.Proof.BridgeSums

set_option maxRecDepth 16384

noncomputable section

namespace Cert.KernelIdeal.RegionSums

open Cert.KernelIdeal Cert.KernelIdeal.Gen Cert.KernelIdeal.RegionOut Cert.KernelIdeal.TileMatch Cert.KernelIdeal.BridgeSums Cert.LibSlab
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Region 1: what the body loads is the batch entry's channels -/

/-- Channel 0 of the field block at point q, as a [64,128,64] array, is channel 0 of batch entry q. -/
theorem chan1_0 (c : Dev nD) (q : Fin 8) :
    shapeCast S64x128x64 (View.ld (iblk1 V c 0 (pt1 q)) r1_0) shapeCasts_S1x1x64x128x64_S64x128x64
      = chan q 0 (V c main_arg0) := by
  funext i
  rw [ld1_c0 V c (pt1 q) i]
  rfl

/-- Channel 1 of the field block at point q, as a [64,128,64] array, is channel 1 of batch entry q. -/
theorem chan1_1 (c : Dev nD) (q : Fin 8) :
    shapeCast S64x128x64 (View.ld (iblk1 V c 0 (pt1 q)) r1_1) shapeCasts_S1x1x64x128x64_S64x128x64
      = chan q 1 (V c main_arg0) := by
  funext i
  rw [ld1_c1 V c (pt1 q) i]
  rfl

/-- Channel 2 of the field block at point q, as a [64,128,64] array, is channel 2 of batch entry q. -/
theorem chan1_2 (c : Dev nD) (q : Fin 8) :
    shapeCast S64x128x64 (View.ld (iblk1 V c 0 (pt1 q)) r1_2) shapeCasts_S1x1x64x128x64_S64x128x64
      = chan q 2 (V c main_arg0) := by
  funext i
  rw [ld1_c2 V c (pt1 q) i]
  rfl

/-- The signed-distance block at point q, as a [64,128,64] array, is batch entry q of the signed distance. -/
theorem sdf1 (c : Dev nD) (q : Fin 8) :
    shapeCast S64x128x64 (View.ld (iblk1 V c 1 (pt1 q)) r1_3) shapeCasts_S1x1x64x128x64_S64x128x64
      = slab q (V c main_arg4) := by
  funext i
  rw [ld1_w1 V c (pt1 q) i]
  rfl

/-! ## Region 2: what the body loads is the batch entry's channels -/

/-- Channel 0 of the field block at point q, as a [64,128,64] array, is channel 0 of batch entry q. -/
theorem chan2_0 (c : Dev nD) (q : Fin 8) :
    shapeCast S64x128x64 (View.ld (iblk2 V c 0 (pt2 q)) r2_0) shapeCasts_S1x1x64x128x64_S64x128x64
      = chan q 0 (V c main_arg0) := by
  funext i
  rw [ld2_c0 V c (pt2 q) i]
  rfl

/-- Channel 1 of the field block at point q, as a [64,128,64] array, is channel 1 of batch entry q. -/
theorem chan2_1 (c : Dev nD) (q : Fin 8) :
    shapeCast S64x128x64 (View.ld (iblk2 V c 0 (pt2 q)) r2_1) shapeCasts_S1x1x64x128x64_S64x128x64
      = chan q 1 (V c main_arg0) := by
  funext i
  rw [ld2_c1 V c (pt2 q) i]
  rfl

/-- Channel 2 of the field block at point q, as a [64,128,64] array, is channel 2 of batch entry q. -/
theorem chan2_2 (c : Dev nD) (q : Fin 8) :
    shapeCast S64x128x64 (View.ld (iblk2 V c 0 (pt2 q)) r2_2) shapeCasts_S1x1x64x128x64_S64x128x64
      = chan q 2 (V c main_arg0) := by
  funext i
  rw [ld2_c2 V c (pt2 q) i]
  rfl

/-- Channel 3 of the field block at point q, as a [64,128,64] array, is channel 3 of batch entry q. -/
theorem chan2_3 (c : Dev nD) (q : Fin 8) :
    shapeCast S64x128x64 (View.ld (iblk2 V c 0 (pt2 q)) r2_3) shapeCasts_S1x1x64x128x64_S64x128x64
      = chan q 3 (V c main_arg0) := by
  funext i
  rw [ld2_c3 V c (pt2 q) i]
  rfl

/-- The signed-distance block at point q, as a [64,128,64] array, is batch entry q of the signed distance. -/
theorem sdf2 (c : Dev nD) (q : Fin 8) :
    shapeCast S64x128x64 (View.ld (iblk2 V c 1 (pt2 q)) r2_4) shapeCasts_S1x1x64x128x64_S64x128x64
      = slab q (V c main_arg4) := by
  funext i
  rw [ld2_w1 V c (pt2 q) i]
  rfl

/-! ## Region 3: what the body loads is the batch entry's channels -/

/-- Channel 0 of the field block at point q, as a [64,128,64] array, is channel 0 of batch entry q. -/
theorem chan3_0 (c : Dev nD) (q : Fin 8) :
    shapeCast S64x128x64 (View.ld (iblk3 V c 0 (pt3 q)) r3_0) shapeCasts_S1x1x64x128x64_S64x128x64
      = chan q 0 (V c main_arg0) := by
  funext i
  rw [ld3_c0 V c (pt3 q) i]
  rfl

/-- Channel 1 of the field block at point q, as a [64,128,64] array, is channel 1 of batch entry q. -/
theorem chan3_1 (c : Dev nD) (q : Fin 8) :
    shapeCast S64x128x64 (View.ld (iblk3 V c 0 (pt3 q)) r3_1) shapeCasts_S1x1x64x128x64_S64x128x64
      = chan q 1 (V c main_arg0) := by
  funext i
  rw [ld3_c1 V c (pt3 q) i]
  rfl

/-- Channel 2 of the field block at point q, as a [64,128,64] array, is channel 2 of batch entry q. -/
theorem chan3_2 (c : Dev nD) (q : Fin 8) :
    shapeCast S64x128x64 (View.ld (iblk3 V c 0 (pt3 q)) r3_2) shapeCasts_S1x1x64x128x64_S64x128x64
      = chan q 2 (V c main_arg0) := by
  funext i
  rw [ld3_c2 V c (pt3 q) i]
  rfl

/-- The signed-distance block at point q, as a [64,128,64] array, is batch entry q of the signed distance. -/
theorem sdf3 (c : Dev nD) (q : Fin 8) :
    shapeCast S64x128x64 (View.ld (iblk3 V c 1 (pt3 q)) r3_3) shapeCasts_S1x1x64x128x64_S64x128x64
      = slab q (V c main_arg4) := by
  funext i
  rw [ld3_w1 V c (pt3 q) i]
  rfl

/-! ## The four regions -/

/-- Region 1 (continuity): the host sum of its eight stored lanes is the reference's sum of the squared masked
    divergence over every index. -/
theorem cont_region (c : Dev nD) (a2 : FVec Ideal S8x4x64x128x64 .f32)
    (hr : Cert.RefTerms.S8x1x62x126x62.ReducesTo [0, 1, 2, 3, 4] Cert.RefTerms.S_) (hu : 0 < Cert.RefTerms.S_.numel) (j : S_.Idx) :
    Host.reduceAdd (shapeCast S8 (extractStridedSlice S8x1x1 ![0, 0, 0] ((dat1 V c).arrAt 2 cfg1.N) slices_S8x1x128_S8x1x1_0_0_0) shapeCasts_S8x1x1_S8)
        (constant (F := Ideal) S_ .f32 0x00000000#32) reducesTo_S8_S_d0 h_S_ j
      = Host.reduceAdd (Cert.RefTerms.contInt (V c main_arg0) a2 (V c main_arg4))
          (constant (F := Ideal) Cert.RefTerms.S_ .f32 0x00000000#32) hr hu j := by
  rw [arr1 V c]
  exact cont_sums (G1 V c) (fun q => iblk1 V c 0 (pt1 q)) (fun q => iblk1 V c 1 (pt1 q))
    (fun q => G1_at V c (pt1 q) (ix3 q 0 0) (ix3 0 0 0) rfl rfl)
    (V c main_arg0) a2 (V c main_arg4)
    (fun q => cont_tile q (V c main_arg0) a2 (V c main_arg4) _ _ _ _
      (chan1_0 V c q) (chan1_1 V c q) (chan1_2 V c q) (sdf1 V c q)) hr hu j

/-- Region 3 (no-slip): the host sum of its eight stored lanes is the reference's sum of the masked squared speed
    over every index. -/
theorem noslip_region (c : Dev nD) (a2 : FVec Ideal S8x4x64x128x64 .f32)
    (hr : Cert.RefTerms.S8x1x64x128x64.ReducesTo [0, 1, 2, 3, 4] Cert.RefTerms.S_) (hu : 0 < Cert.RefTerms.S_.numel) (j : S_.Idx) :
    Host.reduceAdd (shapeCast S8 (extractStridedSlice S8x1x1 ![0, 0, 0] ((dat3 V c).arrAt 2 cfg3.N) slices_S8x1x128_S8x1x1_0_0_0) shapeCasts_S8x1x1_S8)
        (constant (F := Ideal) S_ .f32 0x00000000#32) reducesTo_S8_S_d0 h_S_ j
      = Host.reduceAdd (Cert.RefTerms.noslipInt (V c main_arg0) a2 (V c main_arg4))
          (constant (F := Ideal) Cert.RefTerms.S_ .f32 0x00000000#32) hr hu j := by
  rw [arr3 V c]
  exact noslip_sums (G3 V c) (fun q => iblk3 V c 0 (pt3 q)) (fun q => iblk3 V c 1 (pt3 q))
    (fun q => G3_at V c (pt3 q) (ix3 q 0 0) (ix3 0 0 0) rfl rfl)
    (V c main_arg0) a2 (V c main_arg4)
    (fun q => noslip_tile q (V c main_arg0) a2 (V c main_arg4) _ _ _ _
      (chan3_0 V c q) (chan3_1 V c q) (chan3_2 V c q) (sdf3 V c q)) hr hu j

/-- Region 2 (momentum): the host sum of its eight stored lanes is the reference's sum, over every index, of the
    three squared masked residuals added up. -/
theorem mom_region (c : Dev nD) (a2 : FVec Ideal S8x4x64x128x64 .f32)
    (hr : Cert.RefTerms.S8x1x62x126x62.ReducesTo [0, 1, 2, 3, 4] Cert.RefTerms.S_) (hu : 0 < Cert.RefTerms.S_.numel) (j : S_.Idx) :
    Host.reduceAdd (shapeCast S8 (extractStridedSlice S8x1x1 ![0, 0, 0] ((dat2 V c).arrAt 2 cfg2.N) slices_S8x1x128_S8x1x1_0_0_0) shapeCasts_S8x1x1_S8)
        (constant (F := Ideal) S_ .f32 0x00000000#32) reducesTo_S8_S_d0 h_S_ j
      = Host.reduceAdd (Cert.RefTerms.momInt (V c main_arg0) a2 (V c main_arg4))
          (constant (F := Ideal) Cert.RefTerms.S_ .f32 0x00000000#32) hr hu j := by
  rw [arr2 V c]
  exact mom_sums (G2 V c) (fun q => iblk2 V c 0 (pt2 q)) (fun q => iblk2 V c 1 (pt2 q))
    (fun q => G2_at V c (pt2 q) (ix3 q 0 0) (ix3 0 0 0) rfl rfl)
    (V c main_arg0) a2 (V c main_arg4)
    (fun q => momX_tile q (V c main_arg0) a2 (V c main_arg4) _ _ _ _ _
      (chan2_0 V c q) (chan2_1 V c q) (chan2_2 V c q) (chan2_3 V c q) (sdf2 V c q))
    (fun q => momY_tile q (V c main_arg0) a2 (V c main_arg4) _ _ _ _ _
      (chan2_0 V c q) (chan2_1 V c q) (chan2_2 V c q) (chan2_3 V c q) (sdf2 V c q) _)
    (fun q => momZ_tile q (V c main_arg0) a2 (V c main_arg4) _ _ _ _ _
      (chan2_0 V c q) (chan2_1 V c q) (chan2_2 V c q) (chan2_3 V c q) (sdf2 V c q)) hr hu j

/-- Region 0 (field error): the host sum of its sixteen stored lanes is the reference's sum of the squared field
    error over every index, when the region's two input arrays are the two field arrays laid out as [2048,128,64]. -/
theorem field_region (c : Dev nD) (a0 a2 : FVec Ideal S8x4x64x128x64 .f32)
    (h0 : V c main_v0 = shapeCast S2048x128x64 a0 shapeCasts_S8x4x64x128x64_S2048x128x64)
    (h1 : V c main_v1 = shapeCast S2048x128x64 a2 shapeCasts_S8x4x64x128x64_S2048x128x64)
    (a4 : FVec Ideal S8x1x64x128x64 .f32)
    (hr : Cert.RefTerms.S8x4x64x128x64.ReducesTo [0, 1, 2, 3, 4] Cert.RefTerms.S_) (hu : 0 < Cert.RefTerms.S_.numel) (j : S_.Idx) :
    Host.reduceAdd (shapeCast S16 (extractStridedSlice S16x1x1 ![0, 0, 0] ((dat0 V c).arrAt 2 cfg0.N) slices_S16x1x128_S16x1x1_0_0_0) shapeCasts_S16x1x1_S16)
        (constant (F := Ideal) S_ .f32 0x00000000#32) reducesTo_S16_S_d0 h_S_ j
      = Host.reduceAdd (Cert.RefTerms.fieldInt a0 a2 a4)
          (constant (F := Ideal) Cert.RefTerms.S_ .f32 0x00000000#32) hr hu j := by
  rw [arr0 V c]
  exact field_sums (G0 V c) (fun q => iblk0 V c 0 (pt0 q)) (fun q => iblk0 V c 1 (pt0 q))
    (fun q => G0_at V c (pt0 q) (ix3 q 0 0) (ix3 0 0 0) rfl rfl)
    a0 a2 a4 shapeCasts_S8x4x64x128x64_S2048x128x64
    (fun q i => (ld0_w0 V c (pt0 q) i).trans (congrFun h0 _))
    (fun q i => (ld0_w1 V c (pt0 q) i).trans (congrFun h1 _)) hr hu j

end Cert.KernelIdeal.RegionSums

end
-- ==== Proof.RefValue.lean ====
/-
  The reference's result, read off its generated run: the weighted total (the shared closing arithmetic) of the
  argument arrays and of four volume means, each a sum over EVERY index of a rank-5 array divided by the number
  of its entries.
-/
import proofs.«165125_j53283364274443_1_alg».proof.Proof.Gen.ReferenceIdeal.Run
import proofs.«165125_j53283364274443_1_alg».proof.Proof.Closing
import proofs.«165125_j53283364274443_1_alg».proof.Proof.RefTerms

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The mean over all entries of the squared difference of the two field arrays. -/
def fieldMean (V0 : Valuation τ sig (Elt F)) : FVec F S_ .f32 :=
  Host.divf (Host.reduceAdd (mulf (res_main_v0 V0) (res_main_v0 V0)) (constant S_ .f32 0x00000000#32) reducesTo_S8x4x64x128x64_S_d0_1_2_3_4 h_S_) (constant S_ .f32 0x4B800000#32)

/-- The mean over the interior grid of the squared masked divergence. -/
def contMean (V0 : Valuation τ sig (Elt F)) : FVec F S_ .f32 :=
  Host.divf (Host.reduceAdd (mulf (res_main_v36 V0) (res_main_v36 V0)) (constant S_ .f32 0x00000000#32) reducesTo_S8x1x62x126x62_S_d0_1_2_3_4 h_S_) (constant S_ .f32 0x4A6C7F00#32)

/-- The mean over the interior grid of the sum of the three squared masked momentum residuals. -/
def momMean (V0 : Valuation τ sig (Elt F)) : FVec F S_ .f32 :=
  Host.divf (Host.reduceAdd (addf (addf (mulf (res_main_v220 V0) (res_main_v220 V0)) (mulf (res_main_v222 V0) (res_main_v222 V0))) (mulf (res_main_v225 V0) (res_main_v225 V0))) (constant S_ .f32 0x00000000#32) reducesTo_S8x1x62x126x62_S_d0_1_2_3_4 h_S_) (constant S_ .f32 0x4A6C7F00#32)

/-- The mean over the whole grid of the squared speed where the signed distance is not positive. -/
def noslipMean (V0 : Valuation τ sig (Elt F)) : FVec F S_ .f32 :=
  Host.divf (Host.reduceAdd (mulf (addf (addf (mulf (res_main_v8 V0) (res_main_v8 V0)) (mulf (res_main_v9 V0) (res_main_v9 V0))) (mulf (res_main_v10 V0) (res_main_v10 V0))) (uitofp .f32 (cmpf .ole (V0 (Proc.devRef .tc main_arg4)) (broadcastInDim S8x1x64x128x64 ![] bcast_S_S8x1x64x128x64 (constant S_ .f32 0x00000000#32))))) (constant S_ .f32 0x00000000#32) reducesTo_S8x1x64x128x64_S_d0_1_2_3_4 h_S_) (constant S_ .f32 0x4A800000#32)

set_option maxHeartbeats 4000000 in
/-- The run's composed term is the closing arithmetic of the arguments and the four means. -/
theorem result_eq (V0 : Valuation τ sig (Elt F)) :
    addf (addf (addf (addf (addf (addf (mulf (constant S_ .f32 0x3F800000#32) (Host.divf (Host.reduceAdd (mulf (res_main_v0 V0) (res_main_v0 V0)) (constant S_ .f32 0x00000000#32) reducesTo_S8x4x64x128x64_S_d0_1_2_3_4 h_S_) (constant S_ .f32 0x4B800000#32))) (mulf (constant S_ .f32 0x41200000#32) (Host.divf (Host.reduceAdd (mulf (res_main_v4 V0) (res_main_v4 V0)) (constant S_ .f32 0x00000000#32) reducesTo_S8x1_S_d0_1 h_S_) (constant S_ .f32 0x41000000#32)))) (mulf (constant S_ .f32 0x3F800000#32) (Host.divf (Host.reduceAdd (mulf (res_main_v36 V0) (res_main_v36 V0)) (constant S_ .f32 0x00000000#32) reducesTo_S8x1x62x126x62_S_d0_1_2_3_4 h_S_) (constant S_ .f32 0x4A6C7F00#32)))) (mulf (constant S_ .f32 0x3F800000#32) (Host.divf (Host.reduceAdd (addf (addf (mulf (res_main_v220 V0) (res_main_v220 V0)) (mulf (res_main_v222 V0) (res_main_v222 V0))) (mulf (res_main_v225 V0) (res_main_v225 V0))) (constant S_ .f32 0x00000000#32) reducesTo_S8x1x62x126x62_S_d0_1_2_3_4 h_S_) (constant S_ .f32 0x4A6C7F00#32)))) (mulf (constant S_ .f32 0x41200000#32) (Host.divf (Host.reduceAdd (mulf (addf (addf (mulf (res_main_v8 V0) (res_main_v8 V0)) (mulf (res_main_v9 V0) (res_main_v9 V0))) (mulf (res_main_v10 V0) (res_main_v10 V0))) (uitofp .f32 (cmpf .ole (V0 (Proc.devRef .tc main_arg4)) (broadcastInDim S8x1x64x128x64 ![] bcast_S_S8x1x64x128x64 (constant S_ .f32 0x00000000#32))))) (constant S_ .f32 0x00000000#32) reducesTo_S8x1x64x128x64_S_d0_1_2_3_4 h_S_) (constant S_ .f32 0x4A800000#32)))) (mulf (constant S_ .f32 0x40A00000#32) (addf (addf (Host.divf (Host.reduceAdd (mulf (res_main_v244 V0) (res_main_v244 V0)) (constant S_ .f32 0x00000000#32) reducesTo_S8x1x64x128_S_d0_1_2_3 h_S_) (constant S_ .f32 0x47800000#32)) (Host.divf (Host.reduceAdd (mulf (res_main_v249 V0) (res_main_v249 V0)) (constant S_ .f32 0x00000000#32) reducesTo_S8x1x64x128_S_d0_1_2_3 h_S_) (constant S_ .f32 0x47800000#32))) (Host.divf (Host.reduceAdd (mulf (res_main_v255 V0) (res_main_v255 V0)) (constant S_ .f32 0x00000000#32) reducesTo_S8x1x64x128_S_d0_1_2_3 h_S_) (constant S_ .f32 0x47800000#32))))) (mulf (constant S_ .f32 0x3F800000#32) (addf (addf (Host.divf (Host.reduceAdd (mulf (res_main_v264 V0) (res_main_v264 V0)) (constant S_ .f32 0x00000000#32) reducesTo_S8x1x64x128_S_d0_1_2_3 h_S_) (constant S_ .f32 0x47800000#32)) (Host.divf (Host.reduceAdd (mulf (res_main_v272 V0) (res_main_v272 V0)) (constant S_ .f32 0x00000000#32) reducesTo_S8x1x64x128_S_d0_1_2_3 h_S_) (constant S_ .f32 0x47800000#32))) (Host.divf (Host.reduceAdd (mulf (res_main_v281 V0) (res_main_v281 V0)) (constant S_ .f32 0x00000000#32) reducesTo_S8x1x64x128_S_d0_1_2_3 h_S_) (constant S_ .f32 0x47800000#32))))
    = Cert.Closing.closing (V0 (Proc.devRef .tc main_arg0)) (V0 (Proc.devRef .tc main_arg1)) (V0 (Proc.devRef .tc main_arg3))
        (fieldMean V0) (contMean V0) (momMean V0) (noslipMean V0) := by
  rfl

/-! ## The four means over the neutral integrands -/

section Means
variable (V0 : Valuation τ sig (Elt F))

/-- The field mean is the host sum of the squared field error over every index, divided by the number of entries. -/
theorem fieldMean_eq : fieldMean V0
    = Host.divf (Host.reduceAdd (Cert.RefTerms.fieldInt (V0 (Proc.devRef .tc main_arg0)) (V0 (Proc.devRef .tc main_arg2)) (V0 (Proc.devRef .tc main_arg4)))
        (constant S_ .f32 0x00000000#32) reducesTo_S8x4x64x128x64_S_d0_1_2_3_4 h_S_) (constant S_ .f32 0x4B800000#32) := rfl

/-- The continuity mean likewise, over the interior grid. -/
theorem contMean_eq : contMean V0
    = Host.divf (Host.reduceAdd (Cert.RefTerms.contInt (V0 (Proc.devRef .tc main_arg0)) (V0 (Proc.devRef .tc main_arg2)) (V0 (Proc.devRef .tc main_arg4)))
        (constant S_ .f32 0x00000000#32) reducesTo_S8x1x62x126x62_S_d0_1_2_3_4 h_S_) (constant S_ .f32 0x4A6C7F00#32) := rfl

/-- The momentum mean likewise. -/
theorem momMean_eq : momMean V0
    = Host.divf (Host.reduceAdd (Cert.RefTerms.momInt (V0 (Proc.devRef .tc main_arg0)) (V0 (Proc.devRef .tc main_arg2)) (V0 (Proc.devRef .tc main_arg4)))
        (constant S_ .f32 0x00000000#32) reducesTo_S8x1x62x126x62_S_d0_1_2_3_4 h_S_) (constant S_ .f32 0x4A6C7F00#32) := rfl

/-- The no-slip mean likewise, over the whole grid. -/
theorem noslipMean_eq : noslipMean V0
    = Host.divf (Host.reduceAdd (Cert.RefTerms.noslipInt (V0 (Proc.devRef .tc main_arg0)) (V0 (Proc.devRef .tc main_arg2)) (V0 (Proc.devRef .tc main_arg4)))
        (constant S_ .f32 0x00000000#32) reducesTo_S8x1x64x128x64_S_d0_1_2_3_4 h_S_) (constant S_ .f32 0x4A800000#32) := rfl

end Means

end Cert.ReferenceIdeal.RefValue

end
-- ==== Proof.Value.lean ====
/-
  The two programs' results as ONE function of the argument arrays.  At the ideal instance the kernel program's
  result buffer ends at the closing arithmetic of its arguments and of four means, each the host sum of the lanes
  its regions stored, divided by a count; region by region that host sum is the reference's sum of the corresponding
  integrand over every index, so the result is the closing arithmetic of the reference's own four means — which is
  what the reference's run leaves in its result buffer.
-/
import proofs.«165125_j53283364274443_1_alg».proof.Proof.KernelRun
import proofs.«165125_j53283364274443_1_alg».proof.Proof.RegionSums
import proofs.«165125_j53283364274443_1_alg».proof.Proof.RefValue

set_option maxRecDepth 16384

noncomputable section

namespace Cert.Value

open Idealize.ShloMosaic Idealize.ShloMosaic.TcCoe Idealize.SL.Sem

/-- A mean as both programs take it: the host sum from zero over every index, divided by a constant. -/
def mean {s : Shape} {axes : List (Fin s.rank)} (X : FVec Ideal s .f32) (h : s.ReducesTo axes Cert.RefTerms.S_) (w : BitVec 32) :
    FVec Ideal Cert.RefTerms.S_ .f32 :=
  Host.divf (Host.reduceAdd X (constant (F := Ideal) Cert.RefTerms.S_ .f32 0x00000000#32) h (by decide))
    (constant (F := Ideal) Cert.RefTerms.S_ .f32 w)

/-- The loss as a function of the five argument arrays: the closing arithmetic of the field, the two thrust
    coefficient arrays, and the means of the four integrands. -/
def loss (a0 : FVec Ideal Cert.RefTerms.S8x4x64x128x64 .f32) (a1 : FVec Ideal Cert.Closing.S8x1 .f32)
    (a2 : FVec Ideal Cert.RefTerms.S8x4x64x128x64 .f32) (a3 : FVec Ideal Cert.Closing.S8x1 .f32)
    (a4 : FVec Ideal Cert.RefTerms.S8x1x64x128x64 .f32) : FVec Ideal Cert.Closing.S_ .f32 :=
  Cert.Closing.closing a0 a1 a3
    (mean (Cert.RefTerms.fieldInt a0 a2 a4) (by decide : Cert.RefTerms.S8x4x64x128x64.ReducesTo [0, 1, 2, 3, 4] Cert.RefTerms.S_) 0x4B800000#32)
    (mean (Cert.RefTerms.contInt a0 a2 a4) (by decide : Cert.RefTerms.S8x1x62x126x62.ReducesTo [0, 1, 2, 3, 4] Cert.RefTerms.S_) 0x4A6C7F00#32)
    (mean (Cert.RefTerms.momInt a0 a2 a4) (by decide : Cert.RefTerms.S8x1x62x126x62.ReducesTo [0, 1, 2, 3, 4] Cert.RefTerms.S_) 0x4A6C7F00#32)
    (mean (Cert.RefTerms.noslipInt a0 a2 a4) (by decide : Cert.RefTerms.S8x1x64x128x64.ReducesTo [0, 1, 2, 3, 4] Cert.RefTerms.S_) 0x4A800000#32)

/-! ## The kernel program -/

section Kernel
open Cert.KernelIdeal Cert.KernelIdeal.Gen Cert.KernelIdeal.RunValue Cert.KernelIdeal.RegionSums

variable (m : (ℓ : Loc nD τ sig) → Buf (Elt Ideal) ℓ) (ρ : Dev nD → PrngReg)

/-- The result buffer through the fold of host stretches and regions is the loss of the launch contents. -/
theorem kernel_value (c : Dev nD) :
    W9 m ρ c (Proc.devRef .tc main_v86)
      = loss (m ((c : Thread nD τ).loc main_arg0)) (m ((c : Thread nD τ).loc main_arg1)) (m ((c : Thread nD τ).loc main_arg2))
          (m ((c : Thread nD τ).loc main_arg3)) (m ((c : Thread nD τ).loc main_arg4)) := by
  rw [W9_main_v86 m ρ c]
  unfold loss mean
  have hf := funext fun j => field_region (V1 m ρ) c _ _ (V1_main_v0 m ρ c) (V1_main_v1 m ρ c)
    (m ((c : Thread nD τ).loc main_arg4)) (by decide) (by decide) j
  have hc := funext fun j => cont_region (V3 m ρ) c (m ((c : Thread nD τ).loc main_arg2)) (by decide) (by decide) j
  have hm := funext fun j => mom_region (V5 m ρ) c (m ((c : Thread nD τ).loc main_arg2)) (by decide) (by decide) j
  have hn := funext fun j => noslip_region (V7 m ρ) c (m ((c : Thread nD τ).loc main_arg2)) (by decide) (by decide) j
  rw [V3_main_arg0 m ρ c, V3_main_arg4 m ρ c] at hc
  rw [V5_main_arg0 m ρ c, V5_main_arg4 m ρ c] at hm
  rw [V7_main_arg0 m ρ c, V7_main_arg4 m ρ c] at hn
  rw [hf, hc, hm, hn]

/-- The kernel program's run with its result named: the loss of the arguments. -/
theorem kernel_run : θ_run defs (onTc (τ := τ) (main (F := Ideal))) ⟨m, fun _ => 0, ρ⟩ (fun r => ∀ c : Dev nD,
      r.2.mem ((c.tc : Thread nD τ).loc main_v86)
        = loss (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (kernel_value m ρ c), (h c).2⟩) (run_named (F := Ideal) m ρ)

end Kernel

/-! ## The reference -/

section Reference
open Cert.ReferenceIdeal Cert.ReferenceIdeal.Gen Cert.ReferenceIdeal.Value Cert.ReferenceIdeal.RefValue

variable (m : (ℓ : Loc nD τ sig) → Buf (Elt Ideal) ℓ) (ρ : Dev nD → PrngReg)

/-- The reference's run with its result named: the loss of the arguments. -/
theorem reference_run : θ_run defs (onTc (τ := τ) (main (F := Ideal))) ⟨m, fun _ => 0, ρ⟩ (fun r => ∀ c : Dev nD,
      r.2.mem ((c.tc : Thread nD τ).loc main_v298)
        = loss (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (by
      rw [result_eq, fieldMean_eq, contMean_eq, momMean_eq, noslipMean_eq]
      rfl), (h c).2⟩) (Cert.ReferenceIdeal.Value.run (F := Ideal) m ρ)

end Reference

end Cert.Value

end
-- ==== Proof.lean ====
/-
  The certificate of a physics-informed loss: a Pallas program of four kernels (the squared field error tiled over
  rows; and, per batch entry, the squared masked divergence, the three squared masked momentum residuals and the
  masked squared speed, each summed to one scalar stored in every lane of an output block) followed by host
  arithmetic, against a plain jnp reference that forms the same four integrands on whole arrays, sums each over
  every index and applies the same closing arithmetic.

  At the ideal instance both results are the same function `Cert.Value.loss` of the five argument arrays.  The only
  difference between the programs is the ARRANGEMENT of four finite sums of extended reals — a sum over every index
  of a rank-5 array against the sum over batch entries (or row blocks) of the sums over tiles, and a sum of a sum of
  three terms against the sum of three sums — and sums of extended reals may be regrouped and reordered freely
  (addition is commutative and associative also at the infinities), so the precondition is not used.  The ideal pass
  rewrote nothing, so `preserves` is `True`.  The three frames are the generated ones.
-/
import proofs.«165125_j53283364274443_1_alg».proof.Defs
import proofs.«165125_j53283364274443_1_alg».proof.Proof.Gen.Kernel
import proofs.«165125_j53283364274443_1_alg».proof.Proof.Gen.Kernel.Skeleton
import proofs.«165125_j53283364274443_1_alg».proof.Proof.Gen.Kernel.Launch
import proofs.«165125_j53283364274443_1_alg».proof.Proof.Gen.Kernel.Points
import proofs.«165125_j53283364274443_1_alg».proof.Proof.Gen.Kernel.Frame
import proofs.«165125_j53283364274443_1_alg».proof.Proof.Gen.KernelIdeal
import proofs.«165125_j53283364274443_1_alg».proof.Proof.Gen.KernelIdeal.Skeleton
import proofs.«165125_j53283364274443_1_alg».proof.Proof.Gen.KernelIdeal.Launch
import proofs.«165125_j53283364274443_1_alg».proof.Proof.Gen.KernelIdeal.Points
import proofs.«165125_j53283364274443_1_alg».proof.Proof.Gen.KernelIdeal.Frame
import proofs.«165125_j53283364274443_1_alg».proof.Proof.Gen.ReferenceIdeal
import proofs.«165125_j53283364274443_1_alg».proof.Proof.Gen.ReferenceIdeal.Run
import proofs.«165125_j53283364274443_1_alg».proof.Proof.Gen.Pre_finite_inputs
import proofs.«165125_j53283364274443_1_alg».proof.Proof.Value
import Idealize.ShloMosaic.Adequacy
import Idealize.ShloMosaic.Init

noncomputable section

namespace Cert.Proof

open Idealize.ShloMosaic Idealize.ShloMosaic.TcCoe Idealize.SL.Sem

namespace Claims

/-- The word-level kernel program runs and leaves its arguments unchanged: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the loss of the arguments in their result
    buffers. -/
theorem algebraic : Cert.algebraic_KernelIdeal_ReferenceIdeal := by
  intro m ρ m' ρ' _ hagree
  refine ⟨_, Cert.Value.kernel_run m ρ, ?_⟩
  refine (θ_run Cert.ReferenceIdeal.defs _ _).mono (fun _ h c => ⟨(h c).1.trans ?_, (h c).2⟩)
    (Cert.Value.reference_run m' ρ')
  rw [(hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
